-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S512x27 : Shape := ⟨2, ![512, 27]⟩
abbrev S128x128 : Shape := ⟨2, ![128, 128]⟩
abbrev S128 : Shape := ⟨1, ![128]⟩
abbrev S155x128 : Shape := ⟨2, ![155, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S512x27 : S_.BroadcastsInDim S512x27 (![] : Fin 0 → Fin S512x27.rank)
  reducesTo_S512x27_S_d0_1 : S512x27.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S155x128 : S_.BroadcastsInDim S155x128 (![] : Fin 0 → Fin S155x128.rank)
  reducesTo_S155x128_S_d0_1 : S155x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S128 .f32) (main_arg10 : FVec F S155x128 .f32) (main_arg11 : FVec F S128 .f32) (main_arg12 : FVec F S128x1 .f32) (main_arg13 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S155x128 .f32 := Host.absf main_arg10
  let main_cst_14 : FVec F S_ .f32 := constant S_ .f32 0x7F800000#32
  let main_v40 : FVec F S155x128 .f32 := broadcastInDim S155x128 ![] bcast_S_S155x128 main_cst_14
  let main_v41 : IVec S155x128 1 := cmpf .olt main_v39 main_v40
  let main_c_15 : IVec S_ 1 := constantI S_ 1 1#1
  let main_v42 : IVec S_ 1 := (fun x v => Host.reduce IntOp.andi x v reducesTo_S155x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg12
  let main_cst_18 : FVec F S_ .f32 := constant S_ .f32 0x7F800000#32
  let main_v50 : FVec F S128x1 .f32 := broadcastInDim S128x1 ![] bcast_S_S128x1 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S155x128 .f32) (main_arg11 : FVec F S128 .f32) (main_arg12 : FVec F S128x1 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x600000 32) (main_arg2 : IVec S50000 32) (main_arg3 : FVec F S512x27 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S155x128 .f32) (main_arg11 : FVec F S128 .f32) (main_arg12 : FVec F S128x1 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S512x27 .f32 := Host.absf main_arg3
  let main_cst_0 : FVec F S_ .f32 := constant S_ .f32 0x7F800000#32
  let main_v5 : FVec F S512x27 .f32 := broadcastInDim S512x27 ![] bcast_S_S512x27 main_cst_0
  let main_v6 : IVec S512x27 1 := cmpf .olt main_v4 main_v5
  let main_c_1 : IVec S_ 1 := constantI S_ 1 1#1
  let main_v7 : IVec S_ 1 := (fun x v => Host.reduce IntOp.andi x v reducesTo_S512x27_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S512x27 : Shape := ⟨2, ![512, 27]⟩
abbrev S128x128 : Shape := ⟨2, ![128, 128]⟩
abbrev S128 : Shape := ⟨1, ![128]⟩
abbrev S155x128 : Shape := ⟨2, ![155, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S2000x128 : Shape := ⟨2, ![2000, 128]⟩
abbrev S2000x1 : Shape := ⟨2, ![2000, 1]⟩
abbrev S650000x128 : Shape := ⟨2, ![650000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x155 : Shape := ⟨2, ![512, 155]⟩
abbrev S1x1 : Shape := ⟨2, ![1, 1]⟩

abbrev nBuf : Space → Nat
  | .hbm => 114
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S512x27, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S155x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S50000, .i32⟩
  | .hbm, ⟨15, _⟩ => ⟨S1x600000, .i32⟩
  | .hbm, ⟨16, _⟩ => ⟨S600000, .i32⟩
  | .hbm, ⟨17, _⟩ => ⟨S650000, .i32⟩
  | .hbm, ⟨18, _⟩ => ⟨S1x600000, .i32⟩
  | .hbm, ⟨19, _⟩ => ⟨S600000, .i32⟩
  | .hbm, ⟨20, _⟩ => ⟨S650000, .i32⟩
  | .hbm, ⟨21, _⟩ => ⟨S_, .f32⟩
  | .hbm, ⟨22, _⟩ => ⟨S650000, .f32⟩
  | .hbm, ⟨23, _⟩ => ⟨S_, .f32⟩
  | .hbm, ⟨24, _⟩ => ⟨S50000, .f32⟩
  | .hbm, ⟨25, _⟩ => ⟨S650000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .bf16⟩
  | .hbm, ⟨33, _⟩ => ⟨S128x128, .bf16⟩
  | .hbm, ⟨34, _⟩ => ⟨S50000x128, .bf16⟩
  | .hbm, ⟨35, _⟩ => ⟨S_, .i32⟩
  | .hbm, ⟨36, _⟩ => ⟨S650000, .i32⟩
  | .hbm, ⟨37, _⟩ => ⟨S650000, .i1⟩
  | .hbm, ⟨38, _⟩ => ⟨S_, .i32⟩
  | .hbm, ⟨39, _⟩ => ⟨S650000, .i32⟩
  | .hbm, ⟨40, _⟩ => ⟨S650000, .i32⟩
  | .hbm, ⟨41, _⟩ => ⟨S650000, .i32⟩
  | .hbm, ⟨42, _⟩ => ⟨S650000x1, .i32⟩
  | .hbm, ⟨43, _⟩ => ⟨S650000x128, .bf16⟩
  | .hbm, ⟨44, _⟩ => ⟨S650000x128, .f32⟩
  | .hbm, ⟨45, _⟩ => ⟨S_, .f32⟩
  | .hbm, ⟨46, _⟩ => ⟨S50000x128, .f32⟩
  | .hbm, ⟨47, _⟩ => ⟨S650000x1, .i32⟩
  | .hbm, ⟨48, _⟩ => ⟨S50000x128, .f32⟩
  | .hbm, ⟨49, _⟩ => ⟨S128x128, .bf16⟩
  | .hbm, ⟨50, _⟩ => ⟨S1x128, .f32⟩
  | .hbm, ⟨51, _⟩ => ⟨S50000x128, .bf16⟩
  | .hbm, ⟨52, _⟩ => ⟨S_, .i32⟩
  | .hbm, ⟨53, _⟩ => ⟨S650000, .i32⟩
  | .hbm, ⟨54, _⟩ => ⟨S650000, .i1⟩
  | .hbm, ⟨55, _⟩ => ⟨S_, .i32⟩
  | .hbm, ⟨56, _⟩ => ⟨S650000, .i32⟩
  | .hbm, ⟨57, _⟩ => ⟨S650000, .i32⟩
  | .hbm, ⟨58, _⟩ => ⟨S650000, .i32⟩
  | .hbm, ⟨59, _⟩ => ⟨S650000x1, .i32⟩
  | .hbm, ⟨60, _⟩ => ⟨S650000x128, .bf16⟩
  | .hbm, ⟨61, _⟩ => ⟨S650000x128, .f32⟩
  | .hbm, ⟨62, _⟩ => ⟨S_, .f32⟩
  | .hbm, ⟨63, _⟩ => ⟨S50000x128, .f32⟩
  | .hbm, ⟨64, _⟩ => ⟨S650000x1, .i32⟩
  | .hbm, ⟨65, _⟩ => ⟨S50000x128, .f32⟩
  | .hbm, ⟨66, _⟩ => ⟨S128x128, .bf16⟩
  | .hbm, ⟨67, _⟩ => ⟨S1x128, .f32⟩
  | .hbm, ⟨68, _⟩ => ⟨S50000x128, .bf16⟩
  | .hbm, ⟨69, _⟩ => ⟨S_, .i32⟩
  | .hbm, ⟨70, _⟩ => ⟨S650000, .i32⟩
  | .hbm, ⟨71, _⟩ => ⟨S650000, .i1⟩
  | .hbm, ⟨72, _⟩ => ⟨S_, .i32⟩
  | .hbm, ⟨73, _⟩ => ⟨S650000, .i32⟩
  | .hbm, ⟨74, _⟩ => ⟨S650000, .i32⟩
  | .hbm, ⟨75, _⟩ => ⟨S650000, .i32⟩
  | .hbm, ⟨76, _⟩ => ⟨S650000x1, .i32⟩
  | .hbm, ⟨77, _⟩ => ⟨S650000x128, .bf16⟩
  | .hbm, ⟨78, _⟩ => ⟨S650000x128, .f32⟩
  | .hbm, ⟨79, _⟩ => ⟨S_, .f32⟩
  | .hbm, ⟨80, _⟩ => ⟨S50000x128, .f32⟩
  | .hbm, ⟨81, _⟩ => ⟨S650000x1, .i32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S512x128, .f32⟩
  | .hbm, ⟨93, _⟩ => ⟨S50000x1, .i32⟩
  | .hbm, ⟨94, _⟩ => ⟨S512x128, .f32⟩
  | .hbm, ⟨95, _⟩ => ⟨S_, .f32⟩
  | .hbm, ⟨96, _⟩ => ⟨S50000, .f32⟩
  | .hbm, ⟨97, _⟩ => ⟨S_, .f32⟩
  | .hbm, ⟨98, _⟩ => ⟨S512, .f32⟩
  | .hbm, ⟨99, _⟩ => ⟨S50000x1, .i32⟩
  | .hbm, ⟨100, _⟩ => ⟨S512, .f32⟩
  | .hbm, ⟨101, _⟩ => ⟨S_, .f32⟩
  | .hbm, ⟨102, _⟩ => ⟨S512, .f32⟩
  | .hbm, ⟨103, _⟩ => ⟨S512, .f32⟩
  | .hbm, ⟨104, _⟩ => ⟨S512x1, .f32⟩
  | .hbm, ⟨105, _⟩ => ⟨S512x128, .f32⟩
  | .hbm, ⟨106, _⟩ => ⟨S512x128, .f32⟩
  | .hbm, ⟨107, _⟩ => ⟨S512x155, .f32⟩
  | .hbm, ⟨108, _⟩ => ⟨S512x155, .bf16⟩
  | .hbm, ⟨109, _⟩ => ⟨S155x128, .bf16⟩
  | .hbm, ⟨110, _⟩ => ⟨S128x1, .bf16⟩
  | .hbm, ⟨111, _⟩ => ⟨S1x128, .f32⟩
  | .hbm, ⟨112, _⟩ => ⟨S1x1, .f32⟩
  | .hbm, ⟨113, _⟩ => ⟨S512x1, .f32⟩
  | .local _ .vmem, ⟨0, _⟩ => ⟨S2000x128, .bf16⟩
  | .local _ .vmem, ⟨1, _⟩ => ⟨S2000x128, .bf16⟩
  | .local _ .vmem, ⟨2, _⟩ => ⟨S128x128, .bf16⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S128x128, .bf16⟩
  | .local _ .vmem, ⟨11, _⟩ => ⟨S2000x1, .f32⟩
  | .local _ .vmem, ⟨12, _⟩ => ⟨S2000x1, .f32⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S128x128, .bf16⟩
  | .local _ .vmem, ⟨19, _⟩ => ⟨S2000x1, .f32⟩
  | .local _ .vmem, ⟨20, _⟩ => ⟨S2000x1, .f32⟩
  | .local _ .vmem, ⟨21, _⟩ => ⟨S2000x128, .bf16⟩
  | .local _ .vmem, ⟨22, _⟩ => ⟨S2000x128, .bf16⟩
  | .local _ .vmem, ⟨23, _⟩ => ⟨S512x155, .bf16⟩
  | .local _ .vmem, ⟨24, _⟩ => ⟨S155x128, .bf16⟩
  | .local _ .vmem, ⟨25, _⟩ => ⟨S1x128, .f32⟩
  | .local _ .vmem, ⟨26, _⟩ => ⟨S128x1, .bf16⟩
  | .local _ .vmem, ⟨27, _⟩ => ⟨S1x1, .f32⟩
  | .local _ .vmem, ⟨28, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call0_cst : Ref sig .tc := ⟨.hbm, 88, rfl⟩
abbrev main_call0_v0 : Ref sig .tc := ⟨.hbm, 89, rfl⟩
abbrev main_v62 : Ref sig .tc := ⟨.hbm, 90, rfl⟩
abbrev main_cst_10 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_11 : Ref sig .tc := ⟨.hbm, 95, rfl⟩
abbrev main_v66 : Ref sig .tc := ⟨.hbm, 96, rfl⟩
abbrev main_cst_12 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x155 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S155x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x1 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S50000_S50000x1_0 : S50000.BroadcastsInDim S50000x1 (![0] : Fin 1 → Fin S50000x1.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  concatenates_S512x128_S512x27_S512x155_d1 : Shape.Concatenates [S512x128, S512x27] S512x155 1
  shapeCasts_S1_S1x1 : S1.ShapeCasts S1x1
  inb_S512x155_S512x155_0_0 : ∀ a, (![0, 0] : Fin 2 → Nat) a + S512x155.size a ≤ S512x155.size a
  h_S512x155 : 0 < S512x155.numel
  shapeCasts_S512x155_S512x155 : S512x155.ShapeCasts S512x155
  inb_S155x128_S155x128_0_0 : ∀ a, (![0, 0] : Fin 2 → Nat) a + S155x128.size a ≤ S155x128.size a
  h_S155x128 : 0 < S155x128.numel
  shapeCasts_S155x128_S155x128 : S155x128.ShapeCasts S155x128
  broadcasts_S1x128_S512x128 : S1x128.Broadcasts S512x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S50000_S650000x1_S650000_n_0_0_1_wf : ScatterDims.WF S50000 S650000x1 S650000 [] [0] [0] 1
  dot_S2000x128_S128x128_S2000x128_1_0_0_1_n_n_wf : DotDims.WF S2000x128 S128x128 S2000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x155_S155x128_S512x128_1_0_0_1_n_n_wf : DotDims.WF S512x155 S155x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .bf16 = 32 ∨ (Rect.block (s := S50000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .bf16 = 32 ∨ (Rect.block (s := S50000x128) S2000x128.size (cc2_transform_4 i) (hinb2_4 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x155.size a ≤ S512x155.size a
  hwx3_0 : ∀ i : grid3.Coords, EltTy.bits .bf16 = 32 ∨ (Rect.block (s := S512x155) S512x155.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S155x128.size a ≤ S155x128.size a
  hwx3_1 : ∀ i : grid3.Coords, EltTy.bits .bf16 = 32 ∨ (Rect.block (s := S155x128) S155x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x1.size a ≤ S128x1.size a
  hwx3_3 : ∀ i : grid3.Coords, EltTy.bits .bf16 = 32 ∨ (Rect.block (s := S128x1) S128x1.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x1.size a ≤ S512x1.size a
  hwx3_5 : ∀ i : grid3.Coords, EltTy.bits .f32 = 32 ∨ (Rect.block (s := S512x1) S512x1.size (cc3_transform_5 i) (hinb3_5 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x155_S155x128_S512x128_1_0_0_1_n_n : DotDims S512x155 S155x128 S512x128 where
  lhsContracting := [1]
  rhsContracting := [0]
  lhsNonContracting := [0]
  rhsNonContracting := [1]
  lhsBatch := []
  rhsBatch := []
  wf := dot_S512x155_S155x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v15) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v45) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v76) S512x155.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v77) S155x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S128x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S512x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S512x27 : Shape := ⟨2, ![512, 27]⟩
abbrev S128x128 : Shape := ⟨2, ![128, 128]⟩
abbrev S128 : Shape := ⟨1, ![128]⟩
abbrev S155x128 : Shape := ⟨2, ![155, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x155 : Shape := ⟨2, ![512, 155]⟩
abbrev S1x1 : Shape := ⟨2, ![1, 1]⟩

abbrev nBuf : Space → Nat
  | .hbm => 147
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S512x27, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S155x128, .f32⟩
  | 11 => ⟨S128, .f32⟩
  | 12 => ⟨S128x1, .f32⟩
  | 13 => ⟨S1, .f32⟩
  | 14 => ⟨S50000, .i32⟩
  | 15 => ⟨S1x600000, .i32⟩
  | 16 => ⟨S600000, .i32⟩
  | 17 => ⟨S650000, .i32⟩
  | 18 => ⟨S1x600000, .i32⟩
  | 19 => ⟨S600000, .i32⟩
  | 20 => ⟨S650000, .i32⟩
  | 21 => ⟨S_, .f32⟩
  | 22 => ⟨S650000, .f32⟩
  | 23 => ⟨S_, .f32⟩
  | 24 => ⟨S50000, .f32⟩
  | 25 => ⟨S650000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S650000, .i32⟩
  | 33 => ⟨S650000, .i1⟩
  | 34 => ⟨S_, .i32⟩
  | 35 => ⟨S650000, .i32⟩
  | 36 => ⟨S650000, .i32⟩
  | 37 => ⟨S650000, .i32⟩
  | 38 => ⟨S650000x1, .i32⟩
  | 39 => ⟨S650000, .f32⟩
  | 40 => ⟨S_, .i32⟩
  | 41 => ⟨S650000, .i32⟩
  | 42 => ⟨S650000, .i1⟩
  | 43 => ⟨S_, .i32⟩
  | 44 => ⟨S650000, .i32⟩
  | 45 => ⟨S650000, .i32⟩
  | 46 => ⟨S650000, .i32⟩
  | 47 => ⟨S650000x1, .i32⟩
  | 48 => ⟨S650000, .f32⟩
  | 49 => ⟨S650000, .f32⟩
  | 50 => ⟨S50000x128, .f32⟩
  | 51 => ⟨S_, .i32⟩
  | 52 => ⟨S650000, .i32⟩
  | 53 => ⟨S650000, .i1⟩
  | 54 => ⟨S_, .i32⟩
  | 55 => ⟨S650000, .i32⟩
  | 56 => ⟨S650000, .i32⟩
  | 57 => ⟨S650000, .i32⟩
  | 58 => ⟨S650000x1, .i32⟩
  | 59 => ⟨S650000x128, .f32⟩
  | 60 => ⟨S650000x1, .f32⟩
  | 61 => ⟨S650000x128, .f32⟩
  | 62 => ⟨S650000x128, .f32⟩
  | 63 => ⟨S_, .f32⟩
  | 64 => ⟨S50000x128, .f32⟩
  | 65 => ⟨S650000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S_, .i32⟩
  | 75 => ⟨S650000, .i32⟩
  | 76 => ⟨S650000, .i1⟩
  | 77 => ⟨S_, .i32⟩
  | 78 => ⟨S650000, .i32⟩
  | 79 => ⟨S650000, .i32⟩
  | 80 => ⟨S650000, .i32⟩
  | 81 => ⟨S650000x1, .i32⟩
  | 82 => ⟨S650000x128, .f32⟩
  | 83 => ⟨S650000x1, .f32⟩
  | 84 => ⟨S650000x128, .f32⟩
  | 85 => ⟨S650000x128, .f32⟩
  | 86 => ⟨S_, .f32⟩
  | 87 => ⟨S50000x128, .f32⟩
  | 88 => ⟨S650000x1, .i32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S50000x128, .f32⟩
  | 97 => ⟨S_, .i32⟩
  | 98 => ⟨S650000, .i32⟩
  | 99 => ⟨S650000, .i1⟩
  | 100 => ⟨S_, .i32⟩
  | 101 => ⟨S650000, .i32⟩
  | 102 => ⟨S650000, .i32⟩
  | 103 => ⟨S650000, .i32⟩
  | 104 => ⟨S650000x1, .i32⟩
  | 105 => ⟨S650000x128, .f32⟩
  | 106 => ⟨S650000x1, .f32⟩
  | 107 => ⟨S650000x128, .f32⟩
  | 108 => ⟨S650000x128, .f32⟩
  | 109 => ⟨S_, .f32⟩
  | 110 => ⟨S50000x128, .f32⟩
  | 111 => ⟨S650000x1, .i32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S_, .f32⟩
  | 120 => ⟨S512x128, .f32⟩
  | 121 => ⟨S50000x1, .i32⟩
  | 122 => ⟨S512x128, .f32⟩
  | 123 => ⟨S_, .f32⟩
  | 124 => ⟨S50000, .f32⟩
  | 125 => ⟨S_, .f32⟩
  | 126 => ⟨S512, .f32⟩
  | 127 => ⟨S50000x1, .i32⟩
  | _ => ⟨S50000x128, .f32⟩

abbrev hbmTy0_1 (i : Nat) : BufTy := match i % 128 with
  | 0 => ⟨S512, .f32⟩
  | 1 => ⟨S_, .f32⟩
  | 2 => ⟨S512, .f32⟩
  | 3 => ⟨S512, .f32⟩
  | 4 => ⟨S512x1, .f32⟩
  | 5 => ⟨S512x128, .f32⟩
  | 6 => ⟨S512x128, .f32⟩
  | 7 => ⟨S512x155, .f32⟩
  | 8 => ⟨S512x128, .f32⟩
  | 9 => ⟨S1x128, .f32⟩
  | 10 => ⟨S512x128, .f32⟩
  | 11 => ⟨S512x128, .f32⟩
  | 12 => ⟨S_, .f32⟩
  | 13 => ⟨S512x128, .f32⟩
  | 14 => ⟨S512x128, .f32⟩
  | 15 => ⟨S512x1, .f32⟩
  | 16 => ⟨S1x1, .f32⟩
  | 17 => ⟨S512x1, .f32⟩
  | 18 => ⟨S512x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call0_cst : Ref sig .tc := ⟨.hbm, 70, rfl⟩
abbrev main_call0_v0 : Ref sig .tc := ⟨.hbm, 71, rfl⟩
abbrev main_v46 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call1_cst : Ref sig .tc := ⟨.hbm, 93, rfl⟩
abbrev main_call1_v0 : Ref sig .tc := ⟨.hbm, 94, rfl⟩
abbrev main_v64 : Ref sig .tc := ⟨.hbm, 95, rfl⟩
abbrev main_v65 : Ref sig .tc := ⟨.hbm, 96, rfl⟩
abbrev main_c_11 : Ref sig .tc := ⟨.hbm, 97, rfl⟩
abbrev main_v66 : Ref sig .tc := ⟨.hbm, 98, rfl⟩
abbrev main_v67 : Ref sig .tc := ⟨.hbm, 99, rfl⟩
abbrev main_c_12 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_13 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_call2_cst : Ref sig .tc := ⟨.hbm, 116, rfl⟩
abbrev main_call2_v0 : Ref sig .tc := ⟨.hbm, 117, rfl⟩
abbrev main_v82 : Ref sig .tc := ⟨.hbm, 118, rfl⟩
abbrev main_cst_14 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_15 : Ref sig .tc := ⟨.hbm, 123, rfl⟩
abbrev main_v86 : Ref sig .tc := ⟨.hbm, 124, rfl⟩
abbrev main_cst_16 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_17 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_call3_cst : Ref sig .tc := ⟨.hbm, 140, rfl⟩
abbrev main_call3_v0 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  concatenates_S512x128_S512x27_S512x155_d1 : Shape.Concatenates [S512x128, S512x27] S512x155 1
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x155_S155x128_S512x128_1_0_0_1_n_n_wf : DotDims.WF S512x155 S155x128 S512x128 [1] [0] [0] [1] [] []
  dot_S512x128_S128x1_S512x1_1_0_0_1_n_n_wf : DotDims.WF S512x128 S128x1 S512x1 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x155_S155x128_S512x128_1_0_0_1_n_n : DotDims S512x155 S155x128 S512x128 where
  lhsContracting := [1]
  rhsContracting := [0]
  lhsNonContracting := [0]
  rhsNonContracting := [1]
  lhsBatch := []
  rhsBatch := []
  wf := dot_S512x155_S155x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KTerms.lean ====
/-
  The arrays the host computes before the first region, as functions of the arguments.

  From the 2 × 600000 table of messages: the source numbers and the target numbers, each followed by the 50000 self loops
  0, 1, …, 49999; the target numbers as a column (the rows the accumulating scatters add into); the source numbers with a
  negative number wrapped by +50000, as a column (the rows the gathers read); the node factor, the reciprocal square root
  of (the number of messages into the node, raised to at least one), as a vector and as a column.
-/
import proofs.«107841_j72722386256530_2_alg».proof.Proof.Gen.KernelIdeal.Frame
import Idealize.ShloMosaic.PureOps.Ideal

set_option maxRecDepth 16384

noncomputable section

namespace Cert.KernelIdeal.KV

open Idealize.ShloMosaic Idealize.ShloMosaic.TcCoe Idealize.SL.Sem
open Cert.KernelIdeal Cert.KernelIdeal.Gen

/-- The source numbers of the messages, self loops appended. -/
def src (a1 : IVec S2x600000 32) : IVec S650000 32 :=
  concatenate S650000 0 [⟨S600000, shapeCast S600000 (extractStridedSlice S1x600000 ![0, 0] a1 slices_S2x600000_S1x600000_0_0) shapeCasts_S1x600000_S600000⟩,
    ⟨S50000, iotaInDim S50000 32 0⟩] concatenates_S600000_S50000_S650000_d0

/-- The target numbers of the messages, self loops appended. -/
def dst (a1 : IVec S2x600000 32) : IVec S650000 32 :=
  concatenate S650000 0 [⟨S600000, shapeCast S600000 (extractStridedSlice S1x600000 ![1, 0] a1 slices_S2x600000_S1x600000_1_0) shapeCasts_S1x600000_S600000⟩,
    ⟨S50000, iotaInDim S50000 32 0⟩] concatenates_S600000_S50000_S650000_d0

/-- The target numbers as a column. -/
def dstC (a1 : IVec S2x600000 32) : IVec S650000x1 32 :=
  broadcastInDim S650000x1 ![0] bcast_S650000_S650000x1_0 (dst a1)

/-- The source numbers, a negative one wrapped by +50000, as a column. -/
def srcW (a1 : IVec S2x600000 32) : IVec S650000x1 32 :=
  broadcastInDim S650000x1 ![0] bcast_S650000_S650000x1_0
    (select (cmpi .slt (src a1) (broadcastInDim S650000 ![] bcast_S_S650000 (constantI S_ 32 0#32)))
      (addi (src a1) (broadcastInDim S650000 ![] bcast_S_S650000 (constantI S_ 32 50000#32))) (src a1))

/-- The node factors: the reciprocal square root of the message count raised to at least one. -/
def dinv (a1 : IVec S2x600000 32) : FVec Ideal S50000 .f32 :=
  Host.rsqrt (maximumf (Host.scatterAdd scatter_S50000_S650000x1_S650000_n_0_0_1
      (broadcastInDim S50000 ![] bcast_S_S50000 (constant (F := Ideal) S_ .f32 0x00000000#32)) (dstC a1)
      (broadcastInDim S650000 ![] bcast_S_S650000 (constant (F := Ideal) S_ .f32 0x3F800000#32)))
    (broadcastInDim S50000 ![] bcast_S_S50000 (constant (F := Ideal) S_ .f32 0x3F800000#32)))

/-- The node factors as a column. -/
def dcol (a1 : IVec S2x600000 32) : FVec Ideal S50000x1 .f32 :=
  broadcastInDim S50000x1 ![0] bcast_S50000_S50000x1_0 (dinv a1)

variable (m : (ℓ : Loc nD τ sig) → Buf (Elt Ideal) ℓ) (ρ : Dev nD → PrngReg)

/-! ## What the first stretch of host operations leaves -/

theorem W1_v3 (c : Dev nD) : W1 m ρ c (Proc.devRef .tc main_v3) = src (m ((c : Thread nD τ).loc main_arg1)) := by
  show StableHlo.after hostOps0 (W0 m ρ c) (Proc.devRef .tc main_v3) = _
  after_results
  rfl

theorem W1_v6 (c : Dev nD) : W1 m ρ c (Proc.devRef .tc main_v6) = dst (m ((c : Thread nD τ).loc main_arg1)) := by
  show StableHlo.after hostOps0 (W0 m ρ c) (Proc.devRef .tc main_v6) = _
  after_results
  rfl

theorem W1_v14 (c : Dev nD) : W1 m ρ c (Proc.devRef .tc main_v14) = dcol (m ((c : Thread nD τ).loc main_arg1)) := by
  show StableHlo.after hostOps0 (W0 m ρ c) (Proc.devRef .tc main_v14) = _
  after_results
  rfl

theorem W1_v15 (c : Dev nD) : W1 m ρ c (Proc.devRef .tc main_v15) = m ((c : Thread nD τ).loc main_arg0) := by
  show StableHlo.after hostOps0 (W0 m ρ c) (Proc.devRef .tc main_v15) = _
  after_results
  rfl

theorem W1_v16 (c : Dev nD) : W1 m ρ c (Proc.devRef .tc main_v16) = m ((c : Thread nD τ).loc main_arg4) := by
  show StableHlo.after hostOps0 (W0 m ρ c) (Proc.devRef .tc main_v16) = _
  after_results
  rfl

end Cert.KernelIdeal.KV

end
-- ==== Proof.LibDotSum.lean ====
/-
  A matrix product read at an entry.  For dimension numbers `d` of a plain product `[A,K] × [K,M] → [A,M]`
  (one contracted axis: the columns of the left factor against the rows of the right one, no batch axis) the sum over
  the contraction index of the factors' products, at the entry `(p, j)`, is the textbook sum
  `∑ k, l (p, k) · r (k, j)` over `Fin K`.  The four coordinate facts `hl0 … hr1` say what "plain" means; they are
  proved once per record, at literal extents.  Then the two products a program can spell — a `tpu.matmul` into a zero
  accumulator and the host's `dot_general` — are that sum on the extended reals.
-/
import Idealize.ShloMosaic.Lib.ValueIdx
import Idealize.ShloMosaic.PureOps.Ideal.Laws

noncomputable section

namespace Cert.DotSum

open Idealize.ShloMosaic Idealize.ShloMosaic.ValueIdx

/-- The contraction sum of a plain product at the entry `(p, j)`, re-indexed over `Fin K`. -/
theorem contr_sum {A K M : ℕ} (d : DotDims ⟨2, ![A, K]⟩ ⟨2, ![K, M]⟩ ⟨2, ![A, M]⟩)
    (hr : d.contr.rank = 1) (hs : d.contr.size ⟨0, by omega⟩ = K)
    (hl0 : ∀ (i : (⟨2, ![A, M]⟩ : Shape).Idx) (q : d.contr.Idx), (d.lhsIdx i q 0).val = (i 0).val)
    (hl1 : ∀ (i : (⟨2, ![A, M]⟩ : Shape).Idx) (q : d.contr.Idx), (d.lhsIdx i q 1).val = (q ⟨0, by omega⟩).val)
    (hr0 : ∀ (i : (⟨2, ![A, M]⟩ : Shape).Idx) (q : d.contr.Idx), (d.rhsIdx i q 0).val = (q ⟨0, by omega⟩).val)
    (hr1 : ∀ (i : (⟨2, ![A, M]⟩ : Shape).Idx) (q : d.contr.Idx), (d.rhsIdx i q 1).val = (i 1).val)
    (l : (⟨2, ![A, K]⟩ : Shape).Idx → EReal) (r : (⟨2, ![K, M]⟩ : Shape).Idx → EReal) (p : Fin A) (j : Fin M) :
    ∑ q : d.contr.Idx, l (d.lhsIdx (ix2 p j) q) * r (d.rhsIdx (ix2 p j) q) = ∑ k : Fin K, l (ix2 p k) * r (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

end Cert.DotSum

end
-- ==== Proof.LibDense.lean ====
/-
  The dense pieces of a two-layer graph convolution with a mean-pool head, as functions on the extended reals, and
  the two spellings a program has for each.

  `prod x w` is the matrix product, entry (p, j) the sum over k of x (p, k) · w (k, j); `act x b` adds the one-row
  matrix `b` to every row of `x` and takes the maximum with zero (bias, then relu); `shift y b` adds the one-row matrix
  to every row.  A kernel spells a product as a matrix-unit product into a zero accumulator, the host as a
  `dot_general`; a kernel spreads the bias row by a vector broadcast of the (re-cast) row and takes the maximum with a
  splat of the scalar zero, the host broadcasts the row in dimensions (0, 1) and takes the maximum with a broadcast of
  the rank-0 zero.  Both spellings of each piece are the one function; nothing here uses more of the arithmetic of the
  extended reals than 0 + s = s, so no finiteness is needed.  General in the extents A, K, M.  Also: each function read
  through maps of its indices (`prod_reindex`, `act_reindex`, `shift_reindex`: a block of rows of a product is the
  product of the block of rows, and the like), and a vector re-cast as one row against its broadcast along axis 1
  (`row_cast_eq_broadcast`).  The product lemmas take the four coordinate facts of a plain [A,K]×[K,M] record, as
  `Cert.DotSum.contr_sum` (LibDotSum.lean, which this file needs beside it) does.
-/
import proofs.«107841_j72722386256530_2_alg».proof.Proof.LibDotSum
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

noncomputable section

namespace Cert.Dense

open Idealize.ShloMosaic Idealize.ShloMosaic.ValueIdx

/-- The matrix product on the extended reals: entry (p, j) is the sum over k of x (p, k) · w (k, j). -/
def prod {A K M : ℕ} (x : (⟨2, ![A, K]⟩ : Shape).Idx → EReal) (w : (⟨2, ![K, M]⟩ : Shape).Idx → EReal) :
    (⟨2, ![A, M]⟩ : Shape).Idx → EReal :=
  fun i => ∑ k : Fin K, x (ix2 (i 0 : Fin A) k) * w (ix2 k (i 1 : Fin M))

/-- Bias and relu: the one-row matrix `b` added to every row, then the maximum with zero. -/
def act {A M : ℕ} (x : (⟨2, ![A, M]⟩ : Shape).Idx → EReal) (b : (⟨2, ![1, M]⟩ : Shape).Idx → EReal) :
    (⟨2, ![A, M]⟩ : Shape).Idx → EReal :=
  fun i => max (x i + b (ix2 (0 : Fin 1) (i 1 : Fin M))) (Ideal.ofBits .f32 0x00000000#32)

/-- The one-row matrix `b` added to every row. -/
def shift {A M : ℕ} (y : (⟨2, ![A, M]⟩ : Shape).Idx → EReal) (b : (⟨2, ![1, M]⟩ : Shape).Idx → EReal) :
    (⟨2, ![A, M]⟩ : Shape).Idx → EReal :=
  fun i => y i + b (ix2 (0 : Fin 1) (i 1 : Fin M))

theorem prod_apply {A K M : ℕ} (x : (⟨2, ![A, K]⟩ : Shape).Idx → EReal) (w : (⟨2, ![K, M]⟩ : Shape).Idx → EReal)
    (p : Fin A) (j : Fin M) : prod x w (ix2 p j) = ∑ k : Fin K, x (ix2 p k) * w (ix2 k j) := rfl

theorem act_apply {A M : ℕ} (x : (⟨2, ![A, M]⟩ : Shape).Idx → EReal) (b : (⟨2, ![1, M]⟩ : Shape).Idx → EReal)
    (p : Fin A) (j : Fin M) :
    act x b (ix2 p j) = max (x (ix2 p j) + b (ix2 (0 : Fin 1) j)) (Ideal.ofBits .f32 0x00000000#32) := rfl

theorem shift_apply {A M : ℕ} (y : (⟨2, ![A, M]⟩ : Shape).Idx → EReal) (b : (⟨2, ![1, M]⟩ : Shape).Idx → EReal)
    (p : Fin A) (j : Fin M) : shift y b (ix2 p j) = y (ix2 p j) + b (ix2 (0 : Fin 1) j) := rfl

/-- The product of two matrices read through maps of their indices, at an entry `j`, is the product of the matrices
    at the entry `j'` whenever the maps carry row `j 0` to row `j' 0` and column `j 1` to column `j' 1`, the
    contraction coordinate kept: a block of rows of a product is the product of the block of rows. -/
theorem prod_reindex {A K M A' M' : ℕ} (X : (⟨2, ![A', K]⟩ : Shape).Idx → EReal) (W : (⟨2, ![K, M']⟩ : Shape).Idx → EReal)
    (eX : (⟨2, ![A, K]⟩ : Shape).Idx → (⟨2, ![A', K]⟩ : Shape).Idx) (eW : (⟨2, ![K, M]⟩ : Shape).Idx → (⟨2, ![K, M']⟩ : Shape).Idx)
    (j : (⟨2, ![A, M]⟩ : Shape).Idx) (j' : (⟨2, ![A', M']⟩ : Shape).Idx)
    (hX : ∀ k : Fin K, eX (ix2 (j 0 : Fin A) k) = ix2 (j' 0 : Fin A') k)
    (hW : ∀ k : Fin K, eW (ix2 k (j 1 : Fin M)) = ix2 k (j' 1 : Fin M')) :
    prod (fun y => X (eX y)) (fun y => W (eW y)) j = prod X W j' :=
  Finset.sum_congr rfl fun k _ => by
    show X (eX (ix2 (j 0 : Fin A) k)) * W (eW (ix2 k (j 1 : Fin M))) = X (ix2 (j' 0 : Fin A') k) * W (ix2 k (j' 1 : Fin M'))
    rw [hX k, hW k]
    rfl

/-- Bias-then-relu of a matrix and a bias row read through maps of their indices, at an entry `j`, is bias-then-relu
    of the matrix and the row at the entry `j'` whenever the first map carries `j` to `j'` and the second keeps the
    column: a block of rows of bias-then-relu is bias-then-relu of the block of rows. -/
theorem act_reindex {A M A' : ℕ} (X : (⟨2, ![A', M]⟩ : Shape).Idx → EReal) (B : (⟨2, ![1, M]⟩ : Shape).Idx → EReal)
    (eX : (⟨2, ![A, M]⟩ : Shape).Idx → (⟨2, ![A', M]⟩ : Shape).Idx) (eB : (⟨2, ![1, M]⟩ : Shape).Idx → (⟨2, ![1, M]⟩ : Shape).Idx)
    (j : (⟨2, ![A, M]⟩ : Shape).Idx) (j' : (⟨2, ![A', M]⟩ : Shape).Idx)
    (hX : eX j = j') (hB : eB (ix2 (0 : Fin 1) (j 1 : Fin M)) = ix2 (0 : Fin 1) (j' 1 : Fin M)) :
    act (fun y => X (eX y)) (fun y => B (eB y)) j = act X B j' := by
  show max (X (eX j) + B (eB (ix2 (0 : Fin 1) (j 1 : Fin M)))) _ = max (X j' + B (ix2 (0 : Fin 1) (j' 1 : Fin M))) _
  rw [hX, hB]
  rfl

/-- A matrix shifted by a bias row read through a map of its indices, at an entry `j`, is the shift at `j'` whenever
    the matrices agree there and the map keeps the column. -/
theorem shift_reindex {A M A' : ℕ} (Y' : (⟨2, ![A, M]⟩ : Shape).Idx → EReal) (Y : (⟨2, ![A', M]⟩ : Shape).Idx → EReal)
    (B : (⟨2, ![1, M]⟩ : Shape).Idx → EReal) (eB : (⟨2, ![1, M]⟩ : Shape).Idx → (⟨2, ![1, M]⟩ : Shape).Idx)
    (j : (⟨2, ![A, M]⟩ : Shape).Idx) (j' : (⟨2, ![A', M]⟩ : Shape).Idx)
    (hY : Y' j = Y j') (hB : eB (ix2 (0 : Fin 1) (j 1 : Fin M)) = ix2 (0 : Fin 1) (j' 1 : Fin M)) :
    shift Y' (fun y => B (eB y)) j = shift Y B j' := by
  show Y' j + B (eB (ix2 (0 : Fin 1) (j 1 : Fin M))) = Y j' + B (ix2 (0 : Fin 1) (j' 1 : Fin M))
  rw [hY, hB]
  rfl

/-! ## The product, in a kernel and on the host -/

section Products

variable {A K M : ℕ} {φ₁ φ₂ : FTy} (d : DotDims ⟨2, ![A, K]⟩ ⟨2, ![K, M]⟩ ⟨2, ![A, M]⟩)
  (hr : d.contr.rank = 1) (hs : d.contr.size ⟨0, by omega⟩ = K)
  (hl0 : ∀ (i : (⟨2, ![A, M]⟩ : Shape).Idx) (q : d.contr.Idx), (d.lhsIdx i q 0).val = (i 0).val)
  (hl1 : ∀ (i : (⟨2, ![A, M]⟩ : Shape).Idx) (q : d.contr.Idx), (d.lhsIdx i q 1).val = (q ⟨0, by omega⟩).val)
  (hr0 : ∀ (i : (⟨2, ![A, M]⟩ : Shape).Idx) (q : d.contr.Idx), (d.rhsIdx i q 0).val = (q ⟨0, by omega⟩).val)
  (hr1 : ∀ (i : (⟨2, ![A, M]⟩ : Shape).Idx) (q : d.contr.Idx), (d.rhsIdx i q 1).val = (i 1).val)

include hr hs hl0 hl1 hr0 hr1

/-- A kernel's matrix-unit product into a zero accumulator is the product. -/
theorem matmul_zero_eq_prod (prec : Option ContractPrecision) (l : FVec Ideal ⟨2, ![A, K]⟩ φ₁) (r : FVec Ideal ⟨2, ![K, M]⟩ φ₂) :
    matmul d prec l r (constant ⟨2, ![A, M]⟩ .f32 0x00000000#32) = prod l r := by
  funext i
  obtain ⟨p, j, rfl⟩ : ∃ (p : Fin A) (j : Fin M), i = ix2 p j := ⟨i 0, i 1, eq_ix2 i⟩
  show FloatOps.matmul d prec l r (constant ⟨2, ![A, M]⟩ .f32 0x00000000#32) (ix2 p j) = _
  rw [Ideal.matmul_constant_zero_apply]
  exact Cert.DotSum.contr_sum d hr hs hl0 hl1 hr0 hr1 l r p j

/-- The host's `dot_general` is the product. -/
theorem dotGeneral_eq_prod (prec : Option ContractPrecision) (l : FVec Ideal ⟨2, ![A, K]⟩ φ₁) (r : FVec Ideal ⟨2, ![K, M]⟩ φ₂) :
    Host.dotGeneral d prec l r = prod l r := by
  rw [← matmul_zero_eq_dotGeneral]
  exact matmul_zero_eq_prod d hr hs hl0 hl1 hr0 hr1 prec l r

end Products

/-! ## Bias and relu, in a kernel and on the host -/

/-- A kernel's form: the row re-cast (twice) and broadcast down the rows, added, and the maximum with a splat of the
    scalar zero. -/
theorem kernel_act {A M : ℕ} (x : (⟨2, ![A, M]⟩ : Shape).Idx → EReal) (b : (⟨2, ![1, M]⟩ : Shape).Idx → EReal)
    (hx : (⟨2, ![A, M]⟩ : Shape).ShapeCasts ⟨2, ![A, M]⟩) (hb : (⟨2, ![1, M]⟩ : Shape).ShapeCasts ⟨2, ![1, M]⟩)
    (hbc : (⟨2, ![1, M]⟩ : Shape).Broadcasts ⟨2, ![A, M]⟩) :
    maximumf (F := Ideal) (φ := .f32)
        (addf (shapeCast ⟨2, ![A, M]⟩ x hx) (broadcastTo ⟨2, ![A, M]⟩ (shapeCast ⟨2, ![1, M]⟩ (shapeCast ⟨2, ![1, M]⟩ b hb) hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, shapeCast_self, shapeCast_self, maximumf_apply, addf_apply, broadcast_apply,
    broadcastTo_1b_ab_apply]
  rfl

/-- The host's form: the row broadcast in dimensions (0, 1), added, and the maximum with a broadcast of the rank-0
    zero. -/
theorem host_act {A M : ℕ} (x : (⟨2, ![A, M]⟩ : Shape).Idx → EReal) (b : (⟨2, ![1, M]⟩ : Shape).Idx → EReal)
    (hbc : (⟨2, ![1, M]⟩ : Shape).BroadcastsInDim ⟨2, ![A, M]⟩ ![0, 1])
    (h0 : (⟨0, ![]⟩ : Shape).BroadcastsInDim ⟨2, ![A, M]⟩ ![]) :
    maximumf (F := Ideal) (φ := .f32)
        (addf x (broadcastInDim ⟨2, ![A, M]⟩ ![0, 1] hbc b))
        (broadcastInDim ⟨2, ![A, M]⟩ ![] h0 (constant (F := Ideal) ⟨0, ![]⟩ .f32 0x00000000#32))
      = act x b := by
  funext i
  obtain ⟨p, j, rfl⟩ : ∃ (p : Fin A) (j : Fin M), i = ix2 p j := ⟨i 0, i 1, eq_ix2 i⟩
  rw [maximumf_apply, addf_apply, broadcastInDim_oneRow_apply, broadcastInDim_scalar_apply, constant_apply]
  rfl

/-- A kernel's form of the shifted product's last step: the row re-cast (twice) and broadcast down the rows, added. -/
theorem kernel_shift {A M : ℕ} (y : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    addf (F := Ideal) (φ := .f32) y (broadcastTo ⟨2, ![A, M]⟩ (shapeCast ⟨2, ![1, M]⟩ (shapeCast ⟨2, ![1, M]⟩ b hb) hb) hbc)
      = shift y b := by
  funext i
  obtain ⟨p, j, rfl⟩ : ∃ (p : Fin A) (j : Fin M), i = ix2 p j := ⟨i 0, i 1, eq_ix2 i⟩
  rw [shapeCast_self, shapeCast_self, addf_apply, broadcastTo_1b_ab_apply]
  rfl

/-- The host's form: the row broadcast in dimensions (0, 1), added. -/
theorem host_shift {A M : ℕ} (y : (⟨2, ![A, M]⟩ : Shape).Idx → EReal) (b : (⟨2, ![1, M]⟩ : Shape).Idx → EReal)
    (hbc : (⟨2, ![1, M]⟩ : Shape).BroadcastsInDim ⟨2, ![A, M]⟩ ![0, 1]) :
    addf (F := Ideal) (φ := .f32) y (broadcastInDim ⟨2, ![A, M]⟩ ![0, 1] hbc b) = shift y b := by
  funext i
  obtain ⟨p, j, rfl⟩ : ∃ (p : Fin A) (j : Fin M), i = ix2 p j := ⟨i 0, i 1, eq_ix2 i⟩
  rw [addf_apply, broadcastInDim_oneRow_apply]
  rfl

/-! ## A vector as a one-row matrix, two ways -/

/-- A vector of `n` entries re-cast as one row is the vector broadcast along axis 1 into one row. -/
theorem row_cast_eq_broadcast {n : ℕ} {α : Type} (v : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ v hc = broadcastInDim ⟨2, ![1, n]⟩ ![1] hb v := by
  funext i
  obtain ⟨r, t, rfl⟩ : ∃ (r : Fin 1) (t : Fin n), i = ix2 r t := ⟨i 0, i 1, eq_ix2 i⟩
  have hr : r = 0 := Subsingleton.elim _ _
  subst hr
  have e2 := shapeCast_apply v hc (ix2 (0 : Fin 1) t) (ix1 t) (by
    rw [Shape.rowMajor_val_two, Shape.rowMajor_val_one]; show t.val = 0 * n + t.val; omega)
  have e3 := broadcastInDim_apply ![1] hb v (ix2 (0 : Fin 1) t) (ix1 t) (by
    intro a
    match a with
    | ⟨0, _⟩ =>
      show t.val = if n = 1 then 0 else t.val
      split
      · have := t.isLt; omega
      · rfl)
  exact e2.trans e3.symm

end Cert.Dense

end
-- ==== Proof.LibRowBlocks.lean ====
/-
  Blocks of rows of the dense pieces, and a kernel's single-cast spelling of bias and relu.

  A matrix of N rows cut into blocks of R consecutive rows: row r of block n is row n·R + r of the whole matrix
  (`up`).  Each dense piece of LibDense.lean commutes with taking a block of rows, the other operand (weights, or a
  one-row bias) kept whole: a block of rows of a product is the product of the block of rows (`prod_up`), and the same
  for bias-then-relu (`act_up`) and bias (`shift_up`).  So a network tail applied block by block computes the blocks
  of the tail applied to the whole matrix.  General in the extents.

  Also the spelling a kernel body has when it re-casts the bias row ONCE before broadcasting it down the rows
  (LibDense.lean's `kernel_act` / `kernel_shift` are for a body that casts it twice): `act_cast` (the matrix itself
  re-cast too), `act_plain` (the matrix as computed), `shift_plain`.

  It imports LibDense.lean (and, through it, LibDotSum.lean), so it needs those two files beside it.
-/
import proofs.«107841_j72722386256530_2_alg».proof.Proof.LibDense

noncomputable section

namespace Cert.RowBlocks

open Idealize.ShloMosaic Idealize.ShloMosaic.ValueIdx Cert.Dense

/-- Index (r, j) of the n-th block of R rows, as an index of the whole N-row matrix: (n·R + r, j). -/
def up {R N M : ℕ} (n : ℕ) (h : n * R + R ≤ N) (y : (⟨2, ![R, M]⟩ : Shape).Idx) : (⟨2, ![N, M]⟩ : Shape).Idx :=
  ix2 (⟨n * R + (y 0).val, by have h0 : (y 0).val < R := (y 0).isLt; omega⟩ : Fin N) (y 1 : Fin M)

theorem up_row {R N M : ℕ} (n : ℕ) (h : n * R + R ≤ N) (y : (⟨2, ![R, M]⟩ : Shape).Idx) :
    ((up (N := N) n h y) 0).val = n * R + (y 0).val := rfl

theorem up_col {R N M : ℕ} (n : ℕ) (h : n * R + R ≤ N) (y : (⟨2, ![R, M]⟩ : Shape).Idx) :
    ((up (N := N) n h y) 1).val = (y 1).val := rfl

/-- A block of rows of a product is the product of the block of rows. -/
theorem prod_up {R N K M : ℕ} (n : ℕ) (h : n * R + R ≤ N) (X : (⟨2, ![N, K]⟩ : Shape).Idx → EReal)
    (W : (⟨2, ![K, M]⟩ : Shape).Idx → EReal) :
    prod (fun y => X (up n h y)) W = fun j => prod X W (up n h j) :=
  funext fun j => prod_reindex X W (up n h) (fun y => y) j (up n h j) (fun _ => rfl) (fun _ => rfl)

/-- A block of rows of bias-then-relu is bias-then-relu of the block of rows. -/
theorem act_up {R N M : ℕ} (n : ℕ) (h : n * R + R ≤ N) (X : (⟨2, ![N, M]⟩ : Shape).Idx → EReal)
    (B : (⟨2, ![1, M]⟩ : Shape).Idx → EReal) :
    act (fun y => X (up n h y)) B = fun j => act X B (up n h j) :=
  funext fun j => act_reindex X B (up n h) (fun y => y) j (up n h j) rfl rfl

/-- A block of rows of a matrix shifted by a bias row is the shifted block of rows. -/
theorem shift_up {R N M : ℕ} (n : ℕ) (h : n * R + R ≤ N) (Y : (⟨2, ![N, M]⟩ : Shape).Idx → EReal)
    (B : (⟨2, ![1, M]⟩ : Shape).Idx → EReal) :
    shift (fun y => Y (up n h y)) B = fun j => shift Y B (up n h j) :=
  funext fun j => shift_reindex (fun y => Y (up n h y)) Y B (fun y => y) j (up n h j) rfl rfl

/-! ## Bias and relu in a kernel that re-casts the bias row once -/

/-- The matrix and the row each re-cast to their own shape, the row broadcast down the rows, added, and the maximum
    with a splat of the scalar zero. -/
theorem act_cast {A M : ℕ} (x : (⟨2, ![A, M]⟩ : Shape).Idx → EReal) (b : (⟨2, ![1, M]⟩ : Shape).Idx → EReal)
    (hx : (⟨2, ![A, M]⟩ : Shape).ShapeCasts ⟨2, ![A, M]⟩) (hb : (⟨2, ![1, M]⟩ : Shape).ShapeCasts ⟨2, ![1, M]⟩)
    (hbc : (⟨2, ![1, M]⟩ : Shape).Broadcasts ⟨2, ![A, M]⟩) :
    maximumf (F := Ideal) (φ := .f32)
        (addf (shapeCast ⟨2, ![A, M]⟩ x hx) (broadcastTo ⟨2, ![A, M]⟩ (shapeCast ⟨2, ![1, M]⟩ b hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, shapeCast_self, maximumf_apply, addf_apply, broadcast_apply, broadcastTo_1b_ab_apply]
  rfl

/-- The same on a matrix used as computed (no cast of its own). -/
theorem act_plain {A M : ℕ} (x : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    maximumf (F := Ideal) (φ := .f32)
        (addf x (broadcastTo ⟨2, ![A, M]⟩ (shapeCast ⟨2, ![1, M]⟩ b hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, maximumf_apply, addf_apply, broadcast_apply, broadcastTo_1b_ab_apply]
  rfl

/-- The bias row re-cast once, broadcast down the rows and added. -/
theorem shift_plain {A M : ℕ} (y : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    addf (F := Ideal) (φ := .f32) y (broadcastTo ⟨2, ![A, M]⟩ (shapeCast ⟨2, ![1, M]⟩ b hb) hbc) = shift y b := by
  funext i
  obtain ⟨p, j, rfl⟩ : ∃ (p : Fin A) (j : Fin M), i = ix2 p j := ⟨i 0, i 1, eq_ix2 i⟩
  rw [shapeCast_self, addf_apply, broadcastTo_1b_ab_apply]
  rfl

end Cert.RowBlocks

end
-- ==== Proof.LibColumns.lean ====
/-
  Two-dimensional layout operations and row sums read at an index `(r, k)`, for matrices of `n` rows.
  Each lemma says which single entry of the operand an entry of the result is: a vector turned into a one-column matrix and
  back, a one-column matrix repeated along its rows, a scalar repeated everywhere, five one-column matrices put side by
  side, a ten-column and a five-column matrix put side by side, and the sum of a row's entries (a lane reduction, and the
  host's reduce, which adds the initial value). Nothing here depends on a program.
-/
import Idealize.ShloMosaic.Lib.Pipeline.Value
import Idealize.ShloMosaic.Lib.ValueIdx
import Idealize.ShloMosaic.PureOps.Ideal.Laws

noncomputable section

open scoped BigOperators

namespace Cert.LibColumns

open Idealize.ShloMosaic Idealize.ShloMosaic.ValueIdx

variable {α : Type}

/-- A vector of length `n` reshaped to an `n × 1` matrix: entry `(r, 0)` is entry `r`. -/
theorem shapeCast_vec_col {n : Nat} (v : (⟨1, ![n]⟩ : Shape).Idx → α)
    (h : (⟨1, ![n]⟩ : Shape).ShapeCasts ⟨2, ![n, 1]⟩) (r : Fin n) :
    shapeCast ⟨2, ![n, 1]⟩ v h (ix2 r 0) = v (ix1 r) :=
  shapeCast_apply v h (ix2 r 0) (ix1 r) (by
    rw [Shape.rowMajor_val_one, Shape.rowMajor_val_two]
    show r.val = r.val * 1 + 0
    omega)

/-- An `n × 1` matrix reshaped to a vector of length `n`: entry `r` is entry `(r, 0)`. -/
theorem shapeCast_col_vec {n : Nat} (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r 0) :=
  shapeCast_apply v h (ix1 r) (ix2 r 0) (by
    rw [Shape.rowMajor_val_one, Shape.rowMajor_val_two]
    show r.val * 1 + 0 = r.val
    omega)

/-- An `n × 1` matrix repeated to `n × m` (a vector broadcast): entry `(r, j)` is entry `(r, 0)`. -/
theorem broadcastTo_col {n m : Nat} (v : (⟨2, ![n, 1]⟩ : Shape).Idx → α)
    (h : (⟨2, ![n, 1]⟩ : Shape).Broadcasts ⟨2, ![n, m]⟩) (r : Fin n) (j : Fin m) :
    broadcastTo ⟨2, ![n, m]⟩ v h (ix2 r j) = v (ix2 r 0) :=
  broadcastTo_apply v h (ix2 r j) (ix2 r 0) (fun a => by
    match a with
    | ⟨0, _⟩ =>
      show r.val = if n = 1 then 0 else r.val
      have := r.isLt
      split <;> omega
    | ⟨1, _⟩ => exact (if_pos rfl).symm)

/-- A vector of length `n` placed as the column of an `n × 1` matrix by a broadcast along axis 0. -/
theorem broadcastInDim_vec_col {n : Nat} (dims : Fin 1 → Fin 2) (hd : dims 0 = 0)
    (h : (⟨1, ![n]⟩ : Shape).BroadcastsInDim ⟨2, ![n, 1]⟩ dims) (v : (⟨1, ![n]⟩ : Shape).Idx → α) (r : Fin n) :
    broadcastInDim ⟨2, ![n, 1]⟩ dims h v (ix2 r 0) = v (ix1 r) :=
  broadcastInDim_apply dims h v (ix2 r 0) (ix1 r) (fun a => by
    match a with
    | ⟨0, _⟩ =>
      show r.val = if n = 1 then 0 else (ix2 r (0 : Fin 1) (dims 0)).val
      rw [hd]
      show r.val = if n = 1 then 0 else r.val
      have := r.isLt
      split <;> omega)

/-- An `n × 1` matrix repeated to `n × m` by a broadcast along both axes: entry `(r, j)` is entry `(r, 0)`. -/
theorem broadcastInDim_col_mat {n m : Nat} (dims : Fin 2 → Fin 2) (hd0 : dims 0 = 0) (hd1 : dims 1 = 1)
    (h : (⟨2, ![n, 1]⟩ : Shape).BroadcastsInDim ⟨2, ![n, m]⟩ dims) (v : (⟨2, ![n, 1]⟩ : Shape).Idx → α)
    (r : Fin n) (j : Fin m) :
    broadcastInDim ⟨2, ![n, m]⟩ dims h v (ix2 r j) = v (ix2 r 0) :=
  broadcastInDim_apply dims h v (ix2 r j) (ix2 r 0) (fun a => by
    match a with
    | ⟨0, _⟩ =>
      show r.val = if n = 1 then 0 else (ix2 r j (dims 0)).val
      rw [hd0]
      show r.val = if n = 1 then 0 else r.val
      have := r.isLt
      split <;> omega
    | ⟨1, _⟩ => exact (if_pos rfl).symm)

/-- A scalar repeated over any shape: every entry is the scalar. -/
theorem broadcastInDim_scalar {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

/-- Five `n × 1` matrices side by side, read at `(r, k)`: the `k`-th of them at `(r, 0)`. -/
theorem concat5_apply {n : Nat} (p0 p1 p2 p3 p4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r k)
      = (match k with | ⟨0, _⟩ => p0 | ⟨1, _⟩ => p1 | ⟨2, _⟩ => p2 | ⟨3, _⟩ => p3 | ⟨4, _⟩ => p4) (ix2 r 0) := by
  have hi : ∀ (k : Fin 5) (b : Fin 2), b.cast rfl ≠ (1 : Fin 2) → ((ix2 r (0 : Fin 1)) b).val = ((ix2 r k) (b.cast rfl)).val := by
    intro k b hb
    match b with
    | ⟨0, _⟩ => rfl
    | ⟨1, _⟩ => exact absurd rfl hb
  match k with
  | ⟨0, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨0, hk⟩)
      0 (by simp) ⟨2, ![n, 1]⟩ p0 rfl rfl 0 rfl (ix2 r 0) (hi _) rfl
  | ⟨1, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨1, hk⟩)
      1 (by simp) ⟨2, ![n, 1]⟩ p1 rfl rfl 1 rfl (ix2 r 0) (hi _) rfl
  | ⟨2, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨2, hk⟩)
      2 (by simp) ⟨2, ![n, 1]⟩ p2 rfl rfl 2 rfl (ix2 r 0) (hi _) rfl
  | ⟨3, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨3, hk⟩)
      3 (by simp) ⟨2, ![n, 1]⟩ p3 rfl rfl 3 rfl (ix2 r 0) (hi _) rfl
  | ⟨4, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨4, hk⟩)
      4 (by simp) ⟨2, ![n, 1]⟩ p4 rfl rfl 4 rfl (ix2 r 0) (hi _) rfl

/-- An `n × 10` and an `n × 5` matrix side by side, read in the first ten columns. -/
theorem concat_10_5_left {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 10)
    (hc : c'.val = c.val) :
    concatenate ⟨2, ![n, 15]⟩ 1 [⟨⟨2, ![n, 10]⟩, a⟩, ⟨⟨2, ![n, 5]⟩, b⟩] h (ix2 r c) = a (ix2 r c') :=
  concatenate_pair_apply_left 1 a b h (ix2 r c) rfl (ix2 r c') (fun d => by
    match d with
    | ⟨0, _⟩ => rfl
    | ⟨1, _⟩ => exact hc)

/-- … and in the last five. -/
theorem concat_10_5_right {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 5)
    (hc : c'.val + 10 = c.val) :
    concatenate ⟨2, ![n, 15]⟩ 1 [⟨⟨2, ![n, 10]⟩, a⟩, ⟨⟨2, ![n, 5]⟩, b⟩] h (ix2 r c) = b (ix2 r c') :=
  concatenate_pair_apply_right 1 a b h (ix2 r c) rfl rfl (ix2 r c') (fun d hd => by
    match d with
    | ⟨0, _⟩ => rfl
    | ⟨1, _⟩ => exact absurd rfl hd) hc

/-- The index over row `r` with `k` inserted on the summed axis is `(r, k)`. -/
theorem lift_rows {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by addition of an `n × m` matrix along its rows, on the extended reals: the sum of the row. -/
theorem multiReduction_rows {n m : Nat} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin m, src (ix2 r k) :=
  (Ideal.multiReduction_add_single src 0x00000000#32 h hφ hacc (ix1 r)).trans
    (Finset.sum_congr rfl fun k _ => congrArg src (lift_rows h r k))

/-- The host's sum of an `n × m` matrix along its rows, on the extended reals: the initial value plus the sum of the row. -/
theorem hostReduceAdd_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduceAdd (F := Ideal) x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_rows h r k)))

end Cert.LibColumns

end
-- ==== Proof.LibScatter.lean ====
/-
  A host scatter read at one index.

  `Host.scatter d f x idx upd` is the left fold, over the update indices in row-major order, of the step
  "replace the element at the update's landing index by `f` of it and the update". Read at one operand
  index `i` the fold only sees the updates that land on `i`; when at most one does, the result there is
  `f (x i) (upd j)` for that one update `j`, or `x i` when none lands. Where an update lands
  (`ScatterDims.resultIdx?`) is, coordinate by coordinate, its start plus its window coordinate.
-/
import Idealize.ShloMosaic.PureOps

namespace Idealize.ShloMosaic

/-! ## A fold of pointwise overwrites, read at one index -/

section Fold

variable {ι κ α : Type} (g : ι → Option κ) (f : α → α → α) (v : ι → α)
  (step : (κ → α) → ι → (κ → α)) (i : κ)

/-- A fold of steps none of which touches `i` leaves the value at `i`. -/
theorem foldl_overwrite_miss (hmiss : ∀ r n, g n ≠ some i → step r n i = r i) :
    ∀ (l : List ι) (r : κ → α), (∀ n ∈ l, g n ≠ some i) → l.foldl step r i = r i
  | [], _, _ => rfl
  | a :: l, r, h => by
    rw [List.foldl_cons, foldl_overwrite_miss hmiss l (step r a) fun n hn => h n (List.mem_cons_of_mem _ hn)]
    exact hmiss r a (h a List.mem_cons_self)

/-- A fold over a list without repetitions in which exactly one step, `n`, touches `i`: the value at `i`
    is that step's. -/
theorem foldl_overwrite_hit (hmiss : ∀ r n, g n ≠ some i → step r n i = r i)
    (hhit : ∀ r n, g n = some i → step r n i = f (r i) (v n)) (n : ι) (hn : g n = some i) :
    ∀ (l : List ι) (r : κ → α), l.Nodup → n ∈ l → (∀ n' ∈ l, g n' = some i → n' = n) →
      l.foldl step r i = f (r i) (v n)
  | [], _, _, hmem, _ => absurd hmem List.not_mem_nil
  | a :: l, r, hnd, hmem, huniq => by
    rw [List.foldl_cons]
    by_cases ha : a = n
    · subst ha
      have hnot : a ∉ l := (List.nodup_cons.mp hnd).1
      rw [foldl_overwrite_miss g step i hmiss l (step r a) fun n' hn' hg =>
        hnot (huniq n' (List.mem_cons_of_mem _ hn') hg ▸ hn')]
      exact hhit r a hn
    · have hga : g a ≠ some i := fun hg => ha (huniq a List.mem_cons_self hg)
      have hmem' : n ∈ l := (List.mem_cons.mp hmem).resolve_left fun e => ha e.symm
      rw [foldl_overwrite_hit hmiss hhit n hn l (step r a) (List.nodup_cons.mp hnd).2 hmem'
        fun n' hn' => huniq n' (List.mem_cons_of_mem _ hn'), hmiss r a hga]

end Fold

/-! ## The host scatter at an index -/

namespace Host

variable {s si u : Shape} {α : Type} {w : Nat}

/-- The scatter's step leaves an index the update does not land on. -/
private theorem scatter_step_miss (d : ScatterDims s si u) (f : α → α → α) (idx : IVec si w) (upd : u.Idx → α) (i : s.Idx)
    (r : s.Idx → α) (n : Fin u.numel) (h : d.resultIdx? (u.rowMajor.symm n) idx ≠ some i) :
    (match d.resultIdx? (u.rowMajor.symm n) idx with
      | some k => fun i' => if i' = k then f (r k) (upd (u.rowMajor.symm n)) else r i'
      | none => r) i = r i := by
  generalize d.resultIdx? (u.rowMajor.symm n) idx = o at h
  cases o with
  | none => rfl
  | some k =>
    have hne : i ≠ k := fun e => h (congrArg some e.symm)
    dsimp only
    exact if_neg hne

/-- The scatter's step at the index the update lands on. -/
private theorem scatter_step_hit (d : ScatterDims s si u) (f : α → α → α) (idx : IVec si w) (upd : u.Idx → α) (i : s.Idx)
    (r : s.Idx → α) (n : Fin u.numel) (h : d.resultIdx? (u.rowMajor.symm n) idx = some i) :
    (match d.resultIdx? (u.rowMajor.symm n) idx with
      | some k => fun i' => if i' = k then f (r k) (upd (u.rowMajor.symm n)) else r i'
      | none => r) i = f (r i) (upd (u.rowMajor.symm n)) := by
  generalize d.resultIdx? (u.rowMajor.symm n) idx = o at h
  cases o with
  | none => exact absurd h (by simp)
  | some k =>
    have hk : k = i := Option.some.inj h
    subst hk
    dsimp only
    exact if_pos rfl

/-- No update lands on `i`: the scatter leaves the operand's element. -/
theorem scatter_apply_of_miss (d : ScatterDims s si u) (f : α → α → α) (x : s.Idx → α) (idx : IVec si w) (upd : u.Idx → α)
    (i : s.Idx) (hmiss : ∀ j, d.resultIdx? j idx ≠ some i) : Host.scatter d f x idx upd i = x i := by
  unfold Host.scatter
  exact foldl_overwrite_miss (fun n => d.resultIdx? (u.rowMajor.symm n) idx) _ i
    (fun r n h => scatter_step_miss d f idx upd i r n h) _ x fun n _ => hmiss _

/-- Exactly one update, `j`, lands on `i`: the scatter's element there is `f` of the operand's and that update. -/
theorem scatter_apply_of_hit (d : ScatterDims s si u) (f : α → α → α) (x : s.Idx → α) (idx : IVec si w) (upd : u.Idx → α)
    (i : s.Idx) (j : u.Idx) (hj : d.resultIdx? j idx = some i) (huniq : ∀ j', d.resultIdx? j' idx = some i → j' = j) :
    Host.scatter d f x idx upd i = f (x i) (upd j) := by
  unfold Host.scatter
  have hn : d.resultIdx? (u.rowMajor.symm (u.rowMajor j)) idx = some i := by rw [Equiv.symm_apply_apply]; exact hj
  have h := foldl_overwrite_hit (fun n => d.resultIdx? (u.rowMajor.symm n) idx) f (fun n => upd (u.rowMajor.symm n)) _ i
    (fun r n h => scatter_step_miss d f idx upd i r n h) (fun r n h => scatter_step_hit d f idx upd i r n h)
    (u.rowMajor j) hn (List.finRange u.numel) x (List.nodup_finRange _) (List.mem_finRange _)
    (fun n' _ hg => (Equiv.symm_apply_eq _).mp (huniq _ hg))
  exact h.trans (by rw [Equiv.symm_apply_apply])

end Host

/-! ## Where an update lands -/

namespace ScatterDims

variable {s si u : Shape} (d : ScatterDims s si u) {w : Nat}

/-- Update `j` lands on `i` exactly when, on every operand axis, `i`'s coordinate is the start plus the
    window coordinate. -/
theorem resultIdx?_eq_some_iff (j : u.Idx) (idx : IVec si w) (i : s.Idx) :
    d.resultIdx? j idx = some i ↔ ∀ a, ((i a).val : Int) = d.start j idx a + d.window j a := by
  unfold resultIdx?
  constructor
  · intro h a
    split at h
    · rename_i hb
      have e := congrFun (Option.some.inj h) a
      have e' : (d.start j idx a + ↑(d.window j a)).toNat = (i a).val := congrArg Fin.val e
      have := (hb a).1
      omega
    · exact absurd h (by simp)
  · intro h
    have hb : ∀ a, 0 ≤ d.start j idx a + ↑(d.window j a) ∧ d.start j idx a + ↑(d.window j a) < ↑(s.size a) := fun a => by
      have := h a; have := (i a).isLt; omega
    rw [dif_pos hb]
    refine congrArg some (funext fun a => Fin.ext ?_)
    show (d.start j idx a + ↑(d.window j a)).toNat = (i a).val
    have := h a; omega

end ScatterDims

end Idealize.ShloMosaic
-- ==== Proof.LibEdges.lean ====
/-
  Gathers and accumulating scatters along the node axis, read at an index.

  An array of `E` node numbers (signed 32-bit words, as an `[E, 1]` column of start indices) selects rows of a
  node-indexed operand (`[N]` or `[N, C]`): a gather reads the operand at the number clamped into `[0, N − 1]`;
  an accumulating scatter adds update `e` to the operand's row whose number IS the word read signed, and drops it
  when that is no row. At the extended reals the accumulating scatter at row `n` is the operand's entry plus the sum
  over all `e` of the updates whose number is `n`.
-/
import Idealize.ShloMosaic.Lib.ValueIdx
import Idealize.ShloMosaic.PureOps.Ideal.Laws
import proofs.«107841_j72722386256530_2_alg».proof.Proof.LibScatter

noncomputable section

open scoped BigOperators

namespace Cert.Edges

open Idealize.ShloMosaic Idealize.ShloMosaic.ValueIdx

variable {α : Type}

/-! ## Gathers -/

/-- Rows of an `[N, C]` operand selected by `E` start indices. -/
abbrev rowsGather (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entries of an `[N]` operand selected by `E` start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A word read signed and clamped into `[0, N − 1]`: the row a gather reads. -/
def clampRow (N : Nat) (hN : 0 < N) (v : BitVec 32) : Fin N := ⟨min v.toInt.toNat (N - 1), by omega⟩

/-- Entry `(e, f)` of the gathered rows is the operand's entry `f` in the row start index `e` names. -/
theorem rowsGather_apply {N C E : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (f : Fin C) :
    Host.gather (rowsGather N C E wf) x idx (ix2 e f) = x (ix2 (clampRow N hN (idx (ix2 e 0))) f) := by
  unfold Host.gather
  congr 1
  funext a
  refine Fin.ext ?_
  have hsi : (rowsGather N C E wf).siIdx (ix2 e f) ⟨List.idxOf (0 : Fin 2) (rowsGather N C E wf).startIndexMap,
      List.idxOf_lt_length_iff.2 (List.mem_singleton.mpr rfl)⟩ = ix2 e 0 := by
    funext b; refine Fin.ext ?_
    match b with
    | ⟨0, _⟩ => rfl
    | ⟨1, _⟩ => rfl
  match a with
  | ⟨0, _⟩ =>
    show (rowsGather N C E wf).start (ix2 e f) idx 0 + (rowsGather N C E wf).batchCoord (ix2 e f) 0
      + (rowsGather N C E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N C E wf).startIndexMap from List.mem_singleton.mpr rfl), hsi]
    rfl
  | ⟨1, _⟩ =>
    show (rowsGather N C E wf).start (ix2 e f) idx 1 + (rowsGather N C E wf).batchCoord (ix2 e f) 1
      + (rowsGather N C E wf).offCoord (ix2 e f) 1 = f.val
    rw [GatherDims.batchCoord_eq_zero _ _ _ List.not_mem_nil]
    have hs : (rowsGather N C E wf).start (ix2 e f) idx 1 = 0 := by
      unfold GatherDims.start
      rw [dif_neg (show (1 : Fin 2) ∉ ([0] : List (Fin 2)) by decide)]
    rw [hs]
    simp only [Nat.add_zero, Nat.zero_add]
    rfl

/-- Entry `e` of the gathered vector is the operand's entry that start index `e` names. -/
theorem vecGather_apply {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : Fin E) :
    Host.gather (vecGather N E wf) x idx (ix1 e) = x (ix1 (clampRow N hN (idx (ix2 e 0)))) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Accumulating scatters -/

/-- Updates `[E, C]` added into rows of an `[N, C]` operand. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Updates `[E]` added into entries of an `[N]` operand. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `(e, f)` lands on `(n, g)` exactly when index `e`, read signed, is `n`, and `f = g`. -/
theorem rowsScatter_lands {N C E : Nat} (wf : ScatterDims.WF ⟨2, ![N, C]⟩ ⟨2, ![E, 1]⟩ ⟨2, ![E, C]⟩ [1] [0] [0] 1)
    (idx : IVec ⟨2, ![E, 1]⟩ 32) (e : Fin E) (f : Fin C) (n : Fin N) (g : Fin C) :
    (rowsScatter N C E wf).resultIdx? (ix2 e f) idx = some (ix2 n g) ↔ (idx (ix2 e 0)).toInt = (n.val : ℤ) ∧ f = g := by
  rw [ScatterDims.resultIdx?_eq_some_iff]
  have hsi : (rowsScatter N C E wf).siIdx (ix2 e f) ⟨List.idxOf (0 : Fin 2) (rowsScatter N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  have h0 : (rowsScatter N C E wf).start (ix2 e f) idx 0 = (idx (ix2 e 0)).toInt := by
    unfold ScatterDims.start
    rw [dif_pos (show (0 : Fin 2) ∈ (rowsScatter N C E wf).scatterDimsToOperandDims from List.mem_singleton.mpr rfl), hsi]
  have h1 : (rowsScatter N C E wf).start (ix2 e f) idx 1 = 0 := by
    unfold ScatterDims.start
    rw [dif_neg (show (1 : Fin 2) ∉ ([0] : List (Fin 2)) by decide)]
  have w0 : (rowsScatter N C E wf).window (ix2 e f) 0 = 0 := by
    unfold ScatterDims.window
    have hm : (0 : Fin 2) ∉ (rowsScatter N C E wf).sKept := by
      show (0 : Fin 2) ∉ (List.finRange 2).filter (fun a => a ∉ ([0] : List (Fin 2)))
      decide
    rw [dif_neg hm]
  have w1 : (rowsScatter N C E wf).window (ix2 e f) 1 = f.val := by
    unfold ScatterDims.window
    have hm : (1 : Fin 2) ∈ (rowsScatter N C E wf).sKept := by
      show (1 : Fin 2) ∈ (List.finRange 2).filter (fun a => a ∉ ([0] : List (Fin 2)))
      decide
    rw [dif_pos hm]
    rfl
  constructor
  · intro h
    have a0 : (n.val : ℤ) = (rowsScatter N C E wf).start (ix2 e f) idx 0 + ((rowsScatter N C E wf).window (ix2 e f) 0 : ℕ) := h 0
    have a1 : (g.val : ℤ) = (rowsScatter N C E wf).start (ix2 e f) idx 1 + ((rowsScatter N C E wf).window (ix2 e f) 1 : ℕ) := h 1
    rw [h0, w0] at a0
    rw [h1, w1] at a1
    exact ⟨by omega, Fin.ext (by omega)⟩
  · rintro ⟨hn, rfl⟩ a
    match a with
    | ⟨0, _⟩ =>
      show (n.val : ℤ) = (rowsScatter N C E wf).start (ix2 e f) idx 0 + ((rowsScatter N C E wf).window (ix2 e f) 0 : ℕ)
      rw [h0, w0, hn]; simp
    | ⟨1, _⟩ =>
      show (f.val : ℤ) = (rowsScatter N C E wf).start (ix2 e f) idx 1 + ((rowsScatter N C E wf).window (ix2 e f) 1 : ℕ)
      rw [h1, w1]; simp

/-- Update `e` lands on entry `n` exactly when index `e`, read signed, is `n`. -/
theorem vecScatter_lands {N E : Nat} (wf : ScatterDims.WF ⟨1, ![N]⟩ ⟨2, ![E, 1]⟩ ⟨1, ![E]⟩ [] [0] [0] 1)
    (idx : IVec ⟨2, ![E, 1]⟩ 32) (e : Fin E) (n : Fin N) :
    (vecScatter N E wf).resultIdx? (ix1 e) idx = some (ix1 n) ↔ (idx (ix2 e 0)).toInt = (n.val : ℤ) := by
  rw [ScatterDims.resultIdx?_eq_some_iff]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  have h0 : (vecScatter N E wf).start (ix1 e) idx 0 = (idx (ix2 e 0)).toInt := by
    unfold ScatterDims.start
    rw [dif_pos (show (0 : Fin 1) ∈ (vecScatter N E wf).scatterDimsToOperandDims from List.mem_singleton.mpr rfl), hsi]
  have w0 : (vecScatter N E wf).window (ix1 e) 0 = 0 := by
    unfold ScatterDims.window
    have hm : (0 : Fin 1) ∉ (vecScatter N E wf).sKept := by
      show (0 : Fin 1) ∉ (List.finRange 1).filter (fun a => a ∉ ([0] : List (Fin 1)))
      decide
    rw [dif_neg hm]
  constructor
  · intro h
    have a0 : (n.val : ℤ) = (vecScatter N E wf).start (ix1 e) idx 0 + ((vecScatter N E wf).window (ix1 e) 0 : ℕ) := h 0
    rw [h0, w0] at a0
    omega
  · intro hn a
    obtain rfl : a = 0 := Subsingleton.elim _ _
    show (n.val : ℤ) = (vecScatter N E wf).start (ix1 e) idx 0 + ((vecScatter N E wf).window (ix1 e) 0 : ℕ)
    rw [h0, w0, hn]; simp

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- The accumulating scatter of rows at the extended reals, at entry `(n, g)`: the operand's entry plus the sum
    over the updates `e` whose index is `n` of their entry `g`. -/
theorem rowsScatterAdd_apply {N C E : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ 32) (upd : FVec Ideal ⟨2, ![E, C]⟩ .f32) (n : Fin N) (g : Fin C) :
    Host.scatterAdd (F := Ideal) (rowsScatter N C E wf) x idx upd (ix2 n g)
      = x (ix2 n g) + ∑ e : Fin E, if (idx (ix2 e 0)).toInt = (n.val : ℤ) then upd (ix2 e g) else 0 := by
  show x (ix2 n g) + ∑ j ∈ Finset.univ.filter (fun j => (rowsScatter N C E wf).resultIdx? j idx = some (ix2 n g)), upd j = _
  congr 1
  rw [Finset.sum_filter, sum_idx2]
  refine Finset.sum_congr rfl fun e _ => ?_
  simp only [rowsScatter_lands]
  by_cases h : (idx (ix2 e 0)).toInt = (n.val : ℤ)
  · simp only [h, true_and, if_true]
    rw [Finset.sum_ite_eq' Finset.univ g (fun f => upd (ix2 e f))]
    simp
  · simp [h]

/-- The accumulating scatter of entries at the extended reals, at entry `n`: the operand's entry plus the sum
    of the updates `e` whose index is `n`. -/
theorem vecScatterAdd_apply {N E : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ 32) (upd : FVec Ideal ⟨1, ![E]⟩ .f32) (n : Fin N) :
    Host.scatterAdd (F := Ideal) (vecScatter N E wf) x idx upd (ix1 n)
      = x (ix1 n) + ∑ e : Fin E, if (idx (ix2 e 0)).toInt = (n.val : ℤ) then upd (ix1 e) else 0 := by
  show x (ix1 n) + ∑ j ∈ Finset.univ.filter (fun j => (vecScatter N E wf).resultIdx? j idx = some (ix1 n)), upd j = _
  congr 1
  rw [Finset.sum_filter, sum_idx1]
  refine Finset.sum_congr rfl fun e _ => ?_
  simp only [vecScatter_lands]

end Cert.Edges

end
-- ==== Proof.LibGcnOps.lean ====
/-
  One aggregation step and the decode, in the form the programs spell them, read at an entry (general in the extents).

  Aggregation: rows of a node-indexed matrix `u : [N, C]` are gathered at an `[E, 1]` column of row numbers, each
  gathered row is scaled by its message's weight (a vector of `E` weights spread to an `[E, 1]` column and then over the
  `C` columns), and the scaled rows are added into a splat of a constant at a second `[E, 1]` column of row numbers.
  At entry `(n, k)` that is the constant plus the sum, over the messages `e` whose second number is `n`, of
  `u (first number of e, clamped into the rows) k · weight e`.

  (General in N, C, E, L; needs LibEdges.lean and, through it, LibScatter.lean beside it. The dims and the records are
  variables with an equation each, so a program's own spelling is met by `rfl`.)

  Decode: two gathers of rows of `z : [N, C]` at two `[L, 1]` columns, multiplied entry by entry and summed along the
  columns from an initial value: at pair `l` the initial value plus `∑ k, z (first row of l) k · z (second row of l) k`.
-/
import Idealize.ShloMosaic.Lib.Pipeline.Value
import Idealize.ShloMosaic.Lib.ValueIdx
import Idealize.ShloMosaic.PureOps.Ideal.Laws
import proofs.«107841_j72722386256530_2_alg».proof.Proof.LibEdges

noncomputable section

open scoped BigOperators

namespace Cert.GcnOps

open Idealize.ShloMosaic Idealize.ShloMosaic.ValueIdx Cert.Edges

/-- A vector of `E` entries spread to an `[E, 1]` column and then over `C` columns, read at `(e, k)`, is its entry `e`. -/
theorem spread_apply {α : Type} {E C : ℕ} (d1 : Fin 1 → Fin 2) (h1 : Shape.BroadcastsInDim ⟨1, ![E]⟩ ⟨2, ![E, 1]⟩ d1)
    (hd1 : d1 0 = 0) (d2 : Fin 2 → Fin 2) (h2 : Shape.BroadcastsInDim ⟨2, ![E, 1]⟩ ⟨2, ![E, C]⟩ d2) (hd2 : d2 0 = 0)
    (v : (⟨1, ![E]⟩ : Shape).Idx → α) (e : Fin E) (k : Fin C) :
    broadcastInDim ⟨2, ![E, C]⟩ d2 h2 (broadcastInDim ⟨2, ![E, 1]⟩ d1 h1 v) (ix2 e k) = v (ix1 e) := by
  refine (broadcastInDim_apply d2 h2 _ (ix2 e k) (ix2 e 0) ?_).trans (broadcastInDim_apply d1 h1 v (ix2 e 0) (ix1 e) ?_)
  · intro a
    match a with
    | ⟨0, _⟩ =>
      show e.val = if E = 1 then 0 else ((ix2 e k : (⟨2, ![E, C]⟩ : Shape).Idx) (d2 0)).val
      rw [hd2]
      show e.val = if E = 1 then 0 else e.val
      split_ifs with h
      · have := e.isLt; omega
      · rfl
    | ⟨1, _⟩ =>
      show 0 = if (1 : ℕ) = 1 then 0 else _
      rw [if_pos rfl]
  · intro a
    match a with
    | ⟨0, _⟩ =>
      show e.val = if E = 1 then 0 else ((ix2 e 0 : (⟨2, ![E, 1]⟩ : Shape).Idx) (d1 0)).val
      rw [hd1]
      show e.val = if E = 1 then 0 else e.val
      split_ifs with h
      · have := e.isLt; omega
      · rfl

/-- The aggregation step at entry `(n, k)`. -/
theorem aggregate_apply {N C E : ℕ} (hN : 0 < N)
    (gd : GatherDims ⟨2, ![N, C]⟩ ⟨2, ![E, 1]⟩ ⟨2, ![E, C]⟩)
    (wfg : GatherDims.WF ⟨2, ![N, C]⟩ ⟨2, ![E, 1]⟩ ⟨2, ![E, C]⟩ [1] [0] [] [0] [] 1 ![1, C]) (hgd : gd = rowsGather N C E wfg)
    (sd : ScatterDims ⟨2, ![N, C]⟩ ⟨2, ![E, 1]⟩ ⟨2, ![E, C]⟩)
    (wfs : ScatterDims.WF ⟨2, ![N, C]⟩ ⟨2, ![E, 1]⟩ ⟨2, ![E, C]⟩ [1] [0] [0] 1) (hsd : sd = rowsScatter N C E wfs)
    (d0 : Fin 0 → Fin 2) (h0 : Shape.BroadcastsInDim ⟨0, ![]⟩ ⟨2, ![N, C]⟩ d0)
    (d1 : Fin 1 → Fin 2) (h1 : Shape.BroadcastsInDim ⟨1, ![E]⟩ ⟨2, ![E, 1]⟩ d1) (hd1 : d1 0 = 0)
    (d2 : Fin 2 → Fin 2) (h2 : Shape.BroadcastsInDim ⟨2, ![E, 1]⟩ ⟨2, ![E, C]⟩ d2) (hd2 : d2 0 = 0)
    (z : BitVec 32) (u : FVec Ideal ⟨2, ![N, C]⟩ .f32) (rowc colc : IVec ⟨2, ![E, 1]⟩ 32) (nrm : FVec Ideal ⟨1, ![E]⟩ .f32)
    (n : Fin N) (k : Fin C) :
    Host.scatterAdd (F := Ideal) sd (broadcastInDim ⟨2, ![N, C]⟩ d0 h0 (constant (F := Ideal) ⟨0, ![]⟩ .f32 z)) colc
        (mulf (Host.gather gd u rowc) (broadcastInDim ⟨2, ![E, C]⟩ d2 h2 (broadcastInDim ⟨2, ![E, 1]⟩ d1 h1 nrm))) (ix2 n k)
      = Ideal.ofBits .f32 z + ∑ e : Fin E, if (colc (ix2 e 0)).toInt = (n.val : ℤ)
          then u (ix2 (clampRow N hN (rowc (ix2 e 0))) k) * nrm (ix1 e) else 0 := by
  subst hgd hsd
  rw [rowsScatterAdd_apply]
  refine congrArg₂ (· + ·) (broadcastInDim_apply d0 h0 _ (ix2 n k) ix0 (fun a => a.elim0))
    (Finset.sum_congr rfl fun e _ => ?_)
  rw [mulf_apply, rowsGather_apply hN wfg u rowc e k, spread_apply d1 h1 hd1 d2 h2 hd2 nrm e k]

/-- The decode at pair `l`. -/
theorem score_apply {N C L : ℕ} (hN : 0 < N)
    (gd : GatherDims ⟨2, ![N, C]⟩ ⟨2, ![L, 1]⟩ ⟨2, ![L, C]⟩)
    (wfg : GatherDims.WF ⟨2, ![N, C]⟩ ⟨2, ![L, 1]⟩ ⟨2, ![L, C]⟩ [1] [0] [] [0] [] 1 ![1, C]) (hgd : gd = rowsGather N C L wfg)
    (h' : Shape.ReducesTo ⟨2, ![L, C]⟩ [1] ⟨1, ![L]⟩) (h : Shape.Reduces ⟨2, ![L, C]⟩ [1] ⟨1, ![L]⟩)
    (z : FVec Ideal ⟨2, ![N, C]⟩ .f32) (sc dc : IVec ⟨2, ![L, 1]⟩ 32) (init : EReal) (l : Fin L) :
    Ideal.hostReduceAdd h' (mulf (Host.gather gd z sc) (Host.gather gd z dc)) init (ix1 l)
      = init + ∑ k : Fin C, z (ix2 (clampRow N hN (sc (ix2 l 0))) k) * z (ix2 (clampRow N hN (dc (ix2 l 0))) k) := by
  subst hgd
  rw [Ideal.hostReduceAdd_single h' h]
  refine congrArg (init + ·) ?_
  show ∑ k : Fin C, _ = _
  refine Finset.sum_congr rfl fun k _ => ?_
  have hi : h.lift (ix1 l) k = ix2 l k := funext fun a => Fin.ext (by
    match a with
    | ⟨0, _⟩ => rfl
    | ⟨1, _⟩ => rfl)
  rw [hi, mulf_apply, rowsGather_apply hN wfg z sc l k, rowsGather_apply hN wfg z dc l k]

end Cert.GcnOps

end
-- ==== Proof.LibLinear.lean ====
/-
  Aggregation commutes with a linear map, on real numbers (general: any finite families of edges and features).

  Cert.Linear: `IsReal` (an extended real that is a real number; closed under products), `coe_sum` (the coercion
  ℝ → EReal commutes with finite sums), `swap_real` and `swap`:

  Over a finite family of edges `e`, each carrying a feature row `u e`, a weight `a e` and a condition `P e`
  ("edge `e` ends at the node in hand"), the node's aggregate is `∑ e with P e, u e k · a e` per feature `k`.
  Applying a linear map `w` to the aggregate gives the same number as aggregating the mapped rows:
      ∑ k, (∑ e with P e, u e k · a e) · w k  =  ∑ e with P e, (∑ k, u e k · w k) · a e.
  On the extended reals this needs every entry to be a real number: distributing a product over a sum fails at the
  infinities. The law is proved on ℝ (distribute, exchange the two sums) and carried to the extended reals through
  the coercion, which commutes with finite sums and with products.
-/
import Idealize.ShloMosaic.PureOps.Ideal

noncomputable section

open scoped BigOperators

namespace Cert.Linear

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law on ℝ: distribute `w k` over the edge sum, exchange the sums over `k` and `e`, and collect `a e`. -/
theorem swap_real {ι κ : Type} [Fintype ι] [Fintype κ] (P : ι → Prop) [DecidablePred P]
    (u : ι → κ → ℝ) (a : ι → ℝ) (w : κ → ℝ) :
    ∑ k, (∑ e, if P e then u e k * a e else 0) * w k = ∑ e, if P e then (∑ k, u e k * w k) * a e else 0 := by
  simp only [Finset.sum_mul]
  rw [Finset.sum_comm]
  refine Finset.sum_congr rfl fun e _ => ?_
  by_cases h : P e
  · simp only [h, if_true]
    exact Finset.sum_congr rfl fun k _ => by ring
  · simp [h]

/-- The law on the extended reals, for real entries. Each side carries the `0 +` an accumulating scatter into a
    zero array leaves in front of its sum. -/
theorem swap {ι κ : Type} [Fintype ι] [Fintype κ] (P : ι → Prop) [DecidablePred P]
    (u : ι → κ → EReal) (a : ι → EReal) (w : κ → EReal)
    (hu : ∀ e k, IsReal (u e k)) (ha : ∀ e, IsReal (a e)) (hw : ∀ k, IsReal (w k)) :
    ∑ k, (0 + ∑ e, if P e then u e k * a e else 0) * w k
      = 0 + ∑ e, if P e then (∑ k, u e k * w k) * a e else 0 := by
  choose U hU using hu
  choose A hA using ha
  choose W hW using hw
  have h1 : ∀ e k, (if P e then u e k * a e else 0) = ((if P e then U e k * A e else 0 : ℝ) : EReal) := by
    intro e k
    rw [hU, hA]
    split_ifs <;> simp
  have h2 : ∀ e, (if P e then (∑ k, u e k * w k) * a e else 0)
      = ((if P e then (∑ k, U e k * W k) * A e else 0 : ℝ) : EReal) := by
    intro e
    have hs : ∑ k, u e k * w k = ((∑ k, U e k * W k : ℝ) : EReal) := by
      rw [coe_sum]
      exact Finset.sum_congr rfl fun k _ => by rw [hU, hW, EReal.coe_mul]
    rw [hs, hA]
    split_ifs <;> simp
  have h3 : ∀ k, ((∑ e, if P e then U e k * A e else 0 : ℝ) : EReal) * w k
      = (((∑ e, if P e then U e k * A e else 0) * W k : ℝ) : EReal) := by
    intro k
    rw [hW, EReal.coe_mul]
  simp only [h1, h2, zero_add, ← coe_sum, h3]
  exact congrArg _ (swap_real P U A W)

end Cert.Linear

end
-- ==== Proof.LibGcnLayers.lean ====
/-
  A two-layer graph convolution with a dot-product decode, on the extended reals, in two orders.

  A graph on `N` nodes carries `E` messages; message `e` reads the feature row of its source node `src e`, is scaled
  by a weight `wt e`, and is added into the row of the node whose number is `tgt e` (an integer: a message whose
  target is no node is dropped). The aggregate of a feature matrix `u` at node `n`, feature `k`, is
      agg u n k = 0 + ∑ e with tgt e = n, u (src e) k · wt e .
  A layer applies a linear map `W` and adds a bias `b`. It can aggregate first and map afterwards,
      (∑ k, agg u n k · W k j) + b j ,
  or map first and aggregate the mapped rows,
      agg (fun n' j' => ∑ k, u n' k · W k j') n j + b j .
  The two agree when every entry is a real number: the linear map distributes over the finite sum of messages and
  the two sums exchange (`Cert.Linear.swap`); on the extended reals that needs finiteness. Two such layers, a
  maximum with a constant between them (which keeps reals real), and a final score `init + ∑ k, z (s l) k · z (d l) k`
  over pairs of nodes, therefore agree in both orders. (General in the numbers of nodes, messages and features; needs
  LibLinear.lean beside it.)
-/
import proofs.«107841_j72722386256530_2_alg».proof.Proof.LibLinear

noncomputable section

open scoped BigOperators

namespace Cert.Gcn

open Cert.Linear

/-! ## Real numbers among the extended reals are closed under what a layer does -/

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact IsReal.add (h a (Finset.mem_insert_self a s)) (ih fun i hi => h i (Finset.mem_insert_of_mem hi))

theorem IsReal.max {x y : EReal} (hx : IsReal x) (hy : IsReal y) : IsReal (max x y) := by
  rcases max_choice x y with h | h
  · rw [h]; exact hx
  · rw [h]; exact hy

theorem isReal_ite {p : Prop} [Decidable p] {x y : EReal} (hx : IsReal x) (hy : IsReal y) :
    IsReal (if p then x else y) := by
  split_ifs
  · exact hx
  · exact hy

/-! ## Messages and their aggregate -/

/-- The messages of a graph on `N` nodes: weight, source node, and the number of the target node. -/
structure Edges (N E : ℕ) where
  wt : Fin E → EReal
  src : Fin E → Fin N
  tgt : Fin E → ℤ

variable {N E : ℕ}

/-- The aggregate of `u` at node `n`, feature `k`: the weighted source rows of the messages that end at `n`. -/
def agg (g : Edges N E) {C : ℕ} (u : Fin N → Fin C → EReal) (n : Fin N) (k : Fin C) : EReal :=
  0 + ∑ e : Fin E, if g.tgt e = (n.val : ℤ) then u (g.src e) k * g.wt e else 0

/-- A layer that aggregates first and applies the linear map afterwards. -/
def aggThenMap (g : Edges N E) {K M : ℕ} (u : Fin N → Fin K → EReal) (W : Fin K → Fin M → EReal) (b : Fin M → EReal)
    (n : Fin N) (j : Fin M) : EReal :=
  (∑ k, agg g u n k * W k j) + b j

/-- A layer that applies the linear map to every row first and aggregates the mapped rows. -/
def mapThenAgg (g : Edges N E) {K M : ℕ} (u : Fin N → Fin K → EReal) (W : Fin K → Fin M → EReal) (b : Fin M → EReal)
    (n : Fin N) (j : Fin M) : EReal :=
  agg g (fun n' j' => ∑ k, u n' k * W k j') n j + b j

/-- On real entries the two orders of a layer agree. -/
theorem aggThenMap_eq_mapThenAgg (g : Edges N E) {K M : ℕ} (u : Fin N → Fin K → EReal) (W : Fin K → Fin M → EReal)
    (b : Fin M → EReal) (hu : ∀ n k, IsReal (u n k)) (hw : ∀ e, IsReal (g.wt e)) (hW : ∀ k j, IsReal (W k j))
    (n : Fin N) (j : Fin M) : aggThenMap g u W b n j = mapThenAgg g u W b n j := by
  unfold aggThenMap mapThenAgg agg
  congr 1
  exact Linear.swap (fun e => g.tgt e = (n.val : ℤ)) (fun e k => u (g.src e) k) g.wt (fun k => W k j)
    (fun e k => hu _ _) hw (fun k => hW k j)

/-- A layer of real entries has real entries. -/
theorem isReal_mapThenAgg (g : Edges N E) {K M : ℕ} (u : Fin N → Fin K → EReal) (W : Fin K → Fin M → EReal)
    (b : Fin M → EReal) (hu : ∀ n k, IsReal (u n k)) (hw : ∀ e, IsReal (g.wt e)) (hW : ∀ k j, IsReal (W k j))
    (hb : ∀ j, IsReal (b j)) (n : Fin N) (j : Fin M) : IsReal (mapThenAgg g u W b n j) := by
  unfold mapThenAgg agg
  refine IsReal.add (IsReal.add isReal_zero (isReal_sum _ _ fun e _ => isReal_ite ?_ isReal_zero)) (hb j)
  exact IsReal.mul (isReal_sum _ _ fun k _ => IsReal.mul (hu _ k) (hW k j)) (hw e)

/-! ## Two layers and the decode -/

/-- Two layers, each aggregating first, a maximum with `z0` between them. -/
def twoAggFirst (g : Edges N E) {K M M' : ℕ} (x : Fin N → Fin K → EReal) (W1 : Fin K → Fin M → EReal) (b1 : Fin M → EReal)
    (W2 : Fin M → Fin M' → EReal) (b2 : Fin M' → EReal) (z0 : EReal) : Fin N → Fin M' → EReal :=
  aggThenMap g (fun n j => max (aggThenMap g x W1 b1 n j) z0) W2 b2

/-- Two layers, each mapping first, a maximum with `z0` between them. -/
def twoMapFirst (g : Edges N E) {K M M' : ℕ} (x : Fin N → Fin K → EReal) (W1 : Fin K → Fin M → EReal) (b1 : Fin M → EReal)
    (W2 : Fin M → Fin M' → EReal) (b2 : Fin M' → EReal) (z0 : EReal) : Fin N → Fin M' → EReal :=
  mapThenAgg g (fun n j => max (mapThenAgg g x W1 b1 n j) z0) W2 b2

theorem twoAggFirst_eq_twoMapFirst (g : Edges N E) {K M M' : ℕ} (x : Fin N → Fin K → EReal) (W1 : Fin K → Fin M → EReal)
    (b1 : Fin M → EReal) (W2 : Fin M → Fin M' → EReal) (b2 : Fin M' → EReal) (z0 : EReal)
    (hx : ∀ n k, IsReal (x n k)) (hw : ∀ e, IsReal (g.wt e)) (hW1 : ∀ k j, IsReal (W1 k j)) (hb1 : ∀ j, IsReal (b1 j))
    (hW2 : ∀ k j, IsReal (W2 k j)) (hz0 : IsReal z0) :
    twoAggFirst g x W1 b1 W2 b2 z0 = twoMapFirst g x W1 b1 W2 b2 z0 := by
  have h1 : (fun n j => max (aggThenMap g x W1 b1 n j) z0) = fun n j => max (mapThenAgg g x W1 b1 n j) z0 := by
    funext n j
    rw [aggThenMap_eq_mapThenAgg g x W1 b1 hx hw hW1 n j]
  funext n j
  unfold twoAggFirst twoMapFirst
  rw [h1]
  exact aggThenMap_eq_mapThenAgg g _ W2 b2
    (fun n k => IsReal.max (isReal_mapThenAgg g x W1 b1 hx hw hW1 hb1 n k) hz0) hw hW2 n j

/-- The score of pair `l`: the inner product of the rows of its two nodes, from `init`. -/
def score {L M : ℕ} (z : Fin N → Fin M → EReal) (s d : Fin L → Fin N) (init : EReal) (l : Fin L) : EReal :=
  init + ∑ k, z (s l) k * z (d l) k

end Cert.Gcn

end
-- ==== Proof.LibAggregate.lean ====
/-
  The aggregation of node features along messages, as one function, and the real numbers among the extended reals.

  Message e carries a weight nrm e, reads the feature row of the node whose number is the first word of e clamped into the
  rows, and is added into the row of the node whose number is the second word of e read signed (a message whose second
  word names no row is dropped). The aggregate of a feature matrix u at (n, k) is
      0 + ∑ e with second word n,  u (first word of e, clamped) k · nrm e.
  The programs spell this as a gather of rows, a product with the weights spread over the columns, and an accumulating
  scatter into a zero matrix (`agg_spelled`).

  Real numbers are closed under everything the network's layers do: the aggregate of real features with real weights, a
  matrix product of real matrices, a bias, the maximum with zero. And the inverse-root-degree factor
  where(d > 0, rsqrt d, z) is real whatever the degree d is, as soon as z is: the reciprocal square root of a positive
  extended real is a real number (of +inf it is 0).

  General in the numbers of nodes N, features C and messages E. It imports LibGcnOps.lean (and through it LibEdges.lean and
  LibScatter.lean), LibGcnLayers.lean (and through it LibLinear.lean) and LibDense.lean (and through it LibDotSum.lean), so it
  needs those seven files beside it.
-/
import proofs.«107841_j72722386256530_2_alg».proof.Proof.LibGcnOps
import proofs.«107841_j72722386256530_2_alg».proof.Proof.LibGcnLayers
import proofs.«107841_j72722386256530_2_alg».proof.Proof.LibDense

noncomputable section

open scoped BigOperators

namespace Cert.Aggregate

open Idealize.ShloMosaic Idealize.ShloMosaic.ValueIdx Cert.Edges Cert.Linear Cert.Gcn Cert.Dense

/-- The aggregate of the feature matrix `u` along the messages (first words `rowc`, second words `colc`, weights `nrm`). -/
def agg {N C E : ℕ} (hN : 0 < N) (u : (⟨2, ![N, C]⟩ : Shape).Idx → EReal) (rowc colc : IVec ⟨2, ![E, 1]⟩ 32)
    (nrm : (⟨1, ![E]⟩ : Shape).Idx → EReal) : (⟨2, ![N, C]⟩ : Shape).Idx → EReal :=
  fun i => Ideal.ofBits .f32 0x00000000#32 + ∑ e : Fin E, if (colc (ix2 e 0)).toInt = (((i 0 : Fin N)).val : ℤ)
    then u (ix2 (clampRow N hN (rowc (ix2 e 0))) (i 1 : Fin C)) * nrm (ix1 e) else 0

/-- The programs' spelling of the aggregate: rows gathered, scaled by the spread weights, scatter-added into zeros. -/
theorem agg_spelled {N C E : ℕ} (hN : 0 < N)
    (gd : GatherDims ⟨2, ![N, C]⟩ ⟨2, ![E, 1]⟩ ⟨2, ![E, C]⟩)
    (wfg : GatherDims.WF ⟨2, ![N, C]⟩ ⟨2, ![E, 1]⟩ ⟨2, ![E, C]⟩ [1] [0] [] [0] [] 1 ![1, C]) (hgd : gd = rowsGather N C E wfg)
    (sd : ScatterDims ⟨2, ![N, C]⟩ ⟨2, ![E, 1]⟩ ⟨2, ![E, C]⟩)
    (wfs : ScatterDims.WF ⟨2, ![N, C]⟩ ⟨2, ![E, 1]⟩ ⟨2, ![E, C]⟩ [1] [0] [0] 1) (hsd : sd = rowsScatter N C E wfs)
    (d0 : Fin 0 → Fin 2) (h0 : Shape.BroadcastsInDim ⟨0, ![]⟩ ⟨2, ![N, C]⟩ d0)
    (d1 : Fin 1 → Fin 2) (h1 : Shape.BroadcastsInDim ⟨1, ![E]⟩ ⟨2, ![E, 1]⟩ d1) (hd1 : d1 0 = 0)
    (d2 : Fin 2 → Fin 2) (h2 : Shape.BroadcastsInDim ⟨2, ![E, 1]⟩ ⟨2, ![E, C]⟩ d2) (hd2 : d2 0 = 0)
    (u : FVec Ideal ⟨2, ![N, C]⟩ .f32) (rowc colc : IVec ⟨2, ![E, 1]⟩ 32) (nrm : FVec Ideal ⟨1, ![E]⟩ .f32) :
    Host.scatterAdd (F := Ideal) sd (broadcastInDim ⟨2, ![N, C]⟩ d0 h0 (constant (F := Ideal) ⟨0, ![]⟩ .f32 0x00000000#32)) colc
        (mulf (Host.gather gd u rowc) (broadcastInDim ⟨2, ![E, C]⟩ d2 h2 (broadcastInDim ⟨2, ![E, 1]⟩ d1 h1 nrm)))
      = agg hN u rowc colc nrm := by
  funext i
  obtain ⟨n, k, rfl⟩ : ∃ (n : Fin N) (k : Fin C), i = ix2 n k := ⟨i 0, i 1, eq_ix2 i⟩
  exact Cert.GcnOps.aggregate_apply hN gd wfg hgd sd wfs hsd d0 h0 d1 h1 hd1 d2 h2 hd2 _ u rowc colc nrm n k

/-! ## Real numbers -/

theorem isReal_ofBits_zero : IsReal (Ideal.ofBits .f32 0x00000000#32) := by
  rw [Ideal.ofBits_zero_f32]; exact isReal_zero

/-- The aggregate of real features with real weights is real. -/
theorem isReal_agg {N C E : ℕ} (hN : 0 < N) (u : (⟨2, ![N, C]⟩ : Shape).Idx → EReal) (rowc colc : IVec ⟨2, ![E, 1]⟩ 32)
    (nrm : (⟨1, ![E]⟩ : Shape).Idx → EReal) (hu : ∀ i, IsReal (u i)) (hn : ∀ e, IsReal (nrm e)) (i) :
    IsReal (agg hN u rowc colc nrm i) :=
  IsReal.add isReal_ofBits_zero (isReal_sum _ _ fun e _ => isReal_ite (IsReal.mul (hu _) (hn _)) isReal_zero)

/-- A product of real matrices is real. -/
theorem isReal_prod {A K M : ℕ} (x : (⟨2, ![A, K]⟩ : Shape).Idx → EReal) (w : (⟨2, ![K, M]⟩ : Shape).Idx → EReal)
    (hx : ∀ i, IsReal (x i)) (hw : ∀ i, IsReal (w i)) (i) : IsReal (prod x w i) :=
  isReal_sum _ _ fun k _ => IsReal.mul (hx _) (hw _)

/-- Bias and relu of real entries is real. -/
theorem isReal_act {A M : ℕ} (x : (⟨2, ![A, M]⟩ : Shape).Idx → EReal) (b : (⟨2, ![1, M]⟩ : Shape).Idx → EReal)
    (hx : ∀ i, IsReal (x i)) (hb : ∀ i, IsReal (b i)) (i) : IsReal (act x b i) :=
  IsReal.max (IsReal.add (hx _) (hb _)) isReal_ofBits_zero

/-- A real matrix shifted by a real bias row is real. -/
theorem isReal_shift {A M : ℕ} (y : (⟨2, ![A, M]⟩ : Shape).Idx → EReal) (b : (⟨2, ![1, M]⟩ : Shape).Idx → EReal)
    (hy : ∀ i, IsReal (y i)) (hb : ∀ i, IsReal (b i)) (i) : IsReal (shift y b i) :=
  IsReal.add (hy _) (hb _)

/-- The reciprocal square root of a positive extended real is a real number. -/
theorem isReal_rsqrt_of_pos {d : EReal} (h : 0 < d) : IsReal (Ideal.rsqrt d) := by
  induction d using EReal.rec with
  | bot => exact absurd h (by simp)
  | top => exact ⟨0, by simp⟩
  | coe r =>
    have hr : 0 < r := by exact_mod_cast h
    rw [Ideal.rsqrt_coe, if_neg (not_lt.mpr hr.le), if_neg hr.ne']
    exact ⟨_, rfl⟩

/-- where(d > 0, rsqrt d, z), entry by entry, is real when z is: whatever the degrees are. -/
theorem isReal_guarded_rsqrt {s : Shape} (deg zero z : FVec Ideal s .f32) (hzero : ∀ i, zero i = 0)
    (hz : ∀ i, IsReal (z i)) (i : s.Idx) :
    IsReal (select (cmpf .ogt deg zero) (Host.rsqrt deg) z i) := by
  show IsReal (Scalar.select (Ideal.cmp .ogt (deg i) (zero i)) (Ideal.rsqrt (deg i)) (z i))
  rw [hzero i]
  unfold Scalar.select Ideal.cmp
  by_cases h : (0 : EReal) < deg i
  · simp only [h, decide_true, BitVec.ofBool_true, if_true]
    exact isReal_rsqrt_of_pos h
  · simp only [h, decide_false, BitVec.ofBool_false]
    rw [if_neg (by decide)]
    exact hz i

/-- A gather reads entries of its operand: real entries in, real entries out. -/
theorem isReal_gather {s si t : Shape} {w : ℕ} (d : GatherDims s si t) (x : s.Idx → EReal) (idx : IVec si w)
    (hx : ∀ i, IsReal (x i)) (j : t.Idx) : IsReal (Host.gather d x idx j) := hx _

end Cert.Aggregate

end
-- ==== Proof.LibGcnAlgebra.lean ====
/-
  Two spellings of one layer of a graph convolution with symmetric normalisation, over the extended reals.

  `E` edges with signed targets `c e` and source nodes `s e`, `N` nodes, features `a`, a bias `β`, and a function
  `rsq` that is a nonnegative real at every count plus one (the reciprocal square root). The first spelling scales
  each message by its source's factor, adds the node's own term, and scales the total by the node's factor
  (`outK`); the second appends one self-loop per node and scales every message by both end factors (`outR`).
  They agree at every node (`outR_eq_outK`): a node's degree counts its self-loop, so the two factors are one
  number, and that number is a nonnegative real, so it distributes over the accumulated sum whatever the
  features are.
-/
import Idealize.ShloMosaic.PureOps.Ideal

noncomputable section

namespace Cert.GcnAlgebra

open scoped BigOperators

variable {N E : ℕ}

/-- How many of the `E` edges point at node `i` (their target, a signed integer, is `i`), as an extended real:
    a sum of ones. -/
def cnt (c : Fin E → ℤ) (i : Fin N) : EReal := ∑ e : Fin E, if c e = (i.val : ℤ) then (1 : EReal) else 0

/-- The first program's node factor: `rsq` of (in-degree + 1), the in-degree accumulated from zero. -/
def dK (rsq : EReal → EReal) (c : Fin E → ℤ) (i : Fin N) : EReal := rsq ((0 + cnt c i) + 1)

/-- The first program's entry at node `i`: the messages `a (s e) * dK (s e)` of the edges pointing at `i`,
    accumulated from zero, plus the node's own term, the whole scaled by the node's factor, plus the bias. -/
def outK (rsq : EReal → EReal) (c : Fin E → ℤ) (s : Fin E → Fin N) (a : Fin N → EReal) (β : EReal) (i : Fin N) : EReal :=
  ((0 + ∑ e : Fin E, if c e = (i.val : ℤ) then a (s e) * dK rsq c (s e) else 0) + a i * dK rsq c i) * dK rsq c i + β

/-- The second program's degree: the edges and the `N` self-loops counted together, from zero. -/
def degR (c : Fin E → ℤ) (i : Fin N) : EReal :=
  0 + (cnt c i + ∑ n : Fin N, if (n.val : ℤ) = (i.val : ℤ) then (1 : EReal) else 0)

/-- The second program's node factor: `rsq` of the degree where it is positive, else zero. -/
def dR (rsq : EReal → EReal) (c : Fin E → ℤ) (i : Fin N) : EReal := if 0 < degR c i then rsq (degR c i) else 0

/-- The second program's entry at node `i`: every edge's and every self-loop's message scaled by both end
    factors, accumulated from zero, plus the bias. `g e` is edge `e`'s target as a node (clamped). -/
def outR (rsq : EReal → EReal) (c : Fin E → ℤ) (s g : Fin E → Fin N) (a : Fin N → EReal) (β : EReal) (i : Fin N) : EReal :=
  (0 + ((∑ e : Fin E, if c e = (i.val : ℤ) then a (s e) * (dR rsq c (s e) * dR rsq c (g e)) else 0)
      + ∑ n : Fin N, if (n.val : ℤ) = (i.val : ℤ) then a n * (dR rsq c n * dR rsq c n) else 0)) + β

/-- A finite sum of ones and zeros is a natural number, seen as an extended real. -/
theorem sum_boole_eq_natCast {ι : Type*} (t : Finset ι) (p : ι → Prop) [DecidablePred p] :
    ∃ k : ℕ, (∑ e ∈ t, if p e then (1 : EReal) else 0) = (((k : ℝ)) : EReal) := by
  classical
  induction t using Finset.induction_on with
  | empty => exact ⟨0, by rw [Finset.sum_empty, Nat.cast_zero, EReal.coe_zero]⟩
  | insert x t hx ih =>
    obtain ⟨k, hk⟩ := ih
    rw [Finset.sum_insert hx, hk]
    by_cases h : p x
    · refine ⟨k + 1, ?_⟩
      rw [if_pos h, Nat.cast_add, Nat.cast_one, EReal.coe_add, EReal.coe_one, add_comm]
    · exact ⟨k, by rw [if_neg h, zero_add]⟩

/-- The in-degree count is a natural number. -/
theorem cnt_eq_natCast (c : Fin E → ℤ) (i : Fin N) : ∃ k : ℕ, cnt c i = (((k : ℝ)) : EReal) :=
  sum_boole_eq_natCast Finset.univ (fun e => c e = (i.val : ℤ))

/-- A sum over the nodes of terms switched on by "this node is `i`" is the single term at `i`. -/
theorem sum_self (f : Fin N → EReal) (i : Fin N) :
    (∑ n : Fin N, if (n.val : ℤ) = (i.val : ℤ) then f n else 0) = f i := by
  rw [Finset.sum_eq_single i]
  · rw [if_pos rfl]
  · intro b _ hb
    rw [if_neg]
    intro h
    exact hb (Fin.ext (Int.ofNat_inj.mp h))
  · intro h
    exact absurd (Finset.mem_univ i) h

/-- The second program's degree is the in-degree count plus one. -/
theorem degR_eq (c : Fin E → ℤ) (i : Fin N) : degR c i = cnt c i + 1 := by
  have h1 : (∑ n : Fin N, if (n.val : ℤ) = (i.val : ℤ) then (1 : EReal) else 0) = 1 :=
    sum_self (fun _ => (1 : EReal)) i
  unfold degR
  rw [h1, zero_add]

/-- The second program's degree is positive. -/
theorem degR_pos (c : Fin E → ℤ) (i : Fin N) : 0 < degR c i := by
  obtain ⟨k, hk⟩ := cnt_eq_natCast c i
  rw [degR_eq, hk, ← EReal.coe_one, ← EReal.coe_add]
  exact EReal.coe_pos.mpr (by positivity)

/-- The two programs' node factors agree. -/
theorem dR_eq_dK (rsq : EReal → EReal) (c : Fin E → ℤ) (i : Fin N) : dR rsq c i = dK rsq c i := by
  unfold dR dK
  rw [if_pos (degR_pos c i), degR_eq, zero_add]

/-- The node factor is a nonnegative real. -/
theorem dK_real (rsq : EReal → EReal)
    (hr : ∀ k : ℕ, ∃ r : ℝ, 0 ≤ r ∧ rsq ((((k : ℝ)) : EReal) + 1) = (r : EReal))
    (c : Fin E → ℤ) (i : Fin N) : ∃ r : ℝ, 0 ≤ r ∧ dK rsq c i = (r : EReal) := by
  obtain ⟨k, hk⟩ := cnt_eq_natCast c i
  obtain ⟨r, hr0, hrk⟩ := hr k
  refine ⟨r, hr0, ?_⟩
  unfold dK
  rw [zero_add, hk, hrk]

/-- A nonnegative real factor distributes over a finite sum of extended reals. -/
theorem sum_mul_real {ι : Type*} (t : Finset ι) (f : ι → EReal) (r : ℝ) (hr0 : 0 ≤ r) :
    (∑ e ∈ t, f e * (r : EReal)) = (∑ e ∈ t, f e) * (r : EReal) := by
  classical
  induction t using Finset.induction_on with
  | empty => rw [Finset.sum_empty, Finset.sum_empty, zero_mul]
  | insert x t hx ih =>
    rw [Finset.sum_insert hx, Finset.sum_insert hx, ih,
      EReal.right_distrib_of_nonneg_of_ne_top (EReal.coe_nonneg.mpr hr0) (EReal.coe_ne_top r)]

/-- The two programs agree at every node, for arbitrary extended-real features `a` and bias `β`:
    the node factor is a nonnegative real, so it distributes over the accumulated sum. -/
theorem outR_eq_outK (rsq : EReal → EReal)
    (hr : ∀ k : ℕ, ∃ r : ℝ, 0 ≤ r ∧ rsq ((((k : ℝ)) : EReal) + 1) = (r : EReal))
    (c : Fin E → ℤ) (s g : Fin E → Fin N) (a : Fin N → EReal) (β : EReal)
    (hg : ∀ e (i : Fin N), c e = (i.val : ℤ) → g e = i) (i : Fin N) :
    outR rsq c s g a β i = outK rsq c s a β i := by
  obtain ⟨r, hr0, hd⟩ := dK_real rsq hr c i
  have hself : (∑ n : Fin N, if (n.val : ℤ) = (i.val : ℤ) then a n * (dR rsq c n * dR rsq c n) else 0)
      = a i * (dR rsq c i * dR rsq c i) :=
    sum_self (fun n => a n * (dR rsq c n * dR rsq c n)) i
  have hedge : (∑ e : Fin E, if c e = (i.val : ℤ) then a (s e) * (dR rsq c (s e) * dR rsq c (g e)) else 0)
      = (∑ e : Fin E, if c e = (i.val : ℤ) then a (s e) * dK rsq c (s e) else 0) * (r : EReal) := by
    rw [← sum_mul_real _ _ r hr0]
    refine Finset.sum_congr rfl (fun e _ => ?_)
    by_cases h : c e = (i.val : ℤ)
    · rw [if_pos h, if_pos h, hg e i h, dR_eq_dK, dR_eq_dK, hd, mul_assoc]
    · rw [if_neg h, if_neg h, zero_mul]
  unfold outR outK
  rw [hself, hedge, dR_eq_dK, hd, zero_add, zero_add,
    EReal.right_distrib_of_nonneg_of_ne_top (EReal.coe_nonneg.mpr hr0) (EReal.coe_ne_top r), mul_assoc]

end Cert.GcnAlgebra

end
-- ==== Proof.Scale.lean ====
/-
  Symmetric normalisation of a graph convolution, factored per node.

  Message e reads the feature row of its source node s(e) (a word clamped into the rows) and is added into the row of its
  target node (a word read signed; a message whose word names no row is dropped).  With a nonnegative real factor d(n)
  per node, the normalised aggregate of a feature matrix H at (n, k),
      0 + ∑ e into n,  H (s e, k) · (d (s e) · d (t e)),        t e the target word wrapped and clamped,
  is what one gets by scaling the rows of H by d BEFORE the messages are gathered, adding the gathered rows up with
  no weights, and scaling row n of the total by d(n) afterwards:
      (0 + ∑ e into n,  (H (s e, k) · d (s e))) · d n.
  The outer factor is a nonnegative real number, so it distributes over the sum of extended reals whatever the features
  are; inside the sum only associativity is used, and t e = n for every message that lands on n.

  Also: the reciprocal square root of an extended real raised to at least one is a nonnegative real number.
-/
import proofs.«107841_j72722386256530_2_alg».proof.Proof.LibAggregate
import proofs.«107841_j72722386256530_2_alg».proof.Proof.LibGcnAlgebra
import Idealize.ShloMosaic.Lib.IdealHost

noncomputable section

open scoped BigOperators

namespace Cert.Scale

open Idealize.ShloMosaic Idealize.ShloMosaic.ValueIdx Cert.Edges Cert.Aggregate

variable {N C E : ℕ}

/-- Every row of a matrix multiplied by that row's entry of a one-column matrix. -/
def scale (H : (⟨2, ![N, C]⟩ : Shape).Idx → EReal) (d : (⟨2, ![N, 1]⟩ : Shape).Idx → EReal) :
    (⟨2, ![N, C]⟩ : Shape).Idx → EReal :=
  fun i => H i * d (ix2 (i 0 : Fin N) (0 : Fin 1))

theorem scale_apply (H : (⟨2, ![N, C]⟩ : Shape).Idx → EReal) (d : (⟨2, ![N, 1]⟩ : Shape).Idx → EReal) (n : Fin N) (k : Fin C) :
    scale H d (ix2 n k) = H (ix2 n k) * d (ix2 n 0) := rfl

/-- The aggregate with no weights: at (n, k), zero plus the sum over the messages into n of u (source, k). -/
def gsum (hN : 0 < N) (u : (⟨2, ![N, C]⟩ : Shape).Idx → EReal) (rowc colc : IVec ⟨2, ![E, 1]⟩ 32) :
    (⟨2, ![N, C]⟩ : Shape).Idx → EReal :=
  fun i => Ideal.ofBits .f32 0x00000000#32 + ∑ e : Fin E, if (colc (ix2 e 0)).toInt = (((i 0 : Fin N)).val : ℤ)
    then u (ix2 (clampRow N hN (rowc (ix2 e 0))) (i 1 : Fin C)) else 0

/-- The programs' spelling of it: rows gathered and scatter-added into zeros. -/
theorem gsum_spelled (hN : 0 < N)
    (gd : GatherDims ⟨2, ![N, C]⟩ ⟨2, ![E, 1]⟩ ⟨2, ![E, C]⟩)
    (wfg : GatherDims.WF ⟨2, ![N, C]⟩ ⟨2, ![E, 1]⟩ ⟨2, ![E, C]⟩ [1] [0] [] [0] [] 1 ![1, C]) (hgd : gd = rowsGather N C E wfg)
    (sd : ScatterDims ⟨2, ![N, C]⟩ ⟨2, ![E, 1]⟩ ⟨2, ![E, C]⟩)
    (wfs : ScatterDims.WF ⟨2, ![N, C]⟩ ⟨2, ![E, 1]⟩ ⟨2, ![E, C]⟩ [1] [0] [0] 1) (hsd : sd = rowsScatter N C E wfs)
    (d0 : Fin 0 → Fin 2) (h0 : Shape.BroadcastsInDim ⟨0, ![]⟩ ⟨2, ![N, C]⟩ d0)
    (u : FVec Ideal ⟨2, ![N, C]⟩ .f32) (rowc colc : IVec ⟨2, ![E, 1]⟩ 32) :
    Host.scatterAdd (F := Ideal) sd (broadcastInDim ⟨2, ![N, C]⟩ d0 h0 (constant (F := Ideal) ⟨0, ![]⟩ .f32 0x00000000#32)) colc
        (Host.gather gd u rowc)
      = gsum hN u rowc colc := by
  funext i
  obtain ⟨n, k, rfl⟩ : ∃ (n : Fin N) (k : Fin C), i = ix2 n k := ⟨i 0, i 1, eq_ix2 i⟩
  subst hgd hsd
  rw [rowsScatterAdd_apply]
  refine congrArg₂ (· + ·) (broadcastInDim_apply d0 h0 _ (ix2 n k) ix0 (fun a => a.elim0))
    (Finset.sum_congr rfl fun e _ => ?_)
  rw [rowsGather_apply hN wfg u rowc e k]
  rfl

/-- Scaling before the gather and after the sum is the aggregate weighted by both end factors. -/
theorem scale_gsum_scale (hN : 0 < N) (H : (⟨2, ![N, C]⟩ : Shape).Idx → EReal)
    (dv : (⟨1, ![N]⟩ : Shape).Idx → EReal) (dcol : (⟨2, ![N, 1]⟩ : Shape).Idx → EReal)
    (hdcol : ∀ n : Fin N, dcol (ix2 n 0) = dv (ix1 n))
    (hd : ∀ n : Fin N, ∃ r : ℝ, 0 ≤ r ∧ dv (ix1 n) = (r : EReal))
    (rowc colc colw : IVec ⟨2, ![E, 1]⟩ 32)
    (hland : ∀ (e : Fin E) (n : Fin N), (colc (ix2 e 0)).toInt = (n.val : ℤ) → clampRow N hN (colw (ix2 e 0)) = n)
    (nrm : (⟨1, ![E]⟩ : Shape).Idx → EReal)
    (hnrm : ∀ e : Fin E, nrm (ix1 e)
      = dv (ix1 (clampRow N hN (rowc (ix2 e 0)))) * dv (ix1 (clampRow N hN (colw (ix2 e 0))))) :
    scale (gsum hN (scale H dcol) rowc colc) dcol = agg hN H rowc colc nrm := by
  funext i
  obtain ⟨n, k, rfl⟩ : ∃ (n : Fin N) (k : Fin C), i = ix2 n k := ⟨i 0, i 1, eq_ix2 i⟩
  obtain ⟨r, hr0, hr⟩ := hd n
  show (Ideal.ofBits .f32 0x00000000#32 + ∑ e : Fin E, if (colc (ix2 e 0)).toInt = ((n : Fin N).val : ℤ)
      then scale H dcol (ix2 (clampRow N hN (rowc (ix2 e 0))) k) else 0) * dcol (ix2 n 0)
    = Ideal.ofBits .f32 0x00000000#32 + ∑ e : Fin E, if (colc (ix2 e 0)).toInt = ((n : Fin N).val : ℤ)
      then H (ix2 (clampRow N hN (rowc (ix2 e 0))) k) * nrm (ix1 e) else 0
  rw [Ideal.ofBits_zero_f32, zero_add, zero_add, hdcol n, hr, ← Cert.GcnAlgebra.sum_mul_real _ _ r hr0]
  refine Finset.sum_congr rfl fun e _ => ?_
  by_cases h : (colc (ix2 e 0)).toInt = ((n : Fin N).val : ℤ)
  · rw [if_pos h, if_pos h, scale_apply, hdcol, hnrm e, hland e n h, hr, mul_assoc]
  · rw [if_neg h, if_neg h, zero_mul]

/-- The reciprocal square root of an extended real raised to at least one is a nonnegative real number. -/
theorem rsqrt_max_one (x : EReal) : ∃ r : ℝ, 0 ≤ r ∧ Ideal.rsqrt (max x 1) = (r : EReal) := by
  have h : (0 : EReal) < max x 1 := lt_of_lt_of_le zero_lt_one (le_max_right _ _)
  generalize max x 1 = y at h
  induction y using EReal.rec with
  | bot => exact absurd h (by simp)
  | top => exact ⟨0, le_rfl, by rw [EReal.coe_zero]; rfl⟩
  | coe s =>
    have hs : 0 < s := by exact_mod_cast h
    rw [Ideal.rsqrt_coe, if_neg (not_lt.mpr hs.le), if_neg hs.ne']
    exact ⟨_, inv_nonneg.mpr (Real.sqrt_nonneg s), rfl⟩

end Cert.Scale

end
-- ==== Proof.Net.lean ====
/-
  The pieces of the network that both programs share, as functions on the extended reals.

  `row v` is a vector laid out as a one-row matrix.  The read-out head maps pooled features z to
      (max (z · W1 + b1, 0)) · W2 + b2,
  a product, a bias row with the maximum against zero, a second product and a second bias row.
-/
import proofs.«107841_j72722386256530_2_alg».proof.Proof.Scale
import proofs.«107841_j72722386256530_2_alg».proof.Proof.LibRowBlocks

noncomputable section

namespace Cert.Net

open Idealize.ShloMosaic Idealize.ShloMosaic.ValueIdx Cert.Dense

/-- A vector laid out as a one-row matrix. -/
def row {M : ℕ} (v : (⟨1, ![M]⟩ : Shape).Idx → EReal) : (⟨2, ![1, M]⟩ : Shape).Idx → EReal :=
  fun i => v (ix1 (i 1 : Fin M))

theorem row_apply {M : ℕ} (v : (⟨1, ![M]⟩ : Shape).Idx → EReal) (r : Fin 1) (j : Fin M) : row v (ix2 r j) = v (ix1 j) := rfl

/-- The read-out head: (max (z · W1 + b1, 0)) · W2 + b2. -/
def head {B D H O : ℕ} (z : (⟨2, ![B, D]⟩ : Shape).Idx → EReal) (W1 : (⟨2, ![D, H]⟩ : Shape).Idx → EReal)
    (b1 : (⟨1, ![H]⟩ : Shape).Idx → EReal) (W2 : (⟨2, ![H, O]⟩ : Shape).Idx → EReal)
    (b2 : (⟨1, ![O]⟩ : Shape).Idx → EReal) : (⟨2, ![B, O]⟩ : Shape).Idx → EReal :=
  shift (prod (act (prod z W1) (row b1)) W2) (row b2)

/-- One layer in the reference's order: the normalised aggregate of the product, a bias row, the maximum with zero. -/
def layer {N K M E : ℕ} (hN : 0 < N) (h : (⟨2, ![N, K]⟩ : Shape).Idx → EReal) (W : (⟨2, ![K, M]⟩ : Shape).Idx → EReal)
    (b : (⟨1, ![M]⟩ : Shape).Idx → EReal) (rowc colc : IVec ⟨2, ![E, 1]⟩ 32) (nrm : (⟨1, ![E]⟩ : Shape).Idx → EReal) :
    (⟨2, ![N, M]⟩ : Shape).Idx → EReal :=
  act (Cert.Aggregate.agg hN (prod h W) rowc colc nrm) (row b)

end Cert.Net

end
-- ==== Proof.Payloads.lean ====
/-
  What each kernel body computes from the blocks it loads, as one function on the extended reals.

  Layer 1's body: the product of the feature block with the weights, every row scaled by the node's factor.
  The body of layers 2 and 3: the incoming block scaled by the node's factor, a bias row, the maximum with zero,
  the product with the weights, every row scaled by the node's factor again.
  The read-out body: a product, a bias row with the maximum against zero, a second product and a bias row.
  A change of float format is the identity on the extended reals, and a re-cast to the same shape is the identity.
-/
import proofs.«107841_j72722386256530_2_alg».proof.Proof.Gen.KernelIdeal.Skeleton
import proofs.«107841_j72722386256530_2_alg».proof.Proof.LibRowBlocks
import proofs.«107841_j72722386256530_2_alg».proof.Proof.LibColumns
import proofs.«107841_j72722386256530_2_alg».proof.Proof.Net

noncomputable section

namespace Cert.KernelIdeal.Pay

open Idealize.ShloMosaic Idealize.ShloMosaic.ValueIdx Cert.KernelIdeal Cert.KernelIdeal.Gen
open Cert.Dense Cert.RowBlocks Cert.Scale Cert.Net

/-- The matrix-unit product of a 2000-row block with 128 × 128 weights into zeros is the matrix product. -/
theorem mm_block {φ₁ φ₂ : FTy} (l : FVec Ideal S2000x128 φ₁) (r : FVec Ideal S128x128 φ₂) :
    matmul dot_S2000x128_S128x128_S2000x128_1_0_0_1_n_n none l r (constant S2000x128 .f32 0x00000000#32) = prod l r :=
  matmul_zero_eq_prod dot_S2000x128_S128x128_S2000x128_1_0_0_1_n_n rfl rfl
    (fun i q => by
      unfold DotDims.lhsIdx
      rw [dif_neg (show ¬(0 : Fin S2000x128.rank) ∈ dot_S2000x128_S128x128_S2000x128_1_0_0_1_n_n.lhsBatch by decide),
        dif_pos (show (0 : Fin S2000x128.rank) ∈ dot_S2000x128_S128x128_S2000x128_1_0_0_1_n_n.lhsNonContracting by decide)]
      rfl)
    (fun i q => dot_S2000x128_S128x128_S2000x128_1_0_0_1_n_n.lhsIdx_val_of_single rfl i q)
    (fun i q => dot_S2000x128_S128x128_S2000x128_1_0_0_1_n_n.rhsIdx_val_of_single rfl i q)
    (fun i q => by
      unfold DotDims.rhsIdx
      rw [dif_neg (show ¬(1 : Fin S128x128.rank) ∈ dot_S2000x128_S128x128_S2000x128_1_0_0_1_n_n.rhsBatch by decide),
        dif_pos (show (1 : Fin S128x128.rank) ∈ dot_S2000x128_S128x128_S2000x128_1_0_0_1_n_n.rhsNonContracting by decide)]
      rfl)
    none l r

/-- The read-out's first product: 512 × 155 pooled features with 155 × 128 weights. -/
theorem mm_head1 {φ₁ φ₂ : FTy} (l : FVec Ideal S512x155 φ₁) (r : FVec Ideal S155x128 φ₂) :
    matmul dot_S512x155_S155x128_S512x128_1_0_0_1_n_n none l r (constant S512x128 .f32 0x00000000#32) = prod l r :=
  matmul_zero_eq_prod dot_S512x155_S155x128_S512x128_1_0_0_1_n_n rfl rfl
    (fun i q => by
      unfold DotDims.lhsIdx
      rw [dif_neg (show ¬(0 : Fin S512x155.rank) ∈ dot_S512x155_S155x128_S512x128_1_0_0_1_n_n.lhsBatch by decide),
        dif_pos (show (0 : Fin S512x155.rank) ∈ dot_S512x155_S155x128_S512x128_1_0_0_1_n_n.lhsNonContracting by decide)]
      rfl)
    (fun i q => dot_S512x155_S155x128_S512x128_1_0_0_1_n_n.lhsIdx_val_of_single rfl i q)
    (fun i q => dot_S512x155_S155x128_S512x128_1_0_0_1_n_n.rhsIdx_val_of_single rfl i q)
    (fun i q => by
      unfold DotDims.rhsIdx
      rw [dif_neg (show ¬(1 : Fin S155x128.rank) ∈ dot_S512x155_S155x128_S512x128_1_0_0_1_n_n.rhsBatch by decide),
        dif_pos (show (1 : Fin S155x128.rank) ∈ dot_S512x155_S155x128_S512x128_1_0_0_1_n_n.rhsNonContracting by decide)]
      rfl)
    none l r

/-- The read-out's second product: 512 × 128 hidden features with a 128 × 1 weight column. -/
theorem mm_head2 {φ₁ φ₂ : FTy} (l : FVec Ideal S512x128 φ₁) (r : FVec Ideal S128x1 φ₂) :
    matmul dot_S512x128_S128x1_S512x1_1_0_0_1_n_n none l r (constant S512x1 .f32 0x00000000#32) = prod l r :=
  matmul_zero_eq_prod dot_S512x128_S128x1_S512x1_1_0_0_1_n_n rfl rfl
    (fun i q => by
      unfold DotDims.lhsIdx
      rw [dif_neg (show ¬(0 : Fin S512x128.rank) ∈ dot_S512x128_S128x1_S512x1_1_0_0_1_n_n.lhsBatch by decide),
        dif_pos (show (0 : Fin S512x128.rank) ∈ dot_S512x128_S128x1_S512x1_1_0_0_1_n_n.lhsNonContracting by decide)]
      rfl)
    (fun i q => dot_S512x128_S128x1_S512x1_1_0_0_1_n_n.lhsIdx_val_of_single rfl i q)
    (fun i q => dot_S512x128_S128x1_S512x1_1_0_0_1_n_n.rhsIdx_val_of_single rfl i q)
    (fun i q => by
      unfold DotDims.rhsIdx
      rw [dif_neg (show ¬(1 : Fin S128x1.rank) ∈ dot_S512x128_S128x1_S512x1_1_0_0_1_n_n.rhsBatch by decide),
        dif_pos (show (1 : Fin S128x1.rank) ∈ dot_S512x128_S128x1_S512x1_1_0_0_1_n_n.rhsNonContracting by decide)]
      rfl)
    none l r

/-- A block times the node factors spread over its columns is the block with its rows scaled. -/
theorem mul_spread (x : FVec Ideal S2000x128 .f32) (d : FVec Ideal S2000x1 .f32) :
    mulf x (broadcastTo S2000x128 (shapeCast S2000x1 d shapeCasts_S2000x1_S2000x1) broadcasts_S2000x1_S2000x128) = scale x d := by
  funext i
  obtain ⟨p, j, rfl⟩ : ∃ (p : Fin 2000) (j : Fin 128), i = ix2 p j := ⟨i 0, i 1, eq_ix2 i⟩
  rw [mulf_apply, shapeCast_self, Cert.LibColumns.broadcastTo_col]
  rfl

/-- Layer 1's body: (x · W) with row p scaled by d p. -/
theorem pay0 (v0 : FVec Ideal S2000x128 .bf16) (v2 : FVec Ideal S128x128 .bf16) (v5 : FVec Ideal S2000x1 .f32) :
    k0_pay1 (F := Ideal) v0 v2 v5 = scale (prod v0 v2) v5 := by
  unfold k0_pay1
  show mulf (matmul dot_S2000x128_S128x128_S2000x128_1_0_0_1_n_n none (shapeCast S2000x128 v0 shapeCasts_S2000x128_S2000x128)
      (shapeCast S128x128 v2 shapeCasts_S128x128_S128x128) (constant S2000x128 .f32 0x00000000#32))
      (broadcastTo S2000x128 (shapeCast S2000x1 v5 shapeCasts_S2000x1_S2000x1) broadcasts_S2000x1_S2000x128) = _
  rw [mm_block, mul_spread, shapeCast_self, shapeCast_self]

/-- The body of layers 2 and 3 as one function of its five loads. -/
def stage (s : (⟨2, ![2000, 128]⟩ : Shape).Idx → EReal) (d : (⟨2, ![2000, 1]⟩ : Shape).Idx → EReal)
    (b : (⟨2, ![1, 128]⟩ : Shape).Idx → EReal) (w : (⟨2, ![128, 128]⟩ : Shape).Idx → EReal)
    (d' : (⟨2, ![2000, 1]⟩ : Shape).Idx → EReal) : (⟨2, ![2000, 128]⟩ : Shape).Idx → EReal :=
  scale (prod (act (scale s d) b) w) d'

theorem pay1 (v0 : FVec Ideal S2000x128 .f32) (v2 : FVec Ideal S2000x1 .f32) (v6 : FVec Ideal S1x128 .f32)
    (v13 : FVec Ideal S128x128 .bf16) (v16 : FVec Ideal S2000x1 .f32) :
    k1_pay1 (F := Ideal) v0 v2 v6 v13 v16 = stage v0 v2 v6 v13 v16 := by
  unfold k1_pay1 stage
  show mulf (matmul dot_S2000x128_S128x128_S2000x128_1_0_0_1_n_n none
      (maximumf (addf (mulf (shapeCast S2000x128 v0 shapeCasts_S2000x128_S2000x128)
          (broadcastTo S2000x128 (shapeCast S2000x1 v2 shapeCasts_S2000x1_S2000x1) broadcasts_S2000x1_S2000x128))
        (broadcastTo S2000x128 (shapeCast S1x128 v6 shapeCasts_S1x128_S1x128) broadcasts_S1x128_S2000x128))
        (broadcast S2000x128 (Scalar.ofBits (F := Ideal) .f32 0x00000000#32)))
      (shapeCast S128x128 v13 shapeCasts_S128x128_S128x128) (constant S2000x128 .f32 0x00000000#32))
      (broadcastTo S2000x128 (shapeCast S2000x1 v16 shapeCasts_S2000x1_S2000x1) broadcasts_S2000x1_S2000x128) = _
  rw [mm_block, mul_spread, mul_spread, act_plain, shapeCast_self, shapeCast_self]

theorem pay2 (v0 : FVec Ideal S2000x128 .f32) (v2 : FVec Ideal S2000x1 .f32) (v6 : FVec Ideal S1x128 .f32)
    (v13 : FVec Ideal S128x128 .bf16) (v16 : FVec Ideal S2000x1 .f32) :
    k2_pay1 (F := Ideal) v0 v2 v6 v13 v16 = stage v0 v2 v6 v13 v16 := by
  unfold k2_pay1 stage
  show mulf (matmul dot_S2000x128_S128x128_S2000x128_1_0_0_1_n_n none
      (maximumf (addf (mulf (shapeCast S2000x128 v0 shapeCasts_S2000x128_S2000x128)
          (broadcastTo S2000x128 (shapeCast S2000x1 v2 shapeCasts_S2000x1_S2000x1) broadcasts_S2000x1_S2000x128))
        (broadcastTo S2000x128 (shapeCast S1x128 v6 shapeCasts_S1x128_S1x128) broadcasts_S1x128_S2000x128))
        (broadcast S2000x128 (Scalar.ofBits (F := Ideal) .f32 0x00000000#32)))
      (shapeCast S128x128 v13 shapeCasts_S128x128_S128x128) (constant S2000x128 .f32 0x00000000#32))
      (broadcastTo S2000x128 (shapeCast S2000x1 v16 shapeCasts_S2000x1_S2000x1) broadcasts_S2000x1_S2000x128) = _
  rw [mm_block, mul_spread, mul_spread, act_plain, shapeCast_self, shapeCast_self]

/-- The read-out body: (max (z · W1 + b1, 0)) · W2 + b2 on the loaded blocks. -/
theorem pay3 (v0 : FVec Ideal S512x155 .bf16) (v2 : FVec Ideal S155x128 .bf16) (v5 : FVec Ideal S1x128 .f32)
    (v12 : FVec Ideal S128x1 .bf16) (v15 : FVec Ideal S1x1 .f32) :
    k3_pay1 (F := Ideal) v0 v2 v5 v12 v15 = shift (prod (act (prod v0 v2) v5) v12) v15 := by
  unfold k3_pay1
  show addf (matmul dot_S512x128_S128x1_S512x1_1_0_0_1_n_n none
      (maximumf (addf (matmul dot_S512x155_S155x128_S512x128_1_0_0_1_n_n none (shapeCast S512x155 v0 shapeCasts_S512x155_S512x155)
          (shapeCast S155x128 v2 shapeCasts_S155x128_S155x128) (constant S512x128 .f32 0x00000000#32))
        (broadcastTo S512x128 (shapeCast S1x128 v5 shapeCasts_S1x128_S1x128) broadcasts_S1x128_S512x128))
        (broadcast S512x128 (Scalar.ofBits (F := Ideal) .f32 0x00000000#32)))
      (shapeCast S128x1 v12 shapeCasts_S128x1_S128x1) (constant S512x1 .f32 0x00000000#32))
      (broadcastTo S512x1 (shapeCast S1x1 v15 shapeCasts_S1x1_S1x1) broadcasts_S1x1_S512x1) = _
  rw [mm_head2, mm_head1, act_plain, shift_plain, shapeCast_self, shapeCast_self, shapeCast_self]

end Cert.KernelIdeal.Pay

end
-- ==== Proof.UpBlocks.lean ====
/-
  Blocks of consecutive rows commute with the layer body.

  Row r of the n-th block of R rows is row n·R + r of the whole matrix.  Scaling the rows of a block by the block of the
  factor column is the block of the scaled matrix; and the body of layers 2 and 3 applied to a block of 2000 rows of the
  incoming matrix and of the factor column, the bias row and the weights kept whole, is the block of rows of the body
  applied to the whole matrices.
-/
import proofs.«107841_j72722386256530_2_alg».proof.Proof.Payloads

noncomputable section

namespace Cert.UpBlocks

open Idealize.ShloMosaic Idealize.ShloMosaic.ValueIdx Cert.Dense Cert.RowBlocks Cert.Scale Cert.KernelIdeal.Pay

/-- A block of rows of a row-scaled matrix is the block of rows scaled by the block of the factor column. -/
theorem scale_up {R N M : ℕ} (n : ℕ) (h : n * R + R ≤ N) (H : (⟨2, ![N, M]⟩ : Shape).Idx → EReal)
    (D : (⟨2, ![N, 1]⟩ : Shape).Idx → EReal) :
    scale (fun y => H (up n h y)) (fun y => D (up n h y)) = fun j => scale H D (up n h j) :=
  funext fun j => rfl

/-- The whole-array form of the body of layers 2 and 3. -/
def stageAll {N : ℕ} (S : (⟨2, ![N, 128]⟩ : Shape).Idx → EReal) (D : (⟨2, ![N, 1]⟩ : Shape).Idx → EReal)
    (B : (⟨2, ![1, 128]⟩ : Shape).Idx → EReal) (W : (⟨2, ![128, 128]⟩ : Shape).Idx → EReal) :
    (⟨2, ![N, 128]⟩ : Shape).Idx → EReal :=
  scale (prod (act (scale S D) B) W) D

/-- The body on a block of 2000 rows is the block of rows of the body on the whole matrices. -/
theorem stage_up {N : ℕ} (n : ℕ) (h : n * 2000 + 2000 ≤ N) (S : (⟨2, ![N, 128]⟩ : Shape).Idx → EReal)
    (D : (⟨2, ![N, 1]⟩ : Shape).Idx → EReal) (B : (⟨2, ![1, 128]⟩ : Shape).Idx → EReal)
    (W : (⟨2, ![128, 128]⟩ : Shape).Idx → EReal) :
    stage (fun y => S (up n h y)) (fun y => D (up n h y)) B W (fun y => D (up n h y))
      = fun j => stageAll S D B W (up n h j) := by
  unfold stage stageAll
  rw [scale_up, act_up, prod_up, scale_up]

/-- The same for layer 1's body. -/
theorem first_up {N : ℕ} (n : ℕ) (h : n * 2000 + 2000 ≤ N) (X : (⟨2, ![N, 128]⟩ : Shape).Idx → EReal)
    (W : (⟨2, ![128, 128]⟩ : Shape).Idx → EReal) (D : (⟨2, ![N, 1]⟩ : Shape).Idx → EReal) :
    scale (prod (fun y => X (up n h y)) W) (fun y => D (up n h y)) = fun j => scale (prod X W) D (up n h j) := by
  rw [prod_up, scale_up]

end Cert.UpBlocks

end
-- ==== Proof.Blocks0.lean ====
/-
  Layer 1's region, from blocks to the whole array.

  The grid has 25 points; point t takes rows 2000·t … 2000·t + 1999 of the features and of the node factors, the whole
  weight matrix, and writes rows 2000·t … 2000·t + 1999 of the output.  A block of rows of (X · W) with its rows scaled is the
  same rows of the whole scaled product, and the 25 blocks tile the 50000 rows, so the output array ends holding
  (X · W) with row n scaled by the factor of node n.
-/
import proofs.«107841_j72722386256530_2_alg».proof.Proof.Gen.KernelIdeal.Frame
import proofs.«107841_j72722386256530_2_alg».proof.Proof.Payloads
import proofs.«107841_j72722386256530_2_alg».proof.Proof.UpBlocks
set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Pay Cert.Dense Cert.Scale Cert.Net Cert.RowBlocks Cert.UpBlocks

variable (V : (c : Dev nD) → (b : Ref sig .tc) → Buf (Elt Ideal) ((c : Thread nD τ).loc b))

theorem hz : (![0, 0] : Fin 2 → Nat) = fun _ => 0 := funext fun a => by fin_cases a <;> rfl

/-- Where point t's blocks sit: the row blocks are block t (rows 2000·t onwards); the whole operands stay. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0 :=
  (by decide +kernel : ∀ t : Fin grid0.N, _)

theorem rows_le0 (t : Fin cfg0.N) : t.val * 2000 + 2000 ≤ 50000 := by
  have : t.val < 25 := t.isLt
  omega

/-- What point t writes back is block t of the body applied to the whole arrays. -/
theorem flushed0_eq (c : Dev nD) (t : Fin cfg0.N) :
    (dat0 V c).flushed 3 t = ((cfg0.win 3).blk t).view.read (Elt Ideal)
      (scale (prod (V c main_v15) (V c main_v16)) (V c main_v14)) := by
  have ht := rows_le0 t
  obtain ⟨e0, e1, e2, e3, e4, e5, e6, e7⟩ := idx_facts0 t
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S2000x1) hz]
  rw [pay0]
  have h0 : iblk0 V c 0 t = fun y => V c main_v15 (up t.val ht y) := funext fun y => congrArg (V c main_v15) (by
    funext a; apply Fin.ext
    match a with
    | ⟨0, _⟩ => show win0_0.index t (0 : Fin 2) * 2000 + 1 * (y 0).val = t.val * 2000 + (y 0).val; omega
    | ⟨1, _⟩ => show win0_0.index t (1 : Fin 2) * 128 + 1 * (y 1).val = (y 1).val; omega)
  have h1 : iblk0 V c 1 t = V c main_v16 := funext fun y => congrArg (V c main_v16) (by
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega)
  have h2 : iblk0 V c 2 t = fun y => V c main_v14 (up t.val ht y) := funext fun y => congrArg (V c main_v14) (by
    funext a; apply Fin.ext
    match a with
    | ⟨0, _⟩ => show win0_2.index t (0 : Fin 2) * 2000 + 1 * (y 0).val = t.val * 2000 + (y 0).val; omega
    | ⟨1, _⟩ => show win0_2.index t (1 : Fin 2) * 1 + 1 * (y 1).val = (y 1).val; omega)
  rw [h0, h1, h2, first_up]
  funext j
  show (scale (prod (V c main_v15) (V c main_v16)) (V c main_v14)) (up t.val ht j) = (scale (prod (V c main_v15) (V c main_v16)) (V c main_v14)) (((cfg0.win 3).blk t).view.emb j)
  refine congrArg _ ?_
  funext a; apply Fin.ext
  match a with
  | ⟨0, _⟩ => show t.val * 2000 + (j 0).val = win0_3.index t (0 : Fin 2) * 2000 + 1 * (j 0).val; omega
  | ⟨1, _⟩ => show (j 1).val = win0_3.index t (1 : Fin 2) * 128 + 1 * (j 1).val; omega

/-- An index is in point t's output block iff each coordinate is in the block's range. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v17).slice (win0_3.rect t)).set ↔ _
  rw [View.set_slice_whole, Rect.mem_set_unit]
  exact Iff.rfl

/-- The 25 blocks of 2000 rows tile the 50000 rows. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hq : (i 0).val / 2000 < 25 := by omega
  refine ⟨⟨(i 0).val / 2000, hq⟩, flush0_3 _, ?_⟩
  rw [mem_blk0]
  obtain ⟨e0, e1, e2, e3, e4, e5, e6, e7⟩ := idx_facts0 ⟨(i 0).val / 2000, hq⟩
  intro a
  match a with
  | ⟨0, _⟩ =>
    show win0_3.index _ (0 : Fin 2) * 2000 ≤ (i 0).val ∧ (i 0).val < win0_3.index _ (0 : Fin 2) * 2000 + 2000
    rw [e6]
    show (i 0).val / 2000 * 2000 ≤ (i 0).val ∧ (i 0).val < (i 0).val / 2000 * 2000 + 2000
    omega
  | ⟨1, _⟩ =>
    show win0_3.index _ (1 : Fin 2) * 128 ≤ (i 1).val ∧ (i 1).val < win0_3.index _ (1 : Fin 2) * 128 + 128
    rw [e7]
    omega

/-- Layer 1's output array after the region: (X · W) with row n scaled by the factor of node n. -/
theorem arr0 (c : Dev nD) : (dat0 V c).arrAt 3 cfg0.N = scale (prod (V c main_v15) (V c main_v16)) (V c main_v14) :=
  (dat0 V c).arrAt_eq_of_cover 3 _ (fun t _ => flushed0_eq V c t) cover0

end Cert.KernelIdeal.Blocks

end
-- ==== Proof.Blocks1.lean ====
/-
  Layer 2's region, from blocks to the whole array.

  Point t of 25 takes rows 2000·t … 2000·t + 1999 of the incoming sums and of the node factors, the bias row and the weights
  whole, and writes the same rows of the output.  The body commutes with taking a block of rows, and the blocks tile
  the 50000 rows, so the output array ends holding the body applied to the whole arrays.
-/
import proofs.«107841_j72722386256530_2_alg».proof.Proof.Gen.KernelIdeal.Frame
import proofs.«107841_j72722386256530_2_alg».proof.Proof.Payloads
import proofs.«107841_j72722386256530_2_alg».proof.Proof.UpBlocks
import proofs.«107841_j72722386256530_2_alg».proof.Proof.Blocks0
set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Pay Cert.Dense Cert.Scale Cert.Net Cert.RowBlocks Cert.UpBlocks

variable (V : (c : Dev nD) → (b : Ref sig .tc) → Buf (Elt Ideal) ((c : Thread nD τ).loc b))

/-- Where point t's blocks sit: the row blocks are block t (rows 2000·t onwards); the whole operands stay. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0
    ∧ win1_4.index t (0 : Fin 2) = t.val
    ∧ win1_4.index t (1 : Fin 2) = 0 :=
  (by decide +kernel : ∀ t : Fin grid1.N, _)

theorem rows_le1 (t : Fin cfg1.N) : t.val * 2000 + 2000 ≤ 50000 := by
  have : t.val < 25 := t.isLt
  omega

/-- What point t writes back is block t of the body applied to the whole arrays. -/
theorem flushed1_eq (c : Dev nD) (t : Fin cfg1.N) :
    (dat1 V c).flushed 4 t = ((cfg1.win 4).blk t).view.read (Elt Ideal)
      (stageAll (V c main_v28) (V c main_v14) (V c main_v30) (V c main_v29)) := by
  have ht := rows_le1 t
  obtain ⟨e0, e1, e2, e3, e4, e5, e6, e7, e8, e9⟩ := idx_facts1 t
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz, View.ld_unit_zero (S := S128x128) hz]
  rw [pay1]
  have h0 : iblk1 V c 0 t = fun y => V c main_v28 (up t.val ht y) := funext fun y => congrArg (V c main_v28) (by
    funext a; apply Fin.ext
    match a with
    | ⟨0, _⟩ => show win1_0.index t (0 : Fin 2) * 2000 + 1 * (y 0).val = t.val * 2000 + (y 0).val; omega
    | ⟨1, _⟩ => show win1_0.index t (1 : Fin 2) * 128 + 1 * (y 1).val = (y 1).val; omega)
  have h1 : iblk1 V c 1 t = V c main_v30 := funext fun y => congrArg (V c main_v30) (by
    funext a; apply Fin.ext
    match a with
    | ⟨0, _⟩ => show win1_1.index t (0 : Fin 2) * 1 + 1 * (y 0).val = (y 0).val; omega
    | ⟨1, _⟩ => show win1_1.index t (1 : Fin 2) * 128 + 1 * (y 1).val = (y 1).val; omega)
  have h2 : iblk1 V c 2 t = V c main_v29 := funext fun y => congrArg (V c main_v29) (by
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega)
  have h3 : iblk1 V c 3 t = fun y => V c main_v14 (up t.val ht y) := funext fun y => congrArg (V c main_v14) (by
    funext a; apply Fin.ext
    match a with
    | ⟨0, _⟩ => show win1_3.index t (0 : Fin 2) * 2000 + 1 * (y 0).val = t.val * 2000 + (y 0).val; omega
    | ⟨1, _⟩ => show win1_3.index t (1 : Fin 2) * 1 + 1 * (y 1).val = (y 1).val; omega)
  rw [h0, h1, h2, h3, stage_up]
  funext j
  show (stageAll (V c main_v28) (V c main_v14) (V c main_v30) (V c main_v29)) (up t.val ht j) = (stageAll (V c main_v28) (V c main_v14) (V c main_v30) (V c main_v29)) (((cfg1.win 4).blk t).view.emb j)
  refine congrArg _ ?_
  funext a; apply Fin.ext
  match a with
  | ⟨0, _⟩ => show t.val * 2000 + (j 0).val = win1_4.index t (0 : Fin 2) * 2000 + 1 * (j 0).val; omega
  | ⟨1, _⟩ => show (j 1).val = win1_4.index t (1 : Fin 2) * 128 + 1 * (j 1).val; omega

/-- An index is in point t's output block iff each coordinate is in the block's range. -/
theorem mem_blk1 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v31).slice (win1_4.rect t)).set ↔ _
  rw [View.set_slice_whole, Rect.mem_set_unit]
  exact Iff.rfl

/-- The 25 blocks of 2000 rows tile the 50000 rows. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hq : (i 0).val / 2000 < 25 := by omega
  refine ⟨⟨(i 0).val / 2000, hq⟩, flush1_4 _, ?_⟩
  rw [mem_blk1]
  obtain ⟨e0, e1, e2, e3, e4, e5, e6, e7, e8, e9⟩ := idx_facts1 ⟨(i 0).val / 2000, hq⟩
  intro a
  match a with
  | ⟨0, _⟩ =>
    show win1_4.index _ (0 : Fin 2) * 2000 ≤ (i 0).val ∧ (i 0).val < win1_4.index _ (0 : Fin 2) * 2000 + 2000
    rw [e8]
    show (i 0).val / 2000 * 2000 ≤ (i 0).val ∧ (i 0).val < (i 0).val / 2000 * 2000 + 2000
    omega
  | ⟨1, _⟩ =>
    show win1_4.index _ (1 : Fin 2) * 128 ≤ (i 1).val ∧ (i 1).val < win1_4.index _ (1 : Fin 2) * 128 + 128
    rw [e9]
    omega

/-- Layer 2's output array after the region. -/
theorem arr1 (c : Dev nD) : (dat1 V c).arrAt 4 cfg1.N = stageAll (V c main_v28) (V c main_v14) (V c main_v30) (V c main_v29) :=
  (dat1 V c).arrAt_eq_of_cover 4 _ (fun t _ => flushed1_eq V c t) cover1

end Cert.KernelIdeal.Blocks

end
-- ==== Proof.Blocks2.lean ====
/-
  Layer 3's region, from blocks to the whole array: as for layer 2, on its own arrays.
-/
import proofs.«107841_j72722386256530_2_alg».proof.Proof.Gen.KernelIdeal.Frame
import proofs.«107841_j72722386256530_2_alg».proof.Proof.Payloads
import proofs.«107841_j72722386256530_2_alg».proof.Proof.UpBlocks
import proofs.«107841_j72722386256530_2_alg».proof.Proof.Blocks0
set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Pay Cert.Dense Cert.Scale Cert.Net Cert.RowBlocks Cert.UpBlocks

variable (V : (c : Dev nD) → (b : Ref sig .tc) → Buf (Elt Ideal) ((c : Thread nD τ).loc b))

/-- Where point t's blocks sit: the row blocks are block t (rows 2000·t onwards); the whole operands stay. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0
    ∧ win2_4.index t (0 : Fin 2) = t.val
    ∧ win2_4.index t (1 : Fin 2) = 0 :=
  (by decide +kernel : ∀ t : Fin grid2.N, _)

theorem rows_le2 (t : Fin cfg2.N) : t.val * 2000 + 2000 ≤ 50000 := by
  have : t.val < 25 := t.isLt
  omega

/-- What point t writes back is block t of the body applied to the whole arrays. -/
theorem flushed2_eq (c : Dev nD) (t : Fin cfg2.N) :
    (dat2 V c).flushed 4 t = ((cfg2.win 4).blk t).view.read (Elt Ideal)
      (stageAll (V c main_v42) (V c main_v14) (V c main_v44) (V c main_v43)) := by
  have ht := rows_le2 t
  obtain ⟨e0, e1, e2, e3, e4, e5, e6, e7, e8, e9⟩ := idx_facts2 t
  show (cfg2.win 4).cut (grid2.coords t) ((dat2 V c).after 4 t) = _
  rw [after2_4]
  unfold out2_4
  rw [View.canon_unit_zero hz]
  simp only [View.ld_unit_zero (S := S2000x128) hz, View.ld_unit_zero (S := S2000x1) hz, View.ld_unit_zero (S := S1x128) hz, View.ld_unit_zero (S := S128x128) hz]
  rw [pay2]
  have h0 : iblk2 V c 0 t = fun y => V c main_v42 (up t.val ht y) := funext fun y => congrArg (V c main_v42) (by
    funext a; apply Fin.ext
    match a with
    | ⟨0, _⟩ => show win2_0.index t (0 : Fin 2) * 2000 + 1 * (y 0).val = t.val * 2000 + (y 0).val; omega
    | ⟨1, _⟩ => show win2_0.index t (1 : Fin 2) * 128 + 1 * (y 1).val = (y 1).val; omega)
  have h1 : iblk2 V c 1 t = V c main_v44 := funext fun y => congrArg (V c main_v44) (by
    funext a; apply Fin.ext
    match a with
    | ⟨0, _⟩ => show win2_1.index t (0 : Fin 2) * 1 + 1 * (y 0).val = (y 0).val; omega
    | ⟨1, _⟩ => show win2_1.index t (1 : Fin 2) * 128 + 1 * (y 1).val = (y 1).val; omega)
  have h2 : iblk2 V c 2 t = V c main_v43 := funext fun y => congrArg (V c main_v43) (by
    funext a; apply Fin.ext
    match a with
    | ⟨0, _⟩ => show win2_2.index t (0 : Fin 2) * 128 + 1 * (y 0).val = (y 0).val; omega
    | ⟨1, _⟩ => show win2_2.index t (1 : Fin 2) * 128 + 1 * (y 1).val = (y 1).val; omega)
  have h3 : iblk2 V c 3 t = fun y => V c main_v14 (up t.val ht y) := funext fun y => congrArg (V c main_v14) (by
    funext a; apply Fin.ext
    match a with
    | ⟨0, _⟩ => show win2_3.index t (0 : Fin 2) * 2000 + 1 * (y 0).val = t.val * 2000 + (y 0).val; omega
    | ⟨1, _⟩ => show win2_3.index t (1 : Fin 2) * 1 + 1 * (y 1).val = (y 1).val; omega)
  rw [h0, h1, h2, h3, stage_up]
  funext j
  show (stageAll (V c main_v42) (V c main_v14) (V c main_v44) (V c main_v43)) (up t.val ht j) = (stageAll (V c main_v42) (V c main_v14) (V c main_v44) (V c main_v43)) (((cfg2.win 4).blk t).view.emb j)
  refine congrArg _ ?_
  funext a; apply Fin.ext
  match a with
  | ⟨0, _⟩ => show t.val * 2000 + (j 0).val = win2_4.index t (0 : Fin 2) * 2000 + 1 * (j 0).val; omega
  | ⟨1, _⟩ => show (j 1).val = win2_4.index t (1 : Fin 2) * 128 + 1 * (j 1).val; omega

/-- An index is in point t's output block iff each coordinate is in the block's range. -/
theorem mem_blk2 (t : Fin cfg2.N) (i : S50000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v45).slice (win2_4.rect t)).set ↔ _
  rw [View.set_slice_whole, Rect.mem_set_unit]
  exact Iff.rfl

/-- The 25 blocks of 2000 rows tile the 50000 rows. -/
theorem cover2 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hq : (i 0).val / 2000 < 25 := by omega
  refine ⟨⟨(i 0).val / 2000, hq⟩, flush2_4 _, ?_⟩
  rw [mem_blk2]
  obtain ⟨e0, e1, e2, e3, e4, e5, e6, e7, e8, e9⟩ := idx_facts2 ⟨(i 0).val / 2000, hq⟩
  intro a
  match a with
  | ⟨0, _⟩ =>
    show win2_4.index _ (0 : Fin 2) * 2000 ≤ (i 0).val ∧ (i 0).val < win2_4.index _ (0 : Fin 2) * 2000 + 2000
    rw [e8]
    show (i 0).val / 2000 * 2000 ≤ (i 0).val ∧ (i 0).val < (i 0).val / 2000 * 2000 + 2000
    omega
  | ⟨1, _⟩ =>
    show win2_4.index _ (1 : Fin 2) * 128 ≤ (i 1).val ∧ (i 1).val < win2_4.index _ (1 : Fin 2) * 128 + 128
    rw [e9]
    omega

/-- Layer 3's output array after the region. -/
theorem arr2 (c : Dev nD) : (dat2 V c).arrAt 4 cfg2.N = stageAll (V c main_v42) (V c main_v14) (V c main_v44) (V c main_v43) :=
  (dat2 V c).arrAt_eq_of_cover 4 _ (fun t _ => flushed2_eq V c t) cover2

end Cert.KernelIdeal.Blocks

end
-- ==== Proof.Blocks3.lean ====
/-
  The read-out region: one grid point whose blocks are the whole arrays, so the result array ends holding the read-out
  of the whole arrays.
-/
import proofs.«107841_j72722386256530_2_alg».proof.Proof.Gen.KernelIdeal.Frame
import proofs.«107841_j72722386256530_2_alg».proof.Proof.Payloads
import proofs.«107841_j72722386256530_2_alg».proof.Proof.UpBlocks
import proofs.«107841_j72722386256530_2_alg».proof.Proof.Blocks0
set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Pay Cert.Dense Cert.Scale Cert.Net Cert.RowBlocks Cert.UpBlocks

variable (V : (c : Dev nD) → (b : Ref sig .tc) → Buf (Elt Ideal) ((c : Thread nD τ).loc b))

/-- The one point's blocks are the whole arrays. -/
theorem idx_facts3 : ∀ t : Fin cfg3.N, win3_0.index t (0 : Fin 2) = 0
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0 :=
  (by decide +kernel : ∀ t : Fin grid3.N, _)

/-- The one output block is the whole array: cutting a whole-array function to it reads the function through the block. -/
theorem out_whole3 (G : S512x1.Idx → EReal) (t : Fin cfg3.N) :
    (cfg3.win 5).cut (grid3.coords t) G = ((cfg3.win 5).blk t).view.read (Elt Ideal) G := by
  obtain ⟨e0, e1, e2, e3, e4, e5, e6, e7, e8, e9, e10, e11⟩ := idx_facts3 t
  funext j
  show G j = G (((cfg3.win 5).blk t).view.emb j)
  refine congrArg _ ?_
  funext a; apply Fin.ext
  match a with
  | ⟨0, _⟩ => show (j 0).val = win3_5.index t (0 : Fin 2) * 512 + 1 * (j 0).val; omega
  | ⟨1, _⟩ => show (j 1).val = win3_5.index t (1 : Fin 2) * 1 + 1 * (j 1).val; omega

/-- What the one point writes back is the read-out of the whole arrays. -/
theorem flushed3_eq (c : Dev nD) (t : Fin cfg3.N) :
    (dat3 V c).flushed 5 t = ((cfg3.win 5).blk t).view.read (Elt Ideal)
      (shift (prod (act (prod (V c main_v76) (V c main_v77)) (V c main_v79)) (V c main_v78)) (V c main_v80)) := by
  obtain ⟨e0, e1, e2, e3, e4, e5, e6, e7, e8, e9, e10, e11⟩ := idx_facts3 t
  show (cfg3.win 5).cut (grid3.coords t) ((dat3 V c).after 5 t) = _
  rw [after3_5]
  unfold out3_5
  rw [View.canon_unit_zero hz]
  simp only [View.ld_unit_zero (S := S512x155) hz, View.ld_unit_zero (S := S155x128) hz, View.ld_unit_zero (S := S1x128) hz, View.ld_unit_zero (S := S128x1) hz, View.ld_unit_zero (S := S1x1) hz]
  rw [pay3]
  have h0 : iblk3 V c 0 t = V c main_v76 := funext fun y => congrArg (V c main_v76) (by
    funext a; apply Fin.ext
    match a with
    | ⟨0, _⟩ => show win3_0.index t (0 : Fin 2) * 512 + 1 * (y 0).val = (y 0).val; omega
    | ⟨1, _⟩ => show win3_0.index t (1 : Fin 2) * 155 + 1 * (y 1).val = (y 1).val; omega)
  have h1 : iblk3 V c 1 t = V c main_v77 := funext fun y => congrArg (V c main_v77) (by
    funext a; apply Fin.ext
    match a with
    | ⟨0, _⟩ => show win3_1.index t (0 : Fin 2) * 155 + 1 * (y 0).val = (y 0).val; omega
    | ⟨1, _⟩ => show win3_1.index t (1 : Fin 2) * 128 + 1 * (y 1).val = (y 1).val; omega)
  have h2 : iblk3 V c 2 t = V c main_v79 := funext fun y => congrArg (V c main_v79) (by
    funext a; apply Fin.ext
    match a with
    | ⟨0, _⟩ => show win3_2.index t (0 : Fin 2) * 1 + 1 * (y 0).val = (y 0).val; omega
    | ⟨1, _⟩ => show win3_2.index t (1 : Fin 2) * 128 + 1 * (y 1).val = (y 1).val; omega)
  have h3 : iblk3 V c 3 t = V c main_v78 := funext fun y => congrArg (V c main_v78) (by
    funext a; apply Fin.ext
    match a with
    | ⟨0, _⟩ => show win3_3.index t (0 : Fin 2) * 128 + 1 * (y 0).val = (y 0).val; omega
    | ⟨1, _⟩ => show win3_3.index t (1 : Fin 2) * 1 + 1 * (y 1).val = (y 1).val; omega)
  have h4 : iblk3 V c 4 t = V c main_v80 := funext fun y => congrArg (V c main_v80) (by
    funext a; apply Fin.ext
    match a with
    | ⟨0, _⟩ => show win3_4.index t (0 : Fin 2) * 1 + 1 * (y 0).val = (y 0).val; omega
    | ⟨1, _⟩ => show win3_4.index t (1 : Fin 2) * 1 + 1 * (y 1).val = (y 1).val; omega)
  rw [h0, h1, h2, h3, h4]
  exact out_whole3 _ t

theorem mem_blk3 (t : Fin cfg3.N) (i : S512x1.Idx) :
    i ∈ ((cfg3.win 5).blk t).view.set ↔ ∀ a : Fin 2, win3_5.index t a * S512x1.size a ≤ (i a).val ∧ (i a).val < win3_5.index t a * S512x1.size a + S512x1.size a := by
  show i ∈ ((View.whole main_v81).slice (win3_5.rect t)).set ↔ _
  rw [View.set_slice_whole, Rect.mem_set_unit]
  exact Iff.rfl

/-- The one block is the whole result. -/
theorem cover3 (i : S512x1.Idx) : ∃ t : Fin cfg3.N, (cfg3.win 5).flush t = true ∧ i ∈ ((cfg3.win 5).blk t).view.set := by
  have hi0 : (i 0).val < 512 := (i 0).isLt
  have hi1 : (i 1).val < 1 := (i 1).isLt
  refine ⟨⟨0, by decide⟩, flush3_5 _, ?_⟩
  rw [mem_blk3]
  obtain ⟨e0, e1, e2, e3, e4, e5, e6, e7, e8, e9, e10, e11⟩ := idx_facts3 ⟨0, by decide⟩
  intro a
  match a with
  | ⟨0, _⟩ =>
    show win3_5.index _ (0 : Fin 2) * 512 ≤ (i 0).val ∧ (i 0).val < win3_5.index _ (0 : Fin 2) * 512 + 512
    rw [e10]
    omega
  | ⟨1, _⟩ =>
    show win3_5.index _ (1 : Fin 2) * 1 ≤ (i 1).val ∧ (i 1).val < win3_5.index _ (1 : Fin 2) * 1 + 1
    rw [e11]
    omega

/-- The result array after the read-out region. -/
theorem arr3 (c : Dev nD) : (dat3 V c).arrAt 5 cfg3.N = shift (prod (act (prod (V c main_v76) (V c main_v77)) (V c main_v79)) (V c main_v78)) (V c main_v80) :=
  (dat3 V c).arrAt_eq_of_cover 5 _ (fun t _ => flushed3_eq V c t) cover3

end Cert.KernelIdeal.Blocks

end
-- ==== Proof.KValue.lean ====
/-
  The result array of the whole program as one function of the arguments.

  The buffer contents are followed through the program: a stretch of host operations leaves each of its results at
  the operation's function of what was there; a region leaves its output array at the body applied to the whole
  arrays it read (the blocks tile them) and every other buffer as entered.  Nothing ever writes an argument, the
  message columns or the node factors after they are first computed, so they are read back unchanged at every later
  point.  Layer by layer this gives: the scaled product; the sum of the gathered rows; the layer body on that sum;
  …; after the third sum the last scaling, bias and maximum with zero on the host; the pooled features; the read-out.
-/
import proofs.«107841_j72722386256530_2_alg».proof.Proof.KTerms
import proofs.«107841_j72722386256530_2_alg».proof.Proof.Blocks1
import proofs.«107841_j72722386256530_2_alg».proof.Proof.Blocks2
import proofs.«107841_j72722386256530_2_alg».proof.Proof.Blocks3
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx
open Cert.KernelIdeal Cert.KernelIdeal.Gen Cert.KernelIdeal.Blocks
open Cert.Dense Cert.Scale Cert.Net Cert.UpBlocks Cert.Edges

theorem hN : 0 < 50000 := by norm_num

/-! ## Small facts about the layouts -/

/-- A vector re-cast as one row is the vector laid out as a row. -/
theorem cast_row {n : ℕ} (v : (⟨1, ![n]⟩ : Shape).Idx → EReal) (hc : (⟨1, ![n]⟩ : Shape).ShapeCasts ⟨2, ![1, n]⟩) :
    shapeCast ⟨2, ![1, n]⟩ v hc = row v := by
  funext i
  obtain ⟨r, t, rfl⟩ : ∃ (r : Fin 1) (t : Fin n), i = ix2 r t := ⟨i 0, i 1, eq_ix2 i⟩
  have hr : r = 0 := Subsingleton.elim _ _
  subst hr
  exact shapeCast_apply v hc (ix2 (0 : Fin 1) t) (ix1 t) (by
    rw [Shape.rowMajor_val_two, Shape.rowMajor_val_one]; show t.val = 0 * n + t.val; omega)

/-- A vector broadcast along axis 1 into one row is the vector laid out as a row. -/
theorem bcast_row {n : ℕ} (v : (⟨1, ![n]⟩ : Shape).Idx → EReal) (hc : (⟨1, ![n]⟩ : Shape).ShapeCasts ⟨2, ![1, n]⟩)
    (hb : (⟨1, ![n]⟩ : Shape).BroadcastsInDim ⟨2, ![1, n]⟩ ![1]) :
    broadcastInDim ⟨2, ![1, n]⟩ ![1] hb v = row v :=
  (row_cast_eq_broadcast v hc hb).symm.trans (cast_row v hc)

/-- The factor column spread over the columns, times a matrix, is the matrix with its rows scaled. -/
theorem spread_mul {N M : ℕ} (d : (⟨2, ![N, 1]⟩ : Shape).Idx → EReal) (S : (⟨2, ![N, M]⟩ : Shape).Idx → EReal)
    (h : (⟨2, ![N, 1]⟩ : Shape).BroadcastsInDim ⟨2, ![N, M]⟩ ![0, 1]) :
    mulf (F := Ideal) (φ := .f32) (broadcastInDim ⟨2, ![N, M]⟩ ![0, 1] h d) S = scale S d := by
  funext i
  obtain ⟨p, j, rfl⟩ : ∃ (p : Fin N) (j : Fin M), i = ix2 p j := ⟨i 0, i 1, eq_ix2 i⟩
  rw [mulf_apply, Cert.LibColumns.broadcastInDim_col_mat ![0, 1] rfl rfl h d p j, mul_comm]
  rfl

/-- A widening change of float format is the identity on the extended reals. -/
theorem extf_id {s : Shape} (v : FVec Ideal s .bf16) (h : FTy.bf16.bits < FTy.f32.bits) : extf .f32 v h = v := rfl

/-! ## The stages as functions of the arguments -/

section Stages

variable (a0 : FVec Ideal S50000x128 .f32) (a1 : IVec S2x600000 32) (a2 : IVec S50000 32) (a3 : FVec Ideal S512x27 .f32)
  (a4 : FVec Ideal S128x128 .f32) (a5 : FVec Ideal S128 .f32) (a6 : FVec Ideal S128x128 .f32) (a7 : FVec Ideal S128 .f32)
  (a8 : FVec Ideal S128x128 .f32) (a9 : FVec Ideal S128 .f32)

/-- Layer 1's scaled product. -/
def p1 : FVec Ideal S50000x128 .f32 := scale (prod a0 a4) (dcol a1)
/-- The gathered rows of it added up per target node. -/
def s1 : FVec Ideal S50000x128 .f32 := gsum hN (p1 a0 a1 a4) (srcW a1) (dstC a1)
def p2 : FVec Ideal S50000x128 .f32 := stageAll (s1 a0 a1 a4) (dcol a1) (row a5) a6
def s2 : FVec Ideal S50000x128 .f32 := gsum hN (p2 a0 a1 a4 a5 a6) (srcW a1) (dstC a1)
def p3 : FVec Ideal S50000x128 .f32 := stageAll (s2 a0 a1 a4 a5 a6) (dcol a1) (row a7) a8
def s3 : FVec Ideal S50000x128 .f32 := gsum hN (p3 a0 a1 a4 a5 a6 a7 a8) (srcW a1) (dstC a1)
/-- The node features after the third layer. -/
def feat : FVec Ideal S50000x128 .f32 := act (scale (s3 a0 a1 a4 a5 a6 a7 a8) (dcol a1)) (row a9)

/-- The pooling tail as the program spells it: the features added up per graph, divided by the graph's node count
    raised to at least one, the metadata columns appended. -/
def pool (h : FVec Ideal S50000x128 .f32) : FVec Ideal S512x155 .f32 :=
  concatenate S512x155 1 [⟨S512x128, Host.divf
      (Host.scatterAdd scatter_S512x128_S50000x1_S50000x128_1_0_0_1
        (broadcastInDim S512x128 ![] bcast_S_S512x128 (constant (F := Ideal) S_ .f32 0x00000000#32))
        (broadcastInDim S50000x1 ![0] bcast_S50000_S50000x1_0 a2) h)
      (broadcastInDim S512x128 ![0, 1] bcast_S512x1_S512x128_0_1 (broadcastInDim S512x1 ![0] bcast_S512_S512x1_0
        (maximumf (Host.scatterAdd scatter_S512_S50000x1_S50000_n_0_0_1
            (broadcastInDim S512 ![] bcast_S_S512 (constant (F := Ideal) S_ .f32 0x00000000#32))
            (broadcastInDim S50000x1 ![0] bcast_S50000_S50000x1_0 a2)
            (broadcastInDim S50000 ![] bcast_S_S50000 (constant (F := Ideal) S_ .f32 0x3F800000#32)))
          (broadcastInDim S512 ![] bcast_S_S512 (constant (F := Ideal) S_ .f32 0x3F800000#32)))))⟩,
    ⟨S512x27, a3⟩] concatenates_S512x128_S512x27_S512x155_d1

end Stages

variable (m : (ℓ : Loc nD τ sig) → Buf (Elt Ideal) ℓ) (ρ : Dev nD → PrngReg)

local macro "r2" : tactic => `(tactic| refine (W2_of_ne _ _ _ _ (by decide)).trans ?_)
local macro "r4" : tactic => `(tactic| refine (W4_of_ne _ _ _ _ (by decide)).trans ?_)
local macro "r6" : tactic => `(tactic| refine (W6_of_ne _ _ _ _ (by decide)).trans ?_)
local macro "h0" : tactic => `(tactic| refine (StableHlo.after_of_forall_not_mem _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_)
local macro "h1" : tactic => `(tactic| refine (StableHlo.after_of_forall_not_mem _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_)
local macro "h2" : tactic => `(tactic| refine (StableHlo.after_of_forall_not_mem _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_)
local macro "h3" : tactic => `(tactic| refine (StableHlo.after_of_forall_not_mem _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_)
local macro "h31" : tactic => `(tactic| refine (StableHlo.after_of_forall_not_mem _ _ (List.forall_iff_forall_mem.mp (by
      simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_)

local macro "i2" : tactic => `(tactic| refine (W2_arr _ _ _ 2).trans ((Pipeline.Dat.arrAt_in (dat0 _ _) 2 rfl _).trans ((A_eq0 _ _ 2).trans ?_)))
local macro "i4" : tactic => `(tactic| refine (W4_arr _ _ _ 3).trans ((Pipeline.Dat.arrAt_in (dat1 _ _) 3 rfl _).trans ((A_eq1 _ _ 3).trans ?_)))
local macro "i6" : tactic => `(tactic| refine (W6_arr _ _ _ 3).trans ((Pipeline.Dat.arrAt_in (dat2 _ _) 3 rfl _).trans ((A_eq2 _ _ 3).trans ?_)))

/-- The host's spelling of the third-layer features: the gathered rows added up, scaled by the factor column spread over
    the columns, the bias row spread over the rows, the maximum with zero. -/
theorem feat_spelled (a0 : FVec Ideal S50000x128 .f32) (a1 : IVec S2x600000 32) (a4 : FVec Ideal S128x128 .f32)
    (a5 : FVec Ideal S128 .f32) (a6 : FVec Ideal S128x128 .f32) (a7 : FVec Ideal S128 .f32) (a8 : FVec Ideal S128x128 .f32)
    (a9 : FVec Ideal S128 .f32) :
    maximumf (F := Ideal) (φ := .f32)
      (addf (mulf (broadcastInDim S50000x128 ![0, 1] bcast_S50000x1_S50000x128_0_1 (dcol a1))
          (Host.scatterAdd scatter_S50000x128_S650000x1_S650000x128_1_0_0_1
            (broadcastInDim S50000x128 ![] bcast_S_S50000x128 (constant (F := Ideal) S_ .f32 0x00000000#32)) (dstC a1)
            (Host.gather gather_S50000x128_S650000x1_S650000x128_1_0_n_n_0_1_1128 (p3 a0 a1 a4 a5 a6 a7 a8) (srcW a1))))
        (broadcastInDim S50000x128 ![0, 1] bcast_S1x128_S50000x128_0_1 (broadcastInDim S1x128 ![1] bcast_S128_S1x128_1 a9)))
      (broadcastInDim S50000x128 ![] bcast_S_S50000x128 (constant (F := Ideal) S_ .f32 0x00000000#32))
    = feat a0 a1 a4 a5 a6 a7 a8 a9 := by
  unfold feat s3
  rw [gsum_spelled hN gather_S50000x128_S650000x1_S650000x128_1_0_n_n_0_1_1128 gather_S50000x128_S650000x1_S650000x128_1_0_n_n_0_1_1128.wf rfl scatter_S50000x128_S650000x1_S650000x128_1_0_0_1 scatter_S50000x128_S650000x1_S650000x128_1_0_0_1.wf rfl ![] bcast_S_S50000x128,
    spread_mul, bcast_row _ shapeCasts_S128_S1x128]
  exact host_act _ _ _ _

/-! ## Region 1 (layer 1) -/

theorem W2_v17 (c : Dev nD) : W2 m ρ c (Proc.devRef .tc main_v17) = p1 (m ((c : Thread nD τ).loc main_arg0)) (m ((c : Thread nD τ).loc main_arg1)) (m ((c : Thread nD τ).loc main_arg4)) := by
  have e15 : V1 m ρ c main_v15 = (m ((c : Thread nD τ).loc main_arg0)) := W1_v15 m ρ c
  have e16 : V1 m ρ c main_v16 = (m ((c : Thread nD τ).loc main_arg4)) := W1_v16 m ρ c
  have e14 : V1 m ρ c main_v14 = dcol (m ((c : Thread nD τ).loc main_arg1)) := W1_v14 m ρ c
  refine (W2_arr m ρ c 3).trans ((arr0 (V1 m ρ) c).trans ?_)
  rw [e15, e16, e14]
  rfl

theorem W2_v3 (c : Dev nD) : W2 m ρ c (Proc.devRef .tc main_v3) = src (m ((c : Thread nD τ).loc main_arg1)) := by
  r2; exact W1_v3 m ρ c
theorem W2_v6 (c : Dev nD) : W2 m ρ c (Proc.devRef .tc main_v6) = dst (m ((c : Thread nD τ).loc main_arg1)) := by
  r2; exact W1_v6 m ρ c
theorem W2_v14 (c : Dev nD) : W2 m ρ c (Proc.devRef .tc main_v14) = dcol (m ((c : Thread nD τ).loc main_arg1)) := by
  i2; exact W1_v14 m ρ c
theorem W2_arg5 (c : Dev nD) : W2 m ρ c (Proc.devRef .tc main_arg5) = (m ((c : Thread nD τ).loc main_arg5)) := by
  r2; h0; rfl
theorem W2_arg6 (c : Dev nD) : W2 m ρ c (Proc.devRef .tc main_arg6) = (m ((c : Thread nD τ).loc main_arg6)) := by
  r2; h0; rfl

/-! ## The first sum, and region 2 (layer 2) -/

set_option maxHeartbeats 4000000 in
theorem W3_v28 (c : Dev nD) : W3 m ρ c (Proc.devRef .tc main_v28) = s1 (m ((c : Thread nD τ).loc main_arg0)) (m ((c : Thread nD τ).loc main_arg1)) (m ((c : Thread nD τ).loc main_arg4)) := by
  show StableHlo.after hostOps1 (W2 m ρ c) (Proc.devRef .tc main_v28) = _
  after_results_simp
  rw [W2_v3 m ρ c, W2_v6 m ρ c, W2_v17 m ρ c]
  have hs := gsum_spelled hN gather_S50000x128_S650000x1_S650000x128_1_0_n_n_0_1_1128 gather_S50000x128_S650000x1_S650000x128_1_0_n_n_0_1_1128.wf rfl scatter_S50000x128_S650000x1_S650000x128_1_0_0_1 scatter_S50000x128_S650000x1_S650000x128_1_0_0_1.wf rfl ![] bcast_S_S50000x128
    (p1 (m ((c : Thread nD τ).loc main_arg0)) (m ((c : Thread nD τ).loc main_arg1)) (m ((c : Thread nD τ).loc main_arg4))) (srcW (m ((c : Thread nD τ).loc main_arg1))) (dstC (m ((c : Thread nD τ).loc main_arg1)))
  rw [extf_id]
  exact hs

set_option maxHeartbeats 4000000 in
theorem W3_v30 (c : Dev nD) : W3 m ρ c (Proc.devRef .tc main_v30) = row (m ((c : Thread nD τ).loc main_arg5)) := by
  show StableHlo.after hostOps1 (W2 m ρ c) (Proc.devRef .tc main_v30) = _
  after_results_simp
  rw [W2_arg5 m ρ c]
  exact cast_row _ _

set_option maxHeartbeats 4000000 in
theorem W3_v29 (c : Dev nD) : W3 m ρ c (Proc.devRef .tc main_v29) = (m ((c : Thread nD τ).loc main_arg6)) := by
  show StableHlo.after hostOps1 (W2 m ρ c) (Proc.devRef .tc main_v29) = _
  after_results_simp
  rw [W2_arg6 m ρ c]
  rfl

theorem W3_v14 (c : Dev nD) : W3 m ρ c (Proc.devRef .tc main_v14) = dcol (m ((c : Thread nD τ).loc main_arg1)) := by
  h1; exact W2_v14 m ρ c

theorem W4_v31 (c : Dev nD) : W4 m ρ c (Proc.devRef .tc main_v31) = p2 (m ((c : Thread nD τ).loc main_arg0)) (m ((c : Thread nD τ).loc main_arg1)) (m ((c : Thread nD τ).loc main_arg4)) (m ((c : Thread nD τ).loc main_arg5)) (m ((c : Thread nD τ).loc main_arg6)) := by
  have e28 : V3 m ρ c main_v28 = s1 (m ((c : Thread nD τ).loc main_arg0)) (m ((c : Thread nD τ).loc main_arg1)) (m ((c : Thread nD τ).loc main_arg4)) := W3_v28 m ρ c
  have e30 : V3 m ρ c main_v30 = row (m ((c : Thread nD τ).loc main_arg5)) := W3_v30 m ρ c
  have e29 : V3 m ρ c main_v29 = (m ((c : Thread nD τ).loc main_arg6)) := W3_v29 m ρ c
  have e14 : V3 m ρ c main_v14 = dcol (m ((c : Thread nD τ).loc main_arg1)) := W3_v14 m ρ c
  refine (W4_arr m ρ c 4).trans ((arr1 (V3 m ρ) c).trans ?_)
  rw [e28, e30, e29, e14]
  rfl

theorem W4_v3 (c : Dev nD) : W4 m ρ c (Proc.devRef .tc main_v3) = src (m ((c : Thread nD τ).loc main_arg1)) := by
  r4; h1; exact W2_v3 m ρ c
theorem W4_v6 (c : Dev nD) : W4 m ρ c (Proc.devRef .tc main_v6) = dst (m ((c : Thread nD τ).loc main_arg1)) := by
  r4; h1; exact W2_v6 m ρ c
theorem W4_v14 (c : Dev nD) : W4 m ρ c (Proc.devRef .tc main_v14) = dcol (m ((c : Thread nD τ).loc main_arg1)) := by
  i4; exact W3_v14 m ρ c
theorem W4_arg7 (c : Dev nD) : W4 m ρ c (Proc.devRef .tc main_arg7) = (m ((c : Thread nD τ).loc main_arg7)) := by
  r4; h1; r2; h0; rfl
theorem W4_arg8 (c : Dev nD) : W4 m ρ c (Proc.devRef .tc main_arg8) = (m ((c : Thread nD τ).loc main_arg8)) := by
  r4; h1; r2; h0; rfl

/-! ## The second sum, and region 3 (layer 3) -/

set_option maxHeartbeats 4000000 in
theorem W5_v42 (c : Dev nD) : W5 m ρ c (Proc.devRef .tc main_v42) = s2 (m ((c : Thread nD τ).loc main_arg0)) (m ((c : Thread nD τ).loc main_arg1)) (m ((c : Thread nD τ).loc main_arg4)) (m ((c : Thread nD τ).loc main_arg5)) (m ((c : Thread nD τ).loc main_arg6)) := by
  show StableHlo.after hostOps2 (W4 m ρ c) (Proc.devRef .tc main_v42) = _
  after_results_simp
  rw [W4_v3 m ρ c, W4_v6 m ρ c, W4_v31 m ρ c]
  have hs := gsum_spelled hN gather_S50000x128_S650000x1_S650000x128_1_0_n_n_0_1_1128 gather_S50000x128_S650000x1_S650000x128_1_0_n_n_0_1_1128.wf rfl scatter_S50000x128_S650000x1_S650000x128_1_0_0_1 scatter_S50000x128_S650000x1_S650000x128_1_0_0_1.wf rfl ![] bcast_S_S50000x128
    (p2 (m ((c : Thread nD τ).loc main_arg0)) (m ((c : Thread nD τ).loc main_arg1)) (m ((c : Thread nD τ).loc main_arg4)) (m ((c : Thread nD τ).loc main_arg5)) (m ((c : Thread nD τ).loc main_arg6))) (srcW (m ((c : Thread nD τ).loc main_arg1))) (dstC (m ((c : Thread nD τ).loc main_arg1)))
  rw [extf_id]
  exact hs

set_option maxHeartbeats 4000000 in
theorem W5_v44 (c : Dev nD) : W5 m ρ c (Proc.devRef .tc main_v44) = row (m ((c : Thread nD τ).loc main_arg7)) := by
  show StableHlo.after hostOps2 (W4 m ρ c) (Proc.devRef .tc main_v44) = _
  after_results_simp
  rw [W4_arg7 m ρ c]
  exact cast_row _ _

set_option maxHeartbeats 4000000 in
theorem W5_v43 (c : Dev nD) : W5 m ρ c (Proc.devRef .tc main_v43) = (m ((c : Thread nD τ).loc main_arg8)) := by
  show StableHlo.after hostOps2 (W4 m ρ c) (Proc.devRef .tc main_v43) = _
  after_results_simp
  rw [W4_arg8 m ρ c]
  rfl

theorem W5_v14 (c : Dev nD) : W5 m ρ c (Proc.devRef .tc main_v14) = dcol (m ((c : Thread nD τ).loc main_arg1)) := by
  h2; exact W4_v14 m ρ c

theorem W6_v45 (c : Dev nD) : W6 m ρ c (Proc.devRef .tc main_v45) = p3 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  have e42 : V5 m ρ c main_v42 = s2 (m ((c : Thread nD τ).loc main_arg0)) (m ((c : Thread nD τ).loc main_arg1)) (m ((c : Thread nD τ).loc main_arg4)) (m ((c : Thread nD τ).loc main_arg5)) (m ((c : Thread nD τ).loc main_arg6)) := W5_v42 m ρ c
  have e44 : V5 m ρ c main_v44 = row (m ((c : Thread nD τ).loc main_arg7)) := W5_v44 m ρ c
  have e43 : V5 m ρ c main_v43 = (m ((c : Thread nD τ).loc main_arg8)) := W5_v43 m ρ c
  have e14 : V5 m ρ c main_v14 = dcol (m ((c : Thread nD τ).loc main_arg1)) := W5_v14 m ρ c
  refine (W6_arr m ρ c 4).trans ((arr2 (V5 m ρ) c).trans ?_)
  rw [e42, e44, e43, e14]
  rfl

theorem W6_v3 (c : Dev nD) : W6 m ρ c (Proc.devRef .tc main_v3) = src (m ((c : Thread nD τ).loc main_arg1)) := by
  r6; h2; exact W4_v3 m ρ c
theorem W6_v6 (c : Dev nD) : W6 m ρ c (Proc.devRef .tc main_v6) = dst (m ((c : Thread nD τ).loc main_arg1)) := by
  r6; h2; exact W4_v6 m ρ c
theorem W6_v14 (c : Dev nD) : W6 m ρ c (Proc.devRef .tc main_v14) = dcol (m ((c : Thread nD τ).loc main_arg1)) := by
  i6; exact W5_v14 m ρ c
theorem W6_arg9 (c : Dev nD) : W6 m ρ c (Proc.devRef .tc main_arg9) = (m ((c : Thread nD τ).loc main_arg9)) := by
  r6; h2; r4; h1; r2; h0; rfl
theorem W6_arg2 (c : Dev nD) : W6 m ρ c (Proc.devRef .tc main_arg2) = (m ((c : Thread nD τ).loc main_arg2)) := by
  r6; h2; r4; h1; r2; h0; rfl
theorem W6_arg3 (c : Dev nD) : W6 m ρ c (Proc.devRef .tc main_arg3) = (m ((c : Thread nD τ).loc main_arg3)) := by
  r6; h2; r4; h1; r2; h0; rfl
theorem W6_arg10 (c : Dev nD) : W6 m ρ c (Proc.devRef .tc main_arg10) = (m ((c : Thread nD τ).loc main_arg10)) := by
  r6; h2; r4; h1; r2; h0; rfl
theorem W6_arg11 (c : Dev nD) : W6 m ρ c (Proc.devRef .tc main_arg11) = (m ((c : Thread nD τ).loc main_arg11)) := by
  r6; h2; r4; h1; r2; h0; rfl
theorem W6_arg12 (c : Dev nD) : W6 m ρ c (Proc.devRef .tc main_arg12) = (m ((c : Thread nD τ).loc main_arg12)) := by
  r6; h2; r4; h1; r2; h0; rfl
theorem W6_arg13 (c : Dev nD) : W6 m ρ c (Proc.devRef .tc main_arg13) = (m ((c : Thread nD τ).loc main_arg13)) := by
  r6; h2; r4; h1; r2; h0; rfl

end Cert.KernelIdeal.KV

end
-- ==== Proof.KTail.lean ====
/-
  The last host stretches and the read-out region: the third-layer features, the pooled features, the result array.

  After the third region the host adds up the gathered rows once more, scales by the node factors, adds the bias row and
  takes the maximum with zero; it then pools per graph and appends the metadata; the read-out region, one grid point over
  whole arrays, applies the two-layer head.
-/
import proofs.«107841_j72722386256530_2_alg».proof.Proof.KValue

set_option maxRecDepth 16384

noncomputable section

namespace Cert.KernelIdeal.KV

open Idealize.ShloMosaic Idealize.ShloMosaic.TcCoe Idealize.SL.Sem Idealize.ShloMosaic.ValueIdx
open Cert.KernelIdeal Cert.KernelIdeal.Gen Cert.KernelIdeal.Blocks
open Cert.Dense Cert.Scale Cert.Net Cert.UpBlocks Cert.Edges

variable (m : (ℓ : Loc nD τ sig) → Buf (Elt Ideal) ℓ) (ρ : Dev nD → PrngReg)

local macro "r2" : tactic => `(tactic| refine (W2_of_ne _ _ _ _ (by decide)).trans ?_)
local macro "r4" : tactic => `(tactic| refine (W4_of_ne _ _ _ _ (by decide)).trans ?_)
local macro "r6" : tactic => `(tactic| refine (W6_of_ne _ _ _ _ (by decide)).trans ?_)
local macro "h0" : tactic => `(tactic| refine (StableHlo.after_of_forall_not_mem _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_)
local macro "h1" : tactic => `(tactic| refine (StableHlo.after_of_forall_not_mem _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_)
local macro "h2" : tactic => `(tactic| refine (StableHlo.after_of_forall_not_mem _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_)
local macro "h3" : tactic => `(tactic| refine (StableHlo.after_of_forall_not_mem _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_)
local macro "h31" : tactic => `(tactic| refine (StableHlo.after_of_forall_not_mem _ _ (List.forall_iff_forall_mem.mp (by
      simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_)

local macro "i2" : tactic => `(tactic| refine (W2_arr _ _ _ 2).trans ((Pipeline.Dat.arrAt_in (dat0 _ _) 2 rfl _).trans ((A_eq0 _ _ 2).trans ?_)))
local macro "i4" : tactic => `(tactic| refine (W4_arr _ _ _ 3).trans ((Pipeline.Dat.arrAt_in (dat1 _ _) 3 rfl _).trans ((A_eq1 _ _ 3).trans ?_)))
local macro "i6" : tactic => `(tactic| refine (W6_arr _ _ _ 3).trans ((Pipeline.Dat.arrAt_in (dat2 _ _) 3 rfl _).trans ((A_eq2 _ _ 3).trans ?_)))

/-! ## The third sum, the pooled features and the read-out region -/

set_option maxHeartbeats 4000000 in
theorem W8_v62 (c : Dev nD) : W8 m ρ c (Proc.devRef .tc main_v62) = feat (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3_1 (W7 m ρ c) (Proc.devRef .tc main_v62) = _
  after_results_simp
  rw [W6_v3 m ρ c, W6_v6 m ρ c, W6_v45 m ρ c, W6_v14 m ρ c, W6_arg9 m ρ c]
  rw [extf_id]
  have hs := feat_spelled (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
  exact hs

theorem W8_arg2 (c : Dev nD) : W8 m ρ c (Proc.devRef .tc main_arg2) = (m ((c : Thread nD τ).loc main_arg2)) := by
  h31; h3; exact W6_arg2 m ρ c
theorem W8_arg3 (c : Dev nD) : W8 m ρ c (Proc.devRef .tc main_arg3) = (m ((c : Thread nD τ).loc main_arg3)) := by
  h31; h3; exact W6_arg3 m ρ c

set_option maxHeartbeats 4000000 in
theorem W9_v76 (c : Dev nD) : W9 m ρ c (Proc.devRef .tc main_v76) = pool (m ((c : Thread nD τ).loc main_arg2)) (m ((c : Thread nD τ).loc main_arg3)) (feat (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps3_2 (W8 m ρ c) (Proc.devRef .tc main_v76) = _
  generalize hX : W8 m ρ c = X
  after_results
  subst hX
  rw [W8_arg2 m ρ c, W8_arg3 m ρ c, W8_v62 m ρ c]
  rfl

set_option maxHeartbeats 4000000 in
theorem W9_v77 (c : Dev nD) : W9 m ρ c (Proc.devRef .tc main_v77) = (m ((c : Thread nD τ).loc main_arg10)) := by
  show StableHlo.after hostOps3_2 (W8 m ρ c) (Proc.devRef .tc main_v77) = _
  after_results_simp
  rw [W6_arg10 m ρ c]
  rfl

set_option maxHeartbeats 4000000 in
theorem W9_v78 (c : Dev nD) : W9 m ρ c (Proc.devRef .tc main_v78) = (m ((c : Thread nD τ).loc main_arg12)) := by
  show StableHlo.after hostOps3_2 (W8 m ρ c) (Proc.devRef .tc main_v78) = _
  after_results_simp
  rw [W6_arg12 m ρ c]
  rfl

set_option maxHeartbeats 4000000 in
theorem W9_v79 (c : Dev nD) : W9 m ρ c (Proc.devRef .tc main_v79) = row (m ((c : Thread nD τ).loc main_arg11)) := by
  show StableHlo.after hostOps3_2 (W8 m ρ c) (Proc.devRef .tc main_v79) = _
  after_results_simp
  rw [W6_arg11 m ρ c]
  exact cast_row _ _

set_option maxHeartbeats 4000000 in
theorem W9_v80 (c : Dev nD) : W9 m ρ c (Proc.devRef .tc main_v80) = row (m ((c : Thread nD τ).loc main_arg13)) := by
  show StableHlo.after hostOps3_2 (W8 m ρ c) (Proc.devRef .tc main_v80) = _
  after_results_simp
  rw [W6_arg13 m ρ c]
  exact cast_row _ _

/-- The result array: the read-out of the pooled third-layer features. -/
theorem W10_v81 (c : Dev nD) : W10 m ρ c (Proc.devRef .tc main_v81)
    = head (pool (m ((c : Thread nD τ).loc main_arg2)) (m ((c : Thread nD τ).loc main_arg3)) (feat (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) (m ((c : Thread nD τ).loc main_arg10)) (m ((c : Thread nD τ).loc main_arg11)) (m ((c : Thread nD τ).loc main_arg12)) (m ((c : Thread nD τ).loc main_arg13)) := by
  have e76 : V9 m ρ c main_v76 = pool (m ((c : Thread nD τ).loc main_arg2)) (m ((c : Thread nD τ).loc main_arg3)) (feat (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := W9_v76 m ρ c
  have e77 : V9 m ρ c main_v77 = (m ((c : Thread nD τ).loc main_arg10)) := W9_v77 m ρ c
  have e79 : V9 m ρ c main_v79 = row (m ((c : Thread nD τ).loc main_arg11)) := W9_v79 m ρ c
  have e78 : V9 m ρ c main_v78 = (m ((c : Thread nD τ).loc main_arg12)) := W9_v78 m ρ c
  have e80 : V9 m ρ c main_v80 = row (m ((c : Thread nD τ).loc main_arg13)) := W9_v80 m ρ c
  refine (W10_arr m ρ c 5).trans ((arr3 (V9 m ρ) c).trans ?_)
  rw [e76, e77, e79, e78, e80]
  rfl

end Cert.KernelIdeal.KV

end
-- ==== Proof.KRun.lean ====
/-
  The whole program's run with its result named.

  The program is four kernel regions among stretches of host operations.  Every weakly fair execution terminates
  without a fault, the result array ends holding the contents the last region's write-backs leave in it (the fold
  of the buffer contents through the stretches and the regions, read at the result), and the fourteen argument
  arrays end as launched.
-/
import proofs.«107841_j72722386256530_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result array at the last boundary's contents and the arguments
    as launched. -/
theorem run_named : θ_run defs (onTc (τ := τ) (main (F := F))) ⟨m, fun _ => 0, ρ⟩ (fun r => ∀ c : Dev nD,
      r.2.mem ((c.tc : Thread nD τ).loc main_v81) = W10 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v81 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelIdeal.Run

end
-- ==== Proof.RefValue.lean ====
/-
  The reference program's value, read as the network: three graph-convolution layers, the mean pool with the
  metadata columns joined on, and the read-out head.

  Each layer of the program is a product with the weights, a gather of the product's rows at the source column, a
  product with the per-message weights spread over the feature columns, an accumulating scatter into zeros at the
  target column, a bias row and the maximum with zero: the layer of the shared definitions.  The three layers read one
  source column, one target column and one vector of per-message weights (the program recomputes them before each
  layer by the same operations).  The per-message weight is the product of the inverse-root degrees of the message's two
  end nodes.
-/
import proofs.«107841_j72722386256530_2_alg».proof.Proof.Gen.ReferenceIdeal.Read
import proofs.«107841_j72722386256530_2_alg».proof.Proof.LibAggregate
import proofs.«107841_j72722386256530_2_alg».proof.Proof.Net

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

theorem hN : 0 < 50000 := by norm_num

/-- A vector broadcast along axis 1 into one row is the vector laid out as a one-row matrix. -/
theorem row_spelled {M : ℕ} (hb : (⟨1, ![M]⟩ : Shape).BroadcastsInDim ⟨2, ![1, M]⟩ ![1]) (b : (⟨1, ![M]⟩ : Shape).Idx → EReal) :
    broadcastInDim ⟨2, ![1, M]⟩ ![1] hb b = Cert.Net.row b := by
  funext i
  obtain ⟨r, t, rfl⟩ : ∃ (r : Fin 1) (t : Fin M), i = ix2 r t := ⟨i 0, i 1, eq_ix2 i⟩
  exact broadcastInDim_apply ![1] hb b (ix2 r t) (ix1 t) (by
    intro a
    match a with
    | ⟨0, _⟩ =>
      show t.val = if M = 1 then 0 else t.val
      split
      · have := t.isLt; omega
      · rfl)

/-- One layer as the program spells it is the layer. -/
theorem layer_spelled (h : FVec Ideal S50000x128 .f32) (W : FVec Ideal S128x128 .f32) (b : FVec Ideal S128 .f32)
    (S C : IVec S650000x1 32) (n : FVec Ideal S650000 .f32) :
    maximumf (F := Ideal) (φ := .f32)
      (addf (Host.scatterAdd (F := Ideal) scatter_S50000x128_S650000x1_S650000x128_1_0_0_1
          (broadcastInDim S50000x128 ![] bcast_S_S50000x128 (constant (F := Ideal) S_ .f32 0x00000000#32)) C
          (mulf (Host.gather gather_S50000x128_S650000x1_S650000x128_1_0_n_n_0_1_1128
              (Host.dotGeneral dot_S50000x128_S128x128_S50000x128_1_0_0_1_n_n none h W) S)
            (broadcastInDim S650000x128 ![0, 1] bcast_S650000x1_S650000x128_0_1
              (broadcastInDim S650000x1 ![0] bcast_S650000_S650000x1_0 n))))
        (broadcastInDim S50000x128 ![0, 1] bcast_S1x128_S50000x128_0_1
          (broadcastInDim S1x128 ![1] bcast_S128_S1x128_1 b)))
      (broadcastInDim S50000x128 ![] bcast_S_S50000x128 (constant (F := Ideal) S_ .f32 0x00000000#32))
    = Cert.Net.layer hN h W b S C n := by
  rw [Cert.Dense.dotGeneral_eq_prod dot_S50000x128_S128x128_S50000x128_1_0_0_1_n_n rfl rfl
      lhs_main_v29_0 lhs_main_v29_1 rhs_main_v29_0 rhs_main_v29_1 none h W]
  rw [Cert.Aggregate.agg_spelled hN gather_S50000x128_S650000x1_S650000x128_1_0_n_n_0_1_1128
      gather_S50000x128_S650000x1_S650000x128_1_0_n_n_0_1_1128_wf rfl
      scatter_S50000x128_S650000x1_S650000x128_1_0_0_1 scatter_S50000x128_S650000x1_S650000x128_1_0_0_1_wf rfl
      ![] bcast_S_S50000x128 ![0] bcast_S650000_S650000x1_0 rfl ![0, 1] bcast_S650000x1_S650000x128_0_1 rfl]
  rw [row_spelled bcast_S128_S1x128_1 b, Cert.Dense.host_act]
  rfl

/-- The read-out head as the program spells it is the head. -/
theorem head_spelled (z : FVec Ideal S512x155 .f32) (W1 : FVec Ideal S155x128 .f32) (b1 : FVec Ideal S128 .f32)
    (W2 : FVec Ideal S128x1 .f32) (b2 : FVec Ideal S1 .f32) :
    addf (F := Ideal) (φ := .f32)
      (Host.dotGeneral dot_S512x128_S128x1_S512x1_1_0_0_1_n_n none
        (maximumf (F := Ideal) (φ := .f32)
          (addf (Host.dotGeneral dot_S512x155_S155x128_S512x128_1_0_0_1_n_n none z W1)
            (broadcastInDim S512x128 ![0, 1] bcast_S1x128_S512x128_0_1 (broadcastInDim S1x128 ![1] bcast_S128_S1x128_1 b1)))
          (broadcastInDim S512x128 ![] bcast_S_S512x128 (constant (F := Ideal) S_ .f32 0x00000000#32)))
        W2)
      (broadcastInDim S512x1 ![0, 1] bcast_S1x1_S512x1_0_1 (broadcastInDim S1x1 ![1] bcast_S1_S1x1_1 b2))
    = Cert.Net.head z W1 b1 W2 b2 := by
  rw [Cert.Dense.dotGeneral_eq_prod dot_S512x155_S155x128_S512x128_1_0_0_1_n_n rfl rfl
      lhs_main_v96_0 lhs_main_v96_1 rhs_main_v96_0 rhs_main_v96_1 none z W1]
  rw [row_spelled bcast_S128_S1x128_1 b1, Cert.Dense.host_act]
  rw [Cert.Dense.dotGeneral_eq_prod dot_S512x128_S128x1_S512x1_1_0_0_1_n_n rfl rfl
      lhs_main_v101_0 lhs_main_v101_1 rhs_main_v101_0 rhs_main_v101_1 none _ W2]
  rw [row_spelled bcast_S1_S1x1_1 b2, Cert.Dense.host_shift]
  rfl

/-- The pooling tail as the program spells it: the node features added up per graph into zeros, divided by the
    number of nodes of the graph raised to at least one, with the metadata columns joined on. -/
def pool (h : FVec Ideal S50000x128 .f32) (a2 : IVec S50000 32) (a3 : FVec Ideal S512x27 .f32) : FVec Ideal S512x155 .f32 :=
  concatenate S512x155 1 [⟨S512x128,
    Host.divf (F := Ideal)
      (Host.scatterAdd (F := Ideal) scatter_S512x128_S50000x1_S50000x128_1_0_0_1
        (broadcastInDim S512x128 ![] bcast_S_S512x128 (constant (F := Ideal) S_ .f32 0x00000000#32))
        (broadcastInDim S50000x1 ![0] bcast_S50000_S50000x1_0 a2) h)
      (broadcastInDim S512x128 ![0, 1] bcast_S512x1_S512x128_0_1
        (broadcastInDim S512x1 ![0] bcast_S512_S512x1_0
          (maximumf (F := Ideal) (φ := .f32)
            (Host.scatterAdd (F := Ideal) scatter_S512_S50000x1_S50000_n_0_0_1
              (broadcastInDim S512 ![] bcast_S_S512 (constant (F := Ideal) S_ .f32 0x00000000#32))
              (broadcastInDim S50000x1 ![0] bcast_S50000_S50000x1_0 a2)
              (broadcastInDim S50000 ![] bcast_S_S50000 (constant (F := Ideal) S_ .f32 0x3F800000#32)))
            (broadcastInDim S512 ![] bcast_S_S512 (constant (F := Ideal) S_ .f32 0x3F800000#32)))))⟩,
    ⟨S512x27, a3⟩] concatenates_S512x128_S512x27_S512x155_d1

section
variable (a0 : FVec Ideal S50000x128 .f32) (a1 : IVec S2x600000 32) (a2 : IVec S50000 32) (a3 : FVec Ideal S512x27 .f32)
  (a4 : FVec Ideal S128x128 .f32) (a5 : FVec Ideal S128 .f32) (a6 : FVec Ideal S128x128 .f32) (a7 : FVec Ideal S128 .f32)
  (a8 : FVec Ideal S128x128 .f32) (a9 : FVec Ideal S128 .f32) (a10 : FVec Ideal S155x128 .f32) (a11 : FVec Ideal S128 .f32)
  (a12 : FVec Ideal S128x1 .f32) (a13 : FVec Ideal S1 .f32)

/-- The three layers read one source column. -/
theorem src35 : val_main_v35 (F := Ideal) a1 = val_main_v19 (F := Ideal) a1 := rfl
theorem src53 : val_main_v53 (F := Ideal) a1 = val_main_v19 (F := Ideal) a1 := rfl
theorem src71 : val_main_v71 (F := Ideal) a1 = val_main_v19 (F := Ideal) a1 := rfl
/-- The three layers write at one target column. -/
theorem tgt41 : val_main_v41 (F := Ideal) a1 = val_main_v9 (F := Ideal) a1 := rfl
theorem tgt59 : val_main_v59 (F := Ideal) a1 = val_main_v9 (F := Ideal) a1 := rfl
theorem tgt77 : val_main_v77 (F := Ideal) a1 = val_main_v9 (F := Ideal) a1 := rfl

/-- The first layer. -/
theorem layer1 : val_main_v46 (F := Ideal) a0 a1 a4 a5
    = Cert.Net.layer hN a0 a4 a5 (val_main_v19 (F := Ideal) a1) (val_main_v9 (F := Ideal) a1) (val_main_v28 (F := Ideal) a1) :=
  layer_spelled a0 a4 a5 _ _ _

/-- The second layer. -/
theorem layer2 : val_main_v64 (F := Ideal) a0 a1 a4 a5 a6 a7
    = Cert.Net.layer hN (val_main_v46 (F := Ideal) a0 a1 a4 a5) a6 a7 (val_main_v19 (F := Ideal) a1) (val_main_v9 (F := Ideal) a1)
        (val_main_v28 (F := Ideal) a1) :=
  layer_spelled _ a6 a7 _ _ _

/-- The third layer. -/
theorem layer3 : val_main_v82 (F := Ideal) a0 a1 a4 a5 a6 a7 a8 a9
    = Cert.Net.layer hN (val_main_v64 (F := Ideal) a0 a1 a4 a5 a6 a7) a8 a9 (val_main_v19 (F := Ideal) a1) (val_main_v9 (F := Ideal) a1)
        (val_main_v28 (F := Ideal) a1) :=
  layer_spelled _ a8 a9 _ _ _

/-- The pooled features with the metadata joined on. -/
theorem pool_eq : val_main_v95 (F := Ideal) a0 a1 a2 a3 a4 a5 a6 a7 a8 a9
    = pool (val_main_v82 (F := Ideal) a0 a1 a4 a5 a6 a7 a8 a9) a2 a3 := rfl

/-- The head of the program over the pooled features. -/
theorem head_eq : val_main_v104 (F := Ideal) a0 a1 a2 a3 a4 a5 a6 a7 a8 a9 a10 a11 a12 a13
    = Cert.Net.head (val_main_v95 (F := Ideal) a0 a1 a2 a3 a4 a5 a6 a7 a8 a9) a10 a11 a12 a13 :=
  head_spelled _ a10 a11 a12 a13

/-- The reference program's value is the network's. -/
theorem ref_value : val_main_v104 (F := Ideal) a0 a1 a2 a3 a4 a5 a6 a7 a8 a9 a10 a11 a12 a13
    = Cert.Net.head (pool
        (Cert.Net.layer hN
          (Cert.Net.layer hN
            (Cert.Net.layer hN a0 a4 a5 (val_main_v19 (F := Ideal) a1) (val_main_v9 (F := Ideal) a1) (val_main_v28 (F := Ideal) a1))
            a6 a7 (val_main_v19 (F := Ideal) a1) (val_main_v9 (F := Ideal) a1) (val_main_v28 (F := Ideal) a1))
          a8 a9 (val_main_v19 (F := Ideal) a1) (val_main_v9 (F := Ideal) a1) (val_main_v28 (F := Ideal) a1))
        a2 a3) a10 a11 a12 a13 := by
  rw [head_eq, pool_eq, layer3, layer2, layer1]

/-- The weight of message e: the product of the inverse-root degrees of its two end nodes. -/
theorem nrm_apply (e : Fin 650000) :
    val_main_v28 (F := Ideal) a1 (ix1 e)
      = val_main_v13 (F := Ideal) a1 (ix1 (Cert.Edges.clampRow 50000 hN (val_main_v19 (F := Ideal) a1 (ix2 e 0))))
        * val_main_v13 (F := Ideal) a1 (ix1 (Cert.Edges.clampRow 50000 hN (val_main_v26 (F := Ideal) a1 (ix2 e 0)))) := by
  have h20 := Cert.Edges.vecGather_apply hN gather_S50000_S650000x1_S650000_n_0_n_n_0_1_1_wf
    (val_main_v13 (F := Ideal) a1) (val_main_v19 (F := Ideal) a1) e
  have h27 := Cert.Edges.vecGather_apply hN gather_S50000_S650000x1_S650000_n_0_n_n_0_1_1_wf
    (val_main_v13 (F := Ideal) a1) (val_main_v26 (F := Ideal) a1) e
  rw [← h20, ← h27]
  rfl

end

end Cert.ReferenceIdeal.RefValue

end
-- ==== Proof.RefFacts.lean ====
/-
  Two facts about the reference program's columns.

  The per-node factor is the reciprocal square root of the degree raised to at least one, so it is a nonnegative real
  number whatever the degree is.  And a message whose target word, read signed, is the number n of a row has a
  nonnegative target word: the wrapped target column (the word plus the number of rows where the word is negative, the
  word itself elsewhere) is then the word itself, and clamping n into the rows gives n.
-/
import proofs.«107841_j72722386256530_2_alg».proof.Proof.RefValue
import proofs.«107841_j72722386256530_2_alg».proof.Proof.Scale
import Idealize.ShloMosaic.Lib.IdealHost
import Idealize.ShloMosaic.Lib.ValueLayout

noncomputable section

namespace Cert.ReferenceIdeal.RefFacts

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read Cert.ReferenceIdeal.RefValue Cert.Edges

/-- The per-node factor is a nonnegative real number. -/
theorem dinv_real (a1 : IVec S2x600000 32) (n : Fin 50000) :
    ∃ r : ℝ, 0 ≤ r ∧ val_main_v13 (F := Ideal) a1 (ix1 n) = (r : EReal) := by
  rw [val_main_v13_apply, val_main_v12_apply, Ideal.hostUnary_rsqrt_def, Ideal.maximumf_def, val_main_v11_apply,
    val_main_cst_1_apply, Ideal.ofBits_def, Ideal.ofBits_one_f32]
  exact Cert.Scale.rsqrt_max_one _

/-- A message that lands on row n has the wrapped and clamped target n. -/
theorem lands_wrap (a1 : IVec S2x600000 32) (e : Fin 650000) (n : Fin 50000)
    (h : (val_main_v9 (F := Ideal) a1 (ix2 e 0)).toInt = (n.val : ℤ)) :
    clampRow 50000 hN (val_main_v26 (F := Ideal) a1 (ix2 e 0)) = n := by
  rw [val_main_v9_apply] at h
  rw [val_main_v26_apply, val_main_v25_apply, val_main_v22_apply, val_main_v21_apply, val_main_c_3_apply]
  have hj : idx_main_v26 (ix2 e (0 : Fin 1)) = idx_main_v9 (ix2 e (0 : Fin 1)) := rfl
  rw [hj]
  generalize val_main_v24 (F := Ideal) a1 (idx_main_v9 (ix2 e (0 : Fin 1))) = y
  generalize val_main_v6 (F := Ideal) a1 (idx_main_v9 (ix2 e (0 : Fin 1))) = x at h ⊢
  have hlt : x.slt 0#32 = false := by
    unfold BitVec.slt
    rw [h, BitVec.toInt_zero]
    exact decide_eq_false (by omega)
  have hs : Scalar.select (IntOp.cmpi .slt x 0#32) y x = x := by
    show (if BitVec.ofBool (x.slt 0#32) = 1 then y else x) = x
    rw [hlt]
    exact if_neg (by decide)
  rw [hs]
  apply Fin.ext
  show min x.toInt.toNat (50000 - 1) = n.val
  rw [h, Int.toNat_natCast]
  have := n.isLt
  omega

end Cert.ReferenceIdeal.RefFacts

end
-- ==== Proof.ThreeLayers.lean ====
/-
  The algebra joining the two programs' orders of work.

  One program scales the rows of the product by the per-node factor before the messages are gathered, adds the gathered
  rows up with no weights and scales the total by the factor of the receiving node; the other weights each message by
  the product of the factors of its two end nodes.  With a nonnegative real factor per node these agree layer by layer,
  so three layers in the first order are three layers in the second.
-/
import proofs.«107841_j72722386256530_2_alg».proof.Proof.Net
import proofs.«107841_j72722386256530_2_alg».proof.Proof.UpBlocks

noncomputable section

namespace Cert.Net

open Idealize.ShloMosaic Idealize.ShloMosaic.ValueIdx Cert.Dense Cert.Scale Cert.Edges Cert.UpBlocks

/-- Three layers with the factor applied before the gather and after the sum are three layers with per-message
    weights. -/
theorem three_layers {E : ℕ} (hN : 0 < 50000)
    (a0 : (⟨2, ![50000, 128]⟩ : Shape).Idx → EReal) (a4 a6 a8 : (⟨2, ![128, 128]⟩ : Shape).Idx → EReal)
    (a5 a7 a9 : (⟨1, ![128]⟩ : Shape).Idx → EReal) (dv : (⟨1, ![50000]⟩ : Shape).Idx → EReal)
    (dcol : (⟨2, ![50000, 1]⟩ : Shape).Idx → EReal) (hdcol : ∀ n : Fin 50000, dcol (ix2 n 0) = dv (ix1 n))
    (hd : ∀ n : Fin 50000, ∃ r : ℝ, 0 ≤ r ∧ dv (ix1 n) = (r : EReal))
    (rowc colc colw : IVec ⟨2, ![E, 1]⟩ 32)
    (hland : ∀ (e : Fin E) (n : Fin 50000), (colc (ix2 e 0)).toInt = (n.val : ℤ) → clampRow 50000 hN (colw (ix2 e 0)) = n)
    (nrm : (⟨1, ![E]⟩ : Shape).Idx → EReal)
    (hnrm : ∀ e : Fin E, nrm (ix1 e)
      = dv (ix1 (clampRow 50000 hN (rowc (ix2 e 0)))) * dv (ix1 (clampRow 50000 hN (colw (ix2 e 0))))) :
    act (scale (gsum hN (stageAll (gsum hN (stageAll (gsum hN (scale (prod a0 a4) dcol) rowc colc) dcol (row a5) a6)
        rowc colc) dcol (row a7) a8) rowc colc) dcol) (row a9)
      = layer hN (layer hN (layer hN a0 a4 a5 rowc colc nrm) a6 a7 rowc colc nrm) a8 a9 rowc colc nrm := by
  have e := fun H : (⟨2, ![50000, 128]⟩ : Shape).Idx → EReal =>
    scale_gsum_scale hN H dv dcol hdcol hd rowc colc colw hland nrm hnrm
  unfold stageAll layer
  rw [e, e, e]

end Cert.Net

end
-- ==== Proof.Bridge.lean ====
/-
  The two programs compute one function.

  The message columns, the node factors and the pooling tail are the same operations in both programs.  The kernel's
  features after three layers — each layer scaling by the node factor before the gather and after the sum — are the
  reference's, which weights every message by both end factors: the factor of a node is a nonnegative real number, so
  it distributes over the sum of the messages, and a message that lands on node n has wrapped and clamped target n.
  The read-out of the pooled features is then the same function of the same arrays.
-/
import proofs.«107841_j72722386256530_2_alg».proof.Defs
import proofs.«107841_j72722386256530_2_alg».proof.Proof.Gen.Pre_finite_inputs
import proofs.«107841_j72722386256530_2_alg».proof.Proof.KTail
import proofs.«107841_j72722386256530_2_alg».proof.Proof.KRun
import proofs.«107841_j72722386256530_2_alg».proof.Proof.RefValue
import proofs.«107841_j72722386256530_2_alg».proof.Proof.RefFacts
import proofs.«107841_j72722386256530_2_alg».proof.Proof.ThreeLayers

set_option maxRecDepth 16384

noncomputable section

namespace Cert.Bridge

open Idealize.ShloMosaic Idealize.ShloMosaic.TcCoe Idealize.SL.Sem Idealize.ShloMosaic.ValueIdx
open Cert.Dense Cert.Scale Cert.Net Cert.UpBlocks Cert.Edges

section

variable (a0 : FVec Ideal Cert.KernelIdeal.S50000x128 .f32) (a1 : IVec Cert.KernelIdeal.S2x600000 32)
  (a2 : IVec Cert.KernelIdeal.S50000 32) (a3 : FVec Ideal Cert.KernelIdeal.S512x27 .f32)
  (a4 : FVec Ideal Cert.KernelIdeal.S128x128 .f32) (a5 : FVec Ideal Cert.KernelIdeal.S128 .f32)
  (a6 : FVec Ideal Cert.KernelIdeal.S128x128 .f32) (a7 : FVec Ideal Cert.KernelIdeal.S128 .f32)
  (a8 : FVec Ideal Cert.KernelIdeal.S128x128 .f32) (a9 : FVec Ideal Cert.KernelIdeal.S128 .f32)

/-- The wrapped source column is the same operations in both programs. -/
theorem srcW_eq : Cert.KernelIdeal.KV.srcW a1 = Cert.ReferenceIdeal.Read.val_main_v19 (F := Ideal) a1 := rfl
/-- So is the target column. -/
theorem dstC_eq : Cert.KernelIdeal.KV.dstC a1 = Cert.ReferenceIdeal.Read.val_main_v9 (F := Ideal) a1 := rfl
/-- So are the node factors. -/
theorem dinv_eq : Cert.KernelIdeal.KV.dinv a1 = Cert.ReferenceIdeal.Read.val_main_v13 (F := Ideal) a1 := rfl

/-- The factor column's entry (n, 0) is the factor of node n. -/
theorem dcol_apply (n : Fin 50000) :
    Cert.KernelIdeal.KV.dcol a1 (ix2 n 0) = Cert.ReferenceIdeal.Read.val_main_v13 (F := Ideal) a1 (ix1 n) := by
  rw [← dinv_eq]
  exact Cert.LibColumns.broadcastInDim_vec_col ![0] rfl _ _ n

/-- The kernel's third-layer features are the reference's. -/
theorem feat_eq :
    Cert.KernelIdeal.KV.feat a0 a1 a4 a5 a6 a7 a8 a9
      = layer Cert.ReferenceIdeal.RefValue.hN (layer Cert.ReferenceIdeal.RefValue.hN
          (layer Cert.ReferenceIdeal.RefValue.hN a0 a4 a5 (Cert.ReferenceIdeal.Read.val_main_v19 (F := Ideal) a1) (Cert.ReferenceIdeal.Read.val_main_v9 (F := Ideal) a1) (Cert.ReferenceIdeal.Read.val_main_v28 (F := Ideal) a1))
          a6 a7 (Cert.ReferenceIdeal.Read.val_main_v19 (F := Ideal) a1) (Cert.ReferenceIdeal.Read.val_main_v9 (F := Ideal) a1) (Cert.ReferenceIdeal.Read.val_main_v28 (F := Ideal) a1))
          a8 a9 (Cert.ReferenceIdeal.Read.val_main_v19 (F := Ideal) a1) (Cert.ReferenceIdeal.Read.val_main_v9 (F := Ideal) a1) (Cert.ReferenceIdeal.Read.val_main_v28 (F := Ideal) a1) := by
  unfold Cert.KernelIdeal.KV.feat Cert.KernelIdeal.KV.s3 Cert.KernelIdeal.KV.p3 Cert.KernelIdeal.KV.s2 Cert.KernelIdeal.KV.p2
    Cert.KernelIdeal.KV.s1 Cert.KernelIdeal.KV.p1
  rw [srcW_eq, dstC_eq]
  exact three_layers _ a0 a4 a6 a8 a5 a7 a9 (Cert.ReferenceIdeal.Read.val_main_v13 (F := Ideal) a1) (Cert.KernelIdeal.KV.dcol a1) (dcol_apply a1)
    (Cert.ReferenceIdeal.RefFacts.dinv_real a1) _ _ (Cert.ReferenceIdeal.Read.val_main_v26 (F := Ideal) a1)
    (Cert.ReferenceIdeal.RefFacts.lands_wrap a1) _ (Cert.ReferenceIdeal.RefValue.nrm_apply a1)

/-- The pooling tail is the same operations in both programs. -/
theorem pool_eq (h : FVec Ideal Cert.KernelIdeal.S50000x128 .f32) :
    Cert.KernelIdeal.KV.pool a2 a3 h = Cert.ReferenceIdeal.RefValue.pool h a2 a3 := rfl

end

/-! ## The claims -/

/-- From memories agreeing on the arguments both programs end with the same result array: the kernel's at the read-out
    of the pooled third-layer features in its own order of operations, the reference's at the same read-out of the same
    features in the reference's order, one function (`feat_eq`, `pool_eq`). -/
theorem algebraic : Cert.algebraic_KernelIdeal_ReferenceIdeal := by
  intro m ρ m' ρ' _ hagree
  refine ⟨_, (θ_run (Cert.KernelIdeal.defs (F := Ideal)) _ _).mono
      (fun r h c => ⟨(h c).1.trans (Cert.KernelIdeal.KV.W10_v81 m ρ c), (h c).2⟩)
      (Cert.KernelIdeal.Run.run_named (F := Ideal) m ρ), ?_⟩
  refine (θ_run (Cert.ReferenceIdeal.defs (F := Ideal)) _ _).mono (fun _ h c => ⟨(h c).1.trans ?_, (h c).2⟩)
    (Cert.ReferenceIdeal.Value.run (F := Ideal) m' ρ')
  rw [Cert.ReferenceIdeal.Read.val_main_v104_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2, Cert.ReferenceIdeal.RefValue.ref_value, ← feat_eq, ← pool_eq]

end Cert.Bridge

end
-- ==== Proof.lean ====
/-
  The certificate of a three-layer graph convolution with mean pooling and a two-layer read-out, against its reference.

  Both programs compute, for node features x, messages (source, target) with one self loop per node appended, and
  node factors d(n) = 1 / sqrt(max(number of messages into n, 1)):  three times  h ← max(A h W + b, 0)  with
  (A u)(n) = ∑ over the messages e into n of u(source e) · d(source e) · d(n);  then per graph the mean of the node
  features, the metadata columns appended, and the read-out (max(z W1 + b1, 0)) W2 + b2.  The reference weights each
  message by both factors; the kernel scales the rows by d before the gather and again after the sum, inside three
  kernel regions of 25 row blocks each, and computes the read-out in a fourth region.  On the extended reals the two
  agree because d(n) is a nonnegative real number and so distributes over the sum of the messages.

  The three frames: the two kernel programs' are the generated frame certificates; the reference's is its generated run
  with the result dropped.  The idealization rewrote no operation.  The value claim is `Cert.Bridge.algebraic`.
-/
import proofs.«107841_j72722386256530_2_alg».proof.Defs
import proofs.«107841_j72722386256530_2_alg».proof.Proof.Gen.Kernel
import proofs.«107841_j72722386256530_2_alg».proof.Proof.Gen.Kernel.Frame
import proofs.«107841_j72722386256530_2_alg».proof.Proof.Gen.KernelIdeal
import proofs.«107841_j72722386256530_2_alg».proof.Proof.Gen.KernelIdeal.Frame
import proofs.«107841_j72722386256530_2_alg».proof.Proof.Gen.ReferenceIdeal
import proofs.«107841_j72722386256530_2_alg».proof.Proof.Gen.Pre_finite_inputs
import proofs.«107841_j72722386256530_2_alg».proof.Proof.Gen.ReferenceIdeal.Run
import proofs.«107841_j72722386256530_2_alg».proof.Proof.Gen.ReferenceIdeal.Read
import proofs.«107841_j72722386256530_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, Cert.Bridge.algebraic⟩

end Cert.Proof

end
